-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128 .f32) (main_arg10 : FVec F S128 .f32) (main_arg11 : FVec F S128 .f32) (main_arg12 : FVec F S128x64 .f32) (main_arg13 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S10x1x128 : Shape := ⟨3, ![10, 1, 128]⟩
abbrev S5000x128 : Shape := ⟨2, ![5000, 128]⟩
abbrev S1x1x128 : Shape := ⟨3, ![1, 1, 128]⟩
abbrev S1x128 : Shape := ⟨2, ![1, 128]⟩
abbrev S50000x64 : Shape := ⟨2, ![50000, 64]⟩

abbrev nBuf : Space → Nat
  | .hbm => 188
  | .vmem => 53
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S50000x128, .bf16⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .bf16⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000x1, .f32⟩
  | 67 => ⟨S50000x128, .f32⟩
  | 68 => ⟨S50000x128, .f32⟩
  | 69 => ⟨S50000x128, .f32⟩
  | 70 => ⟨S10x1x128, .f32⟩
  | 71 => ⟨S10x1x128, .f32⟩
  | 72 => ⟨S_, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S1x128, .f32⟩
  | 88 => ⟨S1x128, .f32⟩
  | 89 => ⟨S1x128, .f32⟩
  | 90 => ⟨S1x128, .f32⟩
  | 91 => ⟨S50000x128, .f32⟩
  | 92 => ⟨S50000x1, .f32⟩
  | 93 => ⟨S50000x128, .f32⟩
  | 94 => ⟨S50000x128, .f32⟩
  | 95 => ⟨S50000x128, .bf16⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .bf16⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x1, .f32⟩
  | 111 => ⟨S50000x128, .f32⟩
  | 112 => ⟨S50000x128, .f32⟩
  | 113 => ⟨S50000x128, .f32⟩
  | 114 => ⟨S10x1x128, .f32⟩
  | 115 => ⟨S10x1x128, .f32⟩
  | 116 => ⟨S_, .f32⟩
  | 117 => ⟨S128, .f32⟩
  | 118 => ⟨S_, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S1x128, .f32⟩
  | 5 => ⟨S1x128, .f32⟩
  | 6 => ⟨S1x128, .f32⟩
  | 7 => ⟨S50000x128, .f32⟩
  | 8 => ⟨S50000x1, .f32⟩
  | 9 => ⟨S50000x128, .f32⟩
  | 10 => ⟨S50000x128, .f32⟩
  | 11 => ⟨S50000x128, .bf16⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .bf16⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x1, .f32⟩
  | 27 => ⟨S50000x128, .f32⟩
  | 28 => ⟨S50000x128, .f32⟩
  | 29 => ⟨S50000x128, .f32⟩
  | 30 => ⟨S10x1x128, .f32⟩
  | 31 => ⟨S10x1x128, .f32⟩
  | 32 => ⟨S_, .f32⟩
  | 33 => ⟨S128, .f32⟩
  | 34 => ⟨S_, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S128, .f32⟩
  | 42 => ⟨S128, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128x128, .f32⟩
  | 50 => ⟨S_, .i32⟩
  | 51 => ⟨S_, .f32⟩
  | 52 => ⟨S128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S50000x128, .f32⟩
  | 59 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_v15 : Ref sig .tc := ⟨.hbm, 39, rfl⟩
abbrev main_cst_7 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c : Ref sig .tc := ⟨.hbm, 52, rfl⟩
abbrev main_v24 : Ref sig .tc := ⟨.hbm, 53, rfl⟩
abbrev main_v25 : Ref sig .tc := ⟨.hbm, 54, rfl⟩
abbrev main_c_9 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_cst_11 : Ref sig .tc := ⟨.hbm, 72, rfl⟩
abbrev main_v39 : Ref sig .tc := ⟨.hbm, 73, rfl⟩
abbrev main_cst_12 : Ref sig .tc := ⟨.hbm, 74, rfl⟩
abbrev main_v40 : Ref sig .tc := ⟨.hbm, 75, rfl⟩
abbrev main_cst_13 : Ref sig .tc := ⟨.hbm, 76, rfl⟩
abbrev main_v41 : Ref sig .tc := ⟨.hbm, 77, rfl⟩
abbrev main_v42 : Ref sig .tc := ⟨.hbm, 78, rfl⟩
abbrev main_cst_14 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_15 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_16 : Ref sig .tc := ⟨.hbm, 96, rfl⟩
abbrev main_v58 : Ref sig .tc := ⟨.hbm, 97, rfl⟩
abbrev main_v59 : Ref sig .tc := ⟨.hbm, 98, rfl⟩
abbrev main_c_17 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_18 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72_0 : Ref sig .tc := ⟨.hbm, 113, rfl⟩
abbrev main_v72_1 : Ref sig .tc := ⟨.hbm, 114, rfl⟩
abbrev main_v72_2 : Ref sig .tc := ⟨.hbm, 115, rfl⟩
abbrev main_cst_19 : Ref sig .tc := ⟨.hbm, 116, rfl⟩
abbrev main_v73 : Ref sig .tc := ⟨.hbm, 117, rfl⟩
abbrev main_cst_20 : Ref sig .tc := ⟨.hbm, 118, rfl⟩
abbrev main_v74 : Ref sig .tc := ⟨.hbm, 119, rfl⟩
abbrev main_cst_21 : Ref sig .tc := ⟨.hbm, 120, rfl⟩
abbrev main_v75 : Ref sig .tc := ⟨.hbm, 121, rfl⟩
abbrev main_v76 : Ref sig .tc := ⟨.hbm, 122, rfl⟩
abbrev main_cst_22 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_24 : Ref sig .tc := ⟨.hbm, 140, rfl⟩
abbrev main_v92 : Ref sig .tc := ⟨.hbm, 141, rfl⟩
abbrev main_v93 : Ref sig .tc := ⟨.hbm, 142, rfl⟩
abbrev main_c_25 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_26 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106_0 : Ref sig .tc := ⟨.hbm, 157, rfl⟩
abbrev main_v106_1 : Ref sig .tc := ⟨.hbm, 158, rfl⟩
abbrev main_v106_2 : Ref sig .tc := ⟨.hbm, 159, rfl⟩
abbrev main_cst_27 : Ref sig .tc := ⟨.hbm, 160, rfl⟩
abbrev main_v107 : Ref sig .tc := ⟨.hbm, 161, rfl⟩
abbrev main_cst_28 : Ref sig .tc := ⟨.hbm, 162, rfl⟩
abbrev main_v108 : Ref sig .tc := ⟨.hbm, 163, rfl⟩
abbrev main_cst_29 : Ref sig .tc := ⟨.hbm, 164, rfl⟩
abbrev main_v109 : Ref sig .tc := ⟨.hbm, 165, rfl⟩
abbrev main_v110 : Ref sig .tc := ⟨.hbm, 166, rfl⟩
abbrev main_cst_30 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_31 : Ref sig .tc := ⟨.hbm, 172, rfl⟩
abbrev main_v115 : Ref sig .tc := ⟨.hbm, 173, rfl⟩
abbrev main_v116 : Ref sig .tc := ⟨.hbm, 174, rfl⟩
abbrev main_c_32 : Ref sig .tc := ⟨.hbm, 175, rfl⟩
abbrev main_call2_v0 : Ref sig .tc := ⟨.hbm, 176, rfl⟩
abbrev main_v117 : Ref sig .tc := ⟨.hbm, 177, rfl⟩
abbrev main_c_33 : Ref sig .tc := ⟨.hbm, 178, rfl⟩
abbrev main_call3_v0 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg4_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg7_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem7_1 : DmaSem sig := 52

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S128 : S5000x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S10x1x128_S128_d0_1 : S10x1x128.ReducesTo [0, 1] S128
  h_S_ : 0 < S_.numel
  bcast_S_S128 : S_.BroadcastsInDim S128 (![] : Fin 0 → Fin S128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x64_S128x128_000_0640 : S128x64.Pads (![0, 0] : Fin 2 → Nat) ![0, 64] ![0, 0] S128x128
  pads_S64_S128_0640 : S64.Pads (![0] : Fin 1 → Nat) ![64] ![0] S128
  shapeCasts_S128x128_S128x128 : S128x128.ShapeCasts S128x128
  slices_S50000x128_S50000x64_0_0 : S50000x128.Slices ![0, 0] S50000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S10x1x128.size a
  hwx0_3 : ∀ i : grid0.Coords, EltTy.bits .f32 = 32 ∨ (Rect.block (s := S10x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S10x1x128.size a
  hwx0_4 : ∀ i : grid0.Coords, EltTy.bits .f32 = 32 ∨ (Rect.block (s := S10x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S10x1x128.size a
  hwx2_3 : ∀ i : grid2.Coords, EltTy.bits .f32 = 32 ∨ (Rect.block (s := S10x1x128) S1x1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S10x1x128.size a
  hwx2_4 : ∀ i : grid2.Coords, EltTy.bits .f32 = 32 ∨ (Rect.block (s := S10x1x128) S1x1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x128.size a ≤ S10x1x128.size a
  hwx4_3 : ∀ i : grid4.Coords, EltTy.bits .f32 = 32 ∨ (Rect.block (s := S10x1x128) S1x1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x128.size a ≤ S10x1x128.size a
  hwx4_4 : ∀ i : grid4.Coords, EltTy.bits .f32 = 32 ∨ (Rect.block (s := S10x1x128) S1x1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v37) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v72_1) S1x1x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v72_2) S1x1x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v105) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v106_1) S1x1x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v106_2) S1x1x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v106_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v117) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v123) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v124) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 211
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x64, .f32⟩
  | 13 => ⟨S64, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x1, .f32⟩
  | 65 => ⟨S50000x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x1, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x1, .f32⟩
  | 118 => ⟨S50000x128, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x1, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x1, .f32⟩
  | 43 => ⟨S50000x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x64, .f32⟩
  | 80 => ⟨S1x64, .f32⟩
  | 81 => ⟨S50000x64, .f32⟩
  | 82 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_v15 : Ref sig .tc := ⟨.hbm, 39, rfl⟩
abbrev main_cst_7 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_9 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_10 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_11 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_cst_14 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call2_cst : Ref sig .tc := ⟨.hbm, 98, rfl⟩
abbrev main_call2_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_19 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_21 : Ref sig .tc := ⟨.hbm, 130, rfl⟩
abbrev main_v87 : Ref sig .tc := ⟨.hbm, 131, rfl⟩
abbrev main_cst_22 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_23 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call3_cst : Ref sig .tc := ⟨.hbm, 151, rfl⟩
abbrev main_call3_v0 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_24 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_26 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_27 : Ref sig .tc := ⟨.hbm, 174, rfl⟩
abbrev main_v123 : Ref sig .tc := ⟨.hbm, 175, rfl⟩
abbrev main_cst_28 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_29 : Ref sig .tc := ⟨.hbm, 183, rfl⟩
abbrev main_v130 : Ref sig .tc := ⟨.hbm, 184, rfl⟩
abbrev main_cst_30 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_31 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_call4_cst : Ref sig .tc := ⟨.hbm, 204, rfl⟩
abbrev main_call4_v0 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized program's run with its result named. The program is a chain of host stretches and six tile
  pipelines; the contents of every buffer at each boundary are a fold from the launch memory (the last boundary's
  valuation is the one the result is read from). Every weakly fair execution ends with the result buffer at that
  valuation and the argument arrays as launched.
-/
import proofs.«155757_j37056977830250_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: from any memory with zero counters every weakly fair execution of the program
    terminates, nothing faulting, with the result buffer at the last boundary's contents and the arguments as
    launched. The launch theorem over the segments is applied as for the frame; the post keeps one more buffer. -/
theorem run_result : θ_run defs (onTc (τ := τ) (main (F := F))) ⟨m, fun _ => 0, ρ⟩ (fun r => ∀ c : Dev nD,
      r.2.mem ((c.tc : Thread nD τ).loc main_v125) = W21 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v125 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KernelIdeal.Run

end
-- ==== Proof.Spec.lean ====
/-
  The network in the host's own operations, stage by stage, as functions of whole arrays.

  One graph-convolution layer: scale the rows by the source nodes' degree factor, gather the rows at the edges'
  sources, add them up at the edges' destinations, scale by the destination nodes' degree factor, multiply by the
  weight, normalise every channel over the 50000 rows (mean, and variance as the mean squared deviation), scale,
  shift, rectify. The degree factor of a node is rsqrt(max(deg, 1)) where the node has an edge and 0 elsewhere.
  The network is three such layers and a linear head.
-/
import proofs.«155757_j37056977830250_2_alg».proof.ReferenceIdeal
import Idealize.ShloMosaic.PureOps.Ideal

noncomputable section

namespace Cert.Spec

open Cert.ReferenceIdeal Idealize.ShloMosaic

variable {F : FTy → Type} [FloatOps F] [Cert.ReferenceIdeal.Facts₀]

open Cert.ReferenceIdeal.Facts₀

/-- The all-zero vector over the nodes. -/
def zerosN : (⟨S50000, .f32⟩ : BufTy).Contents (Elt F) :=
  broadcastInDim S50000 ![] bcast_S_S50000 (constant S_ .f32 0x00000000#32)

/-- An edge list as a column. -/
def col (x : (⟨S800000, .i32⟩ : BufTy).Contents (Elt F)) : (⟨S800000x1, .i32⟩ : BufTy).Contents (Elt F) :=
  broadcastInDim S800000x1 ![0] bcast_S800000_S800000x1_0 x

/-- The number of edges at each node: ones added up at the edge list's entries. -/
def deg (x : (⟨S800000, .i32⟩ : BufTy).Contents (Elt F)) : (⟨S50000, .f32⟩ : BufTy).Contents (Elt F) :=
  Host.scatterAdd scatter_S50000_S800000x1_S800000_n_0_0_1 zerosN (col x)
    (broadcastInDim S800000 ![] bcast_S_S800000 (constant S_ .f32 0x3F800000#32))

/-- The degree factor: rsqrt(max(deg, 1)) where deg > 0, else 0. -/
def dinv (x : (⟨S800000, .i32⟩ : BufTy).Contents (Elt F)) : (⟨S50000, .f32⟩ : BufTy).Contents (Elt F) :=
  select (cmpf .ogt (deg x) zerosN)
    (Host.rsqrt (maximumf (deg x) (broadcastInDim S50000 ![] bcast_S_S50000 (constant S_ .f32 0x3F800000#32))))
    (broadcastInDim S50000 ![] bcast_S_S50000 (id (constant S_ .f32 0x00000000#32)))

/-- A per-node factor spread over the 128 channels. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- Negative node numbers count from the end. -/
def wrapIdx (x : (⟨S800000, .i32⟩ : BufTy).Contents (Elt F)) : (⟨S800000, .i32⟩ : BufTy).Contents (Elt F) :=
  select (cmpi .slt x (broadcastInDim S800000 ![] bcast_S_S800000 (constantI S_ 32 0#32)))
    (addi x (broadcastInDim S800000 ![] bcast_S_S800000 (constantI S_ 32 50000#32))) x

/-- The all-zero matrix. -/
def zerosM : (⟨S50000x128, .f32⟩ : BufTy).Contents (Elt F) :=
  broadcastInDim S50000x128 ![] bcast_S_S50000x128 (constant S_ .f32 0x00000000#32)

/-- The aggregation with given degree factors. -/
def aggWith (h : (⟨S50000x128, .f32⟩ : BufTy).Contents (Elt F)) (src dst : (⟨S800000, .i32⟩ : BufTy).Contents (Elt F))
    (ds dd : (⟨S50000, .f32⟩ : BufTy).Contents (Elt F)) : (⟨S50000x128, .f32⟩ : BufTy).Contents (Elt F) :=
  mulf (Host.scatterAdd scatter_S50000x128_S800000x1_S800000x128_1_0_0_1 zerosM (col dst)
      (Host.gather gather_S50000x128_S800000x1_S800000x128_1_0_n_n_0_1_1128 (mulf h (spread ds)) (col (wrapIdx src))))
    (spread dd)

/-- The aggregation. -/
def agg (h : (⟨S50000x128, .f32⟩ : BufTy).Contents (Elt F)) (src dst : (⟨S800000, .i32⟩ : BufTy).Contents (Elt F)) :
    (⟨S50000x128, .f32⟩ : BufTy).Contents (Elt F) :=
  aggWith h src dst (dinv src) (dinv dst)

/-- The product with a layer's weight. -/
def lin (m : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none m W

/-- The column sums. -/
def colSum (h : (⟨S50000x128, .f32⟩ : BufTy).Contents (Elt F)) : (⟨S128, .f32⟩ : BufTy).Contents (Elt F) :=
  Host.reduceAdd h (constant S_ .f32 0x00000000#32) reducesTo_S50000x128_S128_d0 h_S_

/-- The row count 50000 in every channel. -/
def nvec : (⟨S128, .f32⟩ : BufTy).Contents (Elt F) :=
  broadcastInDim S128 ![] bcast_S_S128 (constant S_ .f32 0x47435000#32)

/-- The column means. -/
def mean (h : (⟨S50000x128, .f32⟩ : BufTy).Contents (Elt F)) : (⟨S128, .f32⟩ : BufTy).Contents (Elt F) :=
  Host.divf (colSum h) nvec

/-- A channel vector repeated on every row. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The deviations from the column means. -/
def dev (h : (⟨S50000x128, .f32⟩ : BufTy).Contents (Elt F)) : (⟨S50000x128, .f32⟩ : BufTy).Contents (Elt F) :=
  subf h (rows (mean h))

/-- The column variances: the mean squared deviation. -/
def var (h : (⟨S50000x128, .f32⟩ : BufTy).Contents (Elt F)) : (⟨S128, .f32⟩ : BufTy).Contents (Elt F) :=
  Host.divf (colSum (mulf (dev h) (dev h))) nvec

/-- ε in every channel. -/
def epsv : (⟨S128, .f32⟩ : BufTy).Contents (Elt F) :=
  broadcastInDim S128 ![] bcast_S_S128 (constant S_ .f32 0x3727C5AC#32)

/-- Normalise, scale, shift, rectify. -/
def bnrelu (h : (⟨S50000x128, .f32⟩ : BufTy).Contents (Elt F)) (g b : (⟨S128, .f32⟩ : BufTy).Contents (Elt F)) :
    (⟨S50000x128, .f32⟩ : BufTy).Contents (Elt F) :=
  maximumf (addf (mulf (mulf (dev h) (rows (Host.rsqrt (addf (var h) epsv)))) (rows g)) (rows b)) zerosM

/-- One layer. -/
def layer (h : (⟨S50000x128, .f32⟩ : BufTy).Contents (Elt F)) (src dst : (⟨S800000, .i32⟩ : BufTy).Contents (Elt F))
    (W : (⟨S128x128, .f32⟩ : BufTy).Contents (Elt F)) (g b : (⟨S128, .f32⟩ : BufTy).Contents (Elt F)) :
    (⟨S50000x128, .f32⟩ : BufTy).Contents (Elt F) :=
  bnrelu (lin (agg h src dst) W) g b

/-- The linear head. -/
def head (h : (⟨S50000x128, .f32⟩ : BufTy).Contents (Elt F)) (W : (⟨S128x64, .f32⟩ : BufTy).Contents (Elt F))
    (b : (⟨S64, .f32⟩ : BufTy).Contents (Elt F)) : (⟨S50000x64, .f32⟩ : BufTy).Contents (Elt F) :=
  addf (Host.dotGeneral dot_S50000x128_S128x64_S50000x64_1_0_0_1_n_n none h W)
    (broadcastInDim S50000x64 ![0, 1] bcast_S1x64_S50000x64_0_1 (broadcastInDim S1x64 ![1] bcast_S64_S1x64_1 b))

/-- The network. -/
def net (feat : (⟨S50000x128, .f32⟩ : BufTy).Contents (Elt F)) (src dst : (⟨S800000, .i32⟩ : BufTy).Contents (Elt F))
    (W0 W1 W2 : (⟨S128x128, .f32⟩ : BufTy).Contents (Elt F)) (g0 b0 g1 b1 g2 b2 : (⟨S128, .f32⟩ : BufTy).Contents (Elt F))
    (cW : (⟨S128x64, .f32⟩ : BufTy).Contents (Elt F)) (cb : (⟨S64, .f32⟩ : BufTy).Contents (Elt F)) :
    (⟨S50000x64, .f32⟩ : BufTy).Contents (Elt F) :=
  head (layer (layer (layer feat src dst W0 g0 b0) src dst W1 g1 b1) src dst W2 g2 b2) cW cb

end Cert.Spec

end
-- ==== Proof.KKeep.lean ====
/-
  What the host stretches of the idealized program leave alone. Each stretch writes a known list of buffers; a buffer
  outside the list holds after the stretch what it held before. A tile pipeline changes only its own arrays. So the
  argument arrays, the degree factors and a layer's matrix are read at a later boundary as they were left.
-/
import proofs.«155757_j37056977830250_2_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.StableHlo Idealize.ShloMosaic.TcCoe

variable {F : FTy → Type} [FloatOps F]

/-- The buffers `hostOps0` writes. -/
abbrev hostOps0_Wr : List (Ref sig .tc) := [main_cst, main_v0, main_cst_0, main_v1, main_v2, main_v3, main_cst_1, main_v4, main_v5, main_cst_2, main_v6, main_v7, main_v8, main_cst_3]
theorem hostOps0_writes : (hostOps0 : List (HloOp τ sig (Elt F))).Forall fun op => op.writes ⊆ (hostOps0_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0` does not write keeps its contents. -/
theorem keep_hostOps0 (Wv : Valuation τ sig (Elt F)) (r : Ref sig .tc) (h : r ∉ hostOps0_Wr) :
    after (hostOps0 (F := F)) Wv (Proc.devRef .tc r) = Wv (Proc.devRef .tc r) :=
  after_of_writes_sub hostOps0 _ hostOps0_writes h

/-- The buffers `hostOps0_1` writes. -/
abbrev hostOps0_1_Wr : List (Ref sig .tc) := [main_call0_v0, main_call0_v1, main_v9]
theorem hostOps0_1_writes : (hostOps0_1 : List (HloOp τ sig (Elt F))).Forall fun op => op.writes ⊆ (hostOps0_1_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_1` does not write keeps its contents. -/
theorem keep_hostOps0_1 (Wv : Valuation τ sig (Elt F)) (r : Ref sig .tc) (h : r ∉ hostOps0_1_Wr) :
    after (hostOps0_1 (F := F)) Wv (Proc.devRef .tc r) = Wv (Proc.devRef .tc r) :=
  after_of_writes_sub hostOps0_1 _ hostOps0_1_writes h

/-- The buffers `hostOps0_2` writes. -/
abbrev hostOps0_2_Wr : List (Ref sig .tc) := [main_cst_4, main_v10, main_cst_5, main_v11, main_v12, main_v13, main_cst_6, main_v14, main_v15, main_cst_7, main_v16, main_v17, main_v18, main_cst_8]
theorem hostOps0_2_writes : (hostOps0_2 : List (HloOp τ sig (Elt F))).Forall fun op => op.writes ⊆ (hostOps0_2_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_2` does not write keeps its contents. -/
theorem keep_hostOps0_2 (Wv : Valuation τ sig (Elt F)) (r : Ref sig .tc) (h : r ∉ hostOps0_2_Wr) :
    after (hostOps0_2 (F := F)) Wv (Proc.devRef .tc r) = Wv (Proc.devRef .tc r) :=
  after_of_writes_sub hostOps0_2 _ hostOps0_2_writes h

/-- The buffers `hostOps0_3` writes. -/
abbrev hostOps0_3_Wr : List (Ref sig .tc) := [main_call1_v0, main_call1_v1, main_v19]
theorem hostOps0_3_writes : (hostOps0_3 : List (HloOp τ sig (Elt F))).Forall fun op => op.writes ⊆ (hostOps0_3_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_3` does not write keeps its contents. -/
theorem keep_hostOps0_3 (Wv : Valuation τ sig (Elt F)) (r : Ref sig .tc) (h : r ∉ hostOps0_3_Wr) :
    after (hostOps0_3 (F := F)) Wv (Proc.devRef .tc r) = Wv (Proc.devRef .tc r) :=
  after_of_writes_sub hostOps0_3 _ hostOps0_3_writes h

/-- The buffers `hostOps0_4` writes. -/
abbrev hostOps0_4_Wr : List (Ref sig .tc) := [main_v20, main_v21, main_v22, main_v23, main_c, main_v24, main_v25, main_c_9, main_v26, main_v27, main_v28, main_v29, main_v30, main_v31, main_cst_10, main_v32, main_v33, main_v34, main_v35, main_v36, main_v37]
theorem hostOps0_4_writes : (hostOps0_4 : List (HloOp τ sig (Elt F))).Forall fun op => op.writes ⊆ (hostOps0_4_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_4` does not write keeps its contents. -/
theorem keep_hostOps0_4 (Wv : Valuation τ sig (Elt F)) (r : Ref sig .tc) (h : r ∉ hostOps0_4_Wr) :
    after (hostOps0_4 (F := F)) Wv (Proc.devRef .tc r) = Wv (Proc.devRef .tc r) :=
  after_of_writes_sub hostOps0_4 _ hostOps0_4_writes h

/-- The buffers `hostOps1` writes. -/
abbrev hostOps1_Wr : List (Ref sig .tc) := [main_cst_11, main_v39, main_cst_12, main_v40, main_cst_13, main_v41, main_v42, main_cst_14, main_v43, main_v44, main_v45, main_v46, main_cst_15, main_v47, main_v48, main_v49, main_v50, main_v51, main_v52]
theorem hostOps1_writes : (hostOps1 : List (HloOp τ sig (Elt F))).Forall fun op => op.writes ⊆ (hostOps1_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1` does not write keeps its contents. -/
theorem keep_hostOps1 (Wv : Valuation τ sig (Elt F)) (r : Ref sig .tc) (h : r ∉ hostOps1_Wr) :
    after (hostOps1 (F := F)) Wv (Proc.devRef .tc r) = Wv (Proc.devRef .tc r) :=
  after_of_writes_sub hostOps1 _ hostOps1_writes h

/-- The buffers `hostOps2` writes. -/
abbrev hostOps2_Wr : List (Ref sig .tc) := [main_v54, main_v55, main_v56, main_v57, main_c_16, main_v58, main_v59, main_c_17, main_v60, main_v61, main_v62, main_v63, main_v64, main_v65, main_cst_18, main_v66, main_v67, main_v68, main_v69, main_v70, main_v71]
theorem hostOps2_writes : (hostOps2 : List (HloOp τ sig (Elt F))).Forall fun op => op.writes ⊆ (hostOps2_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps2` does not write keeps its contents. -/
theorem keep_hostOps2 (Wv : Valuation τ sig (Elt F)) (r : Ref sig .tc) (h : r ∉ hostOps2_Wr) :
    after (hostOps2 (F := F)) Wv (Proc.devRef .tc r) = Wv (Proc.devRef .tc r) :=
  after_of_writes_sub hostOps2 _ hostOps2_writes h

/-- The buffers `hostOps3` writes. -/
abbrev hostOps3_Wr : List (Ref sig .tc) := [main_cst_19, main_v73, main_cst_20, main_v74, main_cst_21, main_v75, main_v76, main_cst_22, main_v77, main_v78, main_v79, main_v80, main_cst_23, main_v81, main_v82, main_v83, main_v84, main_v85, main_v86]
theorem hostOps3_writes : (hostOps3 : List (HloOp τ sig (Elt F))).Forall fun op => op.writes ⊆ (hostOps3_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps3` does not write keeps its contents. -/
theorem keep_hostOps3 (Wv : Valuation τ sig (Elt F)) (r : Ref sig .tc) (h : r ∉ hostOps3_Wr) :
    after (hostOps3 (F := F)) Wv (Proc.devRef .tc r) = Wv (Proc.devRef .tc r) :=
  after_of_writes_sub hostOps3 _ hostOps3_writes h

/-- The buffers `hostOps4` writes. -/
abbrev hostOps4_Wr : List (Ref sig .tc) := [main_v88, main_v89, main_v90, main_v91, main_c_24, main_v92, main_v93, main_c_25, main_v94, main_v95, main_v96, main_v97, main_v98, main_v99, main_cst_26, main_v100, main_v101, main_v102, main_v103, main_v104, main_v105]
theorem hostOps4_writes : (hostOps4 : List (HloOp τ sig (Elt F))).Forall fun op => op.writes ⊆ (hostOps4_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps4` does not write keeps its contents. -/
theorem keep_hostOps4 (Wv : Valuation τ sig (Elt F)) (r : Ref sig .tc) (h : r ∉ hostOps4_Wr) :
    after (hostOps4 (F := F)) Wv (Proc.devRef .tc r) = Wv (Proc.devRef .tc r) :=
  after_of_writes_sub hostOps4 _ hostOps4_writes h

/-- The buffers `hostOps5` writes. -/
abbrev hostOps5_Wr : List (Ref sig .tc) := [main_cst_27, main_v107, main_cst_28, main_v108, main_cst_29, main_v109, main_v110, main_cst_30, main_v111, main_v112, main_v113, main_v114, main_cst_31, main_v115, main_v116, main_c_32]
theorem hostOps5_writes : (hostOps5 : List (HloOp τ sig (Elt F))).Forall fun op => op.writes ⊆ (hostOps5_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5` does not write keeps its contents. -/
theorem keep_hostOps5 (Wv : Valuation τ sig (Elt F)) (r : Ref sig .tc) (h : r ∉ hostOps5_Wr) :
    after (hostOps5 (F := F)) Wv (Proc.devRef .tc r) = Wv (Proc.devRef .tc r) :=
  after_of_writes_sub hostOps5 _ hostOps5_writes h

/-- The buffers `hostOps5_1` writes. -/
abbrev hostOps5_1_Wr : List (Ref sig .tc) := [main_call2_v0, main_v117]
theorem hostOps5_1_writes : (hostOps5_1 : List (HloOp τ sig (Elt F))).Forall fun op => op.writes ⊆ (hostOps5_1_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5_1` does not write keeps its contents. -/
theorem keep_hostOps5_1 (Wv : Valuation τ sig (Elt F)) (r : Ref sig .tc) (h : r ∉ hostOps5_1_Wr) :
    after (hostOps5_1 (F := F)) Wv (Proc.devRef .tc r) = Wv (Proc.devRef .tc r) :=
  after_of_writes_sub hostOps5_1 _ hostOps5_1_writes h

/-- The buffers `hostOps5_2` writes. -/
abbrev hostOps5_2_Wr : List (Ref sig .tc) := [main_c_33]
theorem hostOps5_2_writes : (hostOps5_2 : List (HloOp τ sig (Elt F))).Forall fun op => op.writes ⊆ (hostOps5_2_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5_2` does not write keeps its contents. -/
theorem keep_hostOps5_2 (Wv : Valuation τ sig (Elt F)) (r : Ref sig .tc) (h : r ∉ hostOps5_2_Wr) :
    after (hostOps5_2 (F := F)) Wv (Proc.devRef .tc r) = Wv (Proc.devRef .tc r) :=
  after_of_writes_sub hostOps5_2 _ hostOps5_2_writes h

/-- The buffers `hostOps5_3` writes. -/
abbrev hostOps5_3_Wr : List (Ref sig .tc) := [main_call3_v0, main_v118]
theorem hostOps5_3_writes : (hostOps5_3 : List (HloOp τ sig (Elt F))).Forall fun op => op.writes ⊆ (hostOps5_3_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5_3` does not write keeps its contents. -/
theorem keep_hostOps5_3 (Wv : Valuation τ sig (Elt F)) (r : Ref sig .tc) (h : r ∉ hostOps5_3_Wr) :
    after (hostOps5_3 (F := F)) Wv (Proc.devRef .tc r) = Wv (Proc.devRef .tc r) :=
  after_of_writes_sub hostOps5_3 _ hostOps5_3_writes h

/-- The buffers `hostOps5_4` writes. -/
abbrev hostOps5_4_Wr : List (Ref sig .tc) := [main_v119, main_v120, main_v121, main_v122, main_v123]
theorem hostOps5_4_writes : (hostOps5_4 : List (HloOp τ sig (Elt F))).Forall fun op => op.writes ⊆ (hostOps5_4_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5_4` does not write keeps its contents. -/
theorem keep_hostOps5_4 (Wv : Valuation τ sig (Elt F)) (r : Ref sig .tc) (h : r ∉ hostOps5_4_Wr) :
    after (hostOps5_4 (F := F)) Wv (Proc.devRef .tc r) = Wv (Proc.devRef .tc r) :=
  after_of_writes_sub hostOps5_4 _ hostOps5_4_writes h

/-- The buffers `hostOps6` writes. -/
abbrev hostOps6_Wr : List (Ref sig .tc) := [main_v125]
theorem hostOps6_writes : (hostOps6 : List (HloOp τ sig (Elt F))).Forall fun op => op.writes ⊆ (hostOps6_Wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps6` does not write keeps its contents. -/
theorem keep_hostOps6 (Wv : Valuation τ sig (Elt F)) (r : Ref sig .tc) (h : r ∉ hostOps6_Wr) :
    after (hostOps6 (F := F)) Wv (Proc.devRef .tc r) = Wv (Proc.devRef .tc r) :=
  after_of_writes_sub hostOps6 _ hostOps6_writes h

end Cert.KernelIdeal.Keep

end
-- ==== Proof.KHost.lean ====
/-
  The host stretches of the idealized program, each as functions of the buffers it reads.

  The first stretch computes the two degree factors and the first aggregation; the stretch after each product
  pipeline adds up the ten tile sums, divides by the row count, takes the mean of squares minus the squared mean
  clamped at zero, and lays the four channel vectors out as rows; the stretch after each normalisation pipeline is the
  next aggregation (the rounding of the gathered rows to half precision is the identity on the extended reals); the
  last stretches pad the head's weight and bias with zero columns, and cut the result's first 64 columns.
-/
import proofs.«155757_j37056977830250_2_alg».proof.Proof.Gen.KernelIdeal.Launch
import proofs.«155757_j37056977830250_2_alg».proof.Proof.Gen.ReferenceIdeal
import proofs.«155757_j37056977830250_2_alg».proof.Proof.Spec
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.StableHlo Idealize.ShloMosaic.TcCoe

variable {F : FTy → Type} [FloatOps F]

/-- The sum of the ten tile rows. -/
def sumParts (P : (⟨S10x1x128, .f32⟩ : BufTy).Contents (Elt F)) : (⟨S128, .f32⟩ : BufTy).Contents (Elt F) :=
  Host.reduceAdd P (constant S_ .f32 0x00000000#32) reducesTo_S10x1x128_S128_d0_1 h_S_

/-- The row count in every channel. -/
def nvec : (⟨S128, .f32⟩ : BufTy).Contents (Elt F) :=
  broadcastInDim S128 ![] bcast_S_S128 (constant S_ .f32 0x47435000#32)

/-- The column means from the tile sums. -/
def meanV (P : (⟨S10x1x128, .f32⟩ : BufTy).Contents (Elt F)) : (⟨S128, .f32⟩ : BufTy).Contents (Elt F) :=
  Host.divf (sumParts P) nvec

/-- The column variances from the tile sums of the entries and of their squares. -/
def varV (P Q : (⟨S10x1x128, .f32⟩ : BufTy).Contents (Elt F)) : (⟨S128, .f32⟩ : BufTy).Contents (Elt F) :=
  maximumf (subf (Host.divf (sumParts Q) nvec) (mulf (meanV P) (meanV P)))
    (broadcastInDim S128 ![] bcast_S_S128 (constant S_ .f32 0x00000000#32))

/-- A channel vector as one row. -/
def asRow (v : (⟨S128, .f32⟩ : BufTy).Contents (Elt F)) : (⟨S1x128, .f32⟩ : BufTy).Contents (Elt F) :=
  shapeCast S1x128 v shapeCasts_S128_S1x128

/-- The head's weight with 64 zero columns appended. -/
def padW (W : (⟨S128x64, .f32⟩ : BufTy).Contents (Elt F)) : (⟨S128x128, .f32⟩ : BufTy).Contents (Elt F) :=
  pad S128x128 ![0, 0] ![0, 64] ![0, 0] W (sitofp .f32 (constantI S_ 32 0#32)) pads_S128x64_S128x128_000_0640 h_S_

/-- The head's bias with 64 zeros appended. -/
def padB (b : (⟨S64, .f32⟩ : BufTy).Contents (Elt F)) : (⟨S128, .f32⟩ : BufTy).Contents (Elt F) :=
  pad S128 ![0] ![64] ![0] b (sitofp .f32 (constantI S_ 32 0#32)) pads_S64_S128_0640 h_S_

/-- The first 64 columns. -/
def cut64 (x : (⟨S50000x128, .f32⟩ : BufTy).Contents (Elt F)) : (⟨S50000x64, .f32⟩ : BufTy).Contents (Elt F) :=
  extractStridedSlice S50000x64 ![0, 0] x slices_S50000x128_S50000x64_0_0

/-- The all-zero vector over the nodes. -/
def zerosN : (⟨S50000, .f32⟩ : BufTy).Contents (Elt F) :=
  broadcastInDim S50000 ![] bcast_S_S50000 (constant S_ .f32 0x00000000#32)

/-- The number of edges at each node. -/
def degK (x : (⟨S800000, .i32⟩ : BufTy).Contents (Elt F)) : (⟨S50000, .f32⟩ : BufTy).Contents (Elt F) :=
  Host.scatterAdd scatter_S50000_S800000x1_S800000_n_0_0_1 zerosN (broadcastInDim S800000x1 ![0] bcast_S800000_S800000x1_0 x)
    (broadcastInDim S800000 ![] bcast_S_S800000 (constant S_ .f32 0x3F800000#32))

/-- The degree factor: rsqrt(max(deg, 1)) where deg > 0, else 0. -/
def dinvK (x : (⟨S800000, .i32⟩ : BufTy).Contents (Elt F)) : (⟨S50000, .f32⟩ : BufTy).Contents (Elt F) :=
  select (cmpf .ogt (degK x) zerosN)
    (Host.rsqrt (maximumf (degK x) (broadcastInDim S50000 ![] bcast_S_S50000 (constant S_ .f32 0x3F800000#32))))
    (broadcastInDim S50000 ![] bcast_S_S50000 (id (constant S_ .f32 0x00000000#32)))

/-- A per-node factor spread over the 128 channels. -/
def spreadK (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- Negative node numbers count from the end. -/
def wrapIdxK (x : (⟨S800000, .i32⟩ : BufTy).Contents (Elt F)) : (⟨S800000, .i32⟩ : BufTy).Contents (Elt F) :=
  select (cmpi .slt x (broadcastInDim S800000 ![] bcast_S_S800000 (constantI S_ 32 0#32)))
    (addi x (broadcastInDim S800000 ![] bcast_S_S800000 (constantI S_ 32 50000#32))) x

/-- The aggregation with given degree factors; the scaled rows pass through half precision on the way to the gather. -/
def aggWithK (h : (⟨S50000x128, .f32⟩ : BufTy).Contents (Elt F)) (src dst : (⟨S800000, .i32⟩ : BufTy).Contents (Elt F))
    (ds dd : (⟨S50000, .f32⟩ : BufTy).Contents (Elt F)) : (⟨S50000x128, .f32⟩ : BufTy).Contents (Elt F) :=
  mulf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (extf .f32 (Host.gather gather_S50000x128_S800000x1_S800000x128_1_0_n_n_0_1_1128
        (truncf .bf16 (mulf h (spreadK ds)) bitsLt_bf16_f32)
        (broadcastInDim S800000x1 ![0] bcast_S800000_S800000x1_0 (wrapIdxK src))) bitsLt_bf16_f32))
    (spreadK dd)

variable (Wv : Valuation τ sig (Elt F))

/-! ## The statistics stretches -/

theorem stats1_mean : after (hostOps1 (F := F)) Wv (Proc.devRef .tc main_v49) = asRow (meanV (Wv (Proc.devRef .tc main_v38_1))) := by
  dsimp only [hostOps1]; after_results; rfl
theorem stats1_var : after (hostOps1 (F := F)) Wv (Proc.devRef .tc main_v50)
    = asRow (varV (Wv (Proc.devRef .tc main_v38_1)) (Wv (Proc.devRef .tc main_v38_2))) := by
  dsimp only [hostOps1]; after_results; rfl
theorem stats1_g : after (hostOps1 (F := F)) Wv (Proc.devRef .tc main_v51) = asRow (Wv (Proc.devRef .tc main_arg6)) := by
  dsimp only [hostOps1]; after_results; rfl
theorem stats1_b : after (hostOps1 (F := F)) Wv (Proc.devRef .tc main_v52) = asRow (Wv (Proc.devRef .tc main_arg7)) := by
  dsimp only [hostOps1]; after_results; rfl

theorem stats3_mean : after (hostOps3 (F := F)) Wv (Proc.devRef .tc main_v83) = asRow (meanV (Wv (Proc.devRef .tc main_v72_1))) := by
  dsimp only [hostOps3]; after_results; rfl
theorem stats3_var : after (hostOps3 (F := F)) Wv (Proc.devRef .tc main_v84)
    = asRow (varV (Wv (Proc.devRef .tc main_v72_1)) (Wv (Proc.devRef .tc main_v72_2))) := by
  dsimp only [hostOps3]; after_results; rfl
theorem stats3_g : after (hostOps3 (F := F)) Wv (Proc.devRef .tc main_v85) = asRow (Wv (Proc.devRef .tc main_arg8)) := by
  dsimp only [hostOps3]; after_results; rfl
theorem stats3_b : after (hostOps3 (F := F)) Wv (Proc.devRef .tc main_v86) = asRow (Wv (Proc.devRef .tc main_arg9)) := by
  dsimp only [hostOps3]; after_results; rfl

/-- The five stretches before the last pipeline, in order. -/
abbrev after5 (V : Valuation τ sig (Elt F)) : Valuation τ sig (Elt F) :=
  after hostOps5_4 (after hostOps5_3 (after hostOps5_2 (after hostOps5_1 (after hostOps5 V))))

theorem stats5_mean : after5 Wv (Proc.devRef .tc main_v119) = asRow (meanV (Wv (Proc.devRef .tc main_v106_1))) := by
  dsimp only [after5, hostOps5, hostOps5_1, hostOps5_2, hostOps5_3, hostOps5_4]; after_results; rfl
theorem stats5_var : after5 Wv (Proc.devRef .tc main_v120)
    = asRow (varV (Wv (Proc.devRef .tc main_v106_1)) (Wv (Proc.devRef .tc main_v106_2))) := by
  dsimp only [after5, hostOps5, hostOps5_1, hostOps5_2, hostOps5_3, hostOps5_4]; after_results; rfl
theorem stats5_g : after5 Wv (Proc.devRef .tc main_v121) = asRow (Wv (Proc.devRef .tc main_arg10)) := by
  dsimp only [after5, hostOps5, hostOps5_1, hostOps5_2, hostOps5_3, hostOps5_4]; after_results; rfl
theorem stats5_b : after5 Wv (Proc.devRef .tc main_v122) = asRow (Wv (Proc.devRef .tc main_arg11)) := by
  dsimp only [after5, hostOps5, hostOps5_1, hostOps5_2, hostOps5_3, hostOps5_4]; after_results; rfl
theorem stats5_W : after5 Wv (Proc.devRef .tc main_v117) = padW (Wv (Proc.devRef .tc main_arg12)) := by
  dsimp only [after5, hostOps5, hostOps5_1, hostOps5_2, hostOps5_3, hostOps5_4]; after_results; rfl
theorem stats5_bias : after5 Wv (Proc.devRef .tc main_v123) = asRow (padB (Wv (Proc.devRef .tc main_arg13))) := by
  dsimp only [after5, hostOps5, hostOps5_1, hostOps5_2, hostOps5_3, hostOps5_4]; after_results; rfl

theorem last_cut : after (hostOps6 (F := F)) Wv (Proc.devRef .tc main_v125) = cut64 (Wv (Proc.devRef .tc main_v124)) := by
  dsimp only [hostOps6]; after_results; rfl

end Cert.KernelIdeal.KHost

end
-- ==== Proof.KHostAgg.lean ====
/-
  The aggregation stretches of the idealized program, each as one function of the buffers it reads.
-/
import proofs.«155757_j37056977830250_2_alg».proof.Proof.KHost

set_option maxRecDepth 16384

noncomputable section

namespace Cert.KernelIdeal.KHostAgg

open Cert.KernelIdeal Cert.KernelIdeal.Gen Cert.KernelIdeal.KHost Idealize.ShloMosaic Idealize.ShloMosaic.StableHlo Idealize.ShloMosaic.TcCoe

variable {F : FTy → Type} [FloatOps F]

variable (Wv : Valuation τ sig (Elt F))

/-! ## The aggregation stretches -/

theorem agg2 : after (hostOps2 (F := F)) Wv (Proc.devRef .tc main_v71)
    = aggWithK (Wv (Proc.devRef .tc main_v53)) (Wv (Proc.devRef .tc main_arg1)) (Wv (Proc.devRef .tc main_arg2))
        (Wv (Proc.devRef .tc main_v9)) (Wv (Proc.devRef .tc main_v19)) := by
  dsimp only [hostOps2]; after_results_simp; rfl

theorem agg4 : after (hostOps4 (F := F)) Wv (Proc.devRef .tc main_v105)
    = aggWithK (Wv (Proc.devRef .tc main_v87)) (Wv (Proc.devRef .tc main_arg1)) (Wv (Proc.devRef .tc main_arg2))
        (Wv (Proc.devRef .tc main_v9)) (Wv (Proc.devRef .tc main_v19)) := by
  dsimp only [hostOps4]; after_results_simp; rfl

/-- The five stretches before the first pipeline, in order. -/
abbrev first5 (V : Valuation τ sig (Elt F)) : Valuation τ sig (Elt F) :=
  after hostOps0_4 (after hostOps0_3 (after hostOps0_2 (after hostOps0_1 (after hostOps0 V))))

theorem first_v9 : first5 Wv (Proc.devRef .tc main_v9) = dinvK (Wv (Proc.devRef .tc main_arg1)) := by
  dsimp only [first5, hostOps0, hostOps0_1, hostOps0_2, hostOps0_3, hostOps0_4]; after_results_simp; rfl

theorem first_v19 : first5 Wv (Proc.devRef .tc main_v19) = dinvK (Wv (Proc.devRef .tc main_arg2)) := by
  dsimp only [first5, hostOps0, hostOps0_1, hostOps0_2, hostOps0_3, hostOps0_4]; after_results_simp; rfl

theorem first_v37 : first5 Wv (Proc.devRef .tc main_v37)
    = aggWithK (Wv (Proc.devRef .tc main_arg0)) (Wv (Proc.devRef .tc main_arg1)) (Wv (Proc.devRef .tc main_arg2))
        (dinvK (Wv (Proc.devRef .tc main_arg1))) (dinvK (Wv (Proc.devRef .tc main_arg2))) := by
  dsimp only [first5, hostOps0, hostOps0_1, hostOps0_2, hostOps0_3, hostOps0_4]; after_results_simp; rfl

end Cert.KernelIdeal.KHostAgg

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KSpec.lean ====
/-
  The three kinds of tile computation of the network, as functions of whole arrays read index by index on the extended
  reals. A matrix of 50000 rows and 128 channels is cut in ten tiles of 5000 rows; row r of tile t is row 5000·t + r.

  • the product of a row matrix with a 128 × 128 weight: entry (p, e) is Σ_k m(p,k) · W(k,e);
  • the tile sums of a matrix: entry (t, 0, e) is the sum of column e over the 5000 rows of tile t;
  • the batch normalisation with given column mean and variance, followed by the rectifier:
    max(((h − mean) · rsqrt(var + ε)) · γ + β, 0), channel by channel, ε the binary32 word nearest 1e-5;
  • the classifier on the normalised rows: Σ_k bn(p,k) · W(k,e) + bias(e).
-/
import Idealize.ShloMosaic.PureOps.Ideal
import Idealize.ShloMosaic.Lib.ValueIdx
import proofs.«155757_j37056977830250_2_alg».proof.Proof.LibTileSum

noncomputable section

open scoped BigOperators

namespace Cert.KSpec

open Idealize.ShloMosaic Idealize.ShloMosaic.ValueIdx

/-- A matrix of 50000 rows and 128 channels. -/
abbrev Mat := (⟨2, ![50000, 128]⟩ : Shape).Idx → EReal
/-- A 128 × 128 weight. -/
abbrev Wt := (⟨2, ![128, 128]⟩ : Shape).Idx → EReal
/-- One row of 128 channels. -/
abbrev Row := (⟨2, ![1, 128]⟩ : Shape).Idx → EReal
/-- Ten tiles' rows of 128 channels. -/
abbrev Parts := (⟨3, ![10, 1, 128]⟩ : Shape).Idx → EReal

/-- Row r of tile t. -/
abbrev tileRow (t : Fin 10) (r : Fin 5000) : Fin 50000 := TileSum.idx (by norm_num : 10 * 5000 = 50000) t r

/-- The product with a weight: entry (p, e) is Σ_k m(p,k) · W(k,e). -/
def lin (m : Mat) (W : Wt) : Mat := fun i => ∑ k : Fin 128, m (ix2 (i 0 : Fin 50000) k) * W (ix2 k (i 1 : Fin 128))

/-- The entrywise square. -/
def sq (h : Mat) : Mat := fun i => h i * h i

/-- The tile sums: entry (t, 0, e) is the sum of column e over tile t's rows. -/
def parts (h : Mat) : Parts := fun i => ∑ r : Fin 5000, h (ix2 (tileRow (i 0 : Fin 10) r) (i 2 : Fin 128))

/-- The word of ε. -/
abbrev epsW : BitVec 32 := 0x3727C5AC#32

/-- Normalisation with a given mean and variance row, scale and shift, then the rectifier. -/
def bn (h : Mat) (mean var g b : Row) : Mat := fun i =>
  max (((h i - mean (ix2 (0 : Fin 1) (i 1 : Fin 128))) * Ideal.rsqrt (var (ix2 (0 : Fin 1) (i 1 : Fin 128)) + Ideal.ofBits .f32 epsW))
        * g (ix2 (0 : Fin 1) (i 1 : Fin 128)) + b (ix2 (0 : Fin 1) (i 1 : Fin 128)))
      (Ideal.ofBits .f32 0x00000000#32)

/-- The classifier on the normalised rows. -/
def cls (h : Mat) (mean var g b : Row) (W : Wt) (bias : Row) : Mat := fun i =>
  (∑ k : Fin 128, bn h mean var g b (ix2 (i 0 : Fin 50000) k) * W (ix2 k (i 1 : Fin 128))) + bias (ix2 (0 : Fin 1) (i 1 : Fin 128))

end Cert.KSpec

end
-- ==== Proof.KNet.lean ====
/-
  The network as the idealized program computes it, stage by stage, as functions of whole arrays: the aggregation on
  the host (rows rounded to half precision on the way to the gather), the product and its tile sums in a pipeline, the
  statistics from the tile sums on the host, the normalisation in a pipeline; after the third product the
  normalisation and the head together in one pipeline on the zero-padded weight and bias, and the first 64 columns cut.
-/
import proofs.«155757_j37056977830250_2_alg».proof.Proof.KHost
import proofs.«155757_j37056977830250_2_alg».proof.Proof.KSpec

noncomputable section

namespace Cert.KNet

open Idealize.ShloMosaic Cert.KernelIdeal Cert.KernelIdeal.KHost

/-- One layer's aggregation. -/
def aggK (h : (⟨S50000x128, .f32⟩ : BufTy).Contents (Elt Ideal)) (src dst : (⟨S800000, .i32⟩ : BufTy).Contents (Elt Ideal)) :
    (⟨S50000x128, .f32⟩ : BufTy).Contents (Elt Ideal) :=
  aggWithK h src dst (dinvK src) (dinvK dst)

/-- The mean row of a product from its tile sums. -/
def meanRow (H : Cert.KSpec.Mat) : (⟨S1x128, .f32⟩ : BufTy).Contents (Elt Ideal) :=
  asRow (meanV (Cert.KSpec.parts H))

/-- The variance row of a product from the tile sums of its entries and of their squares. -/
def varRow (H : Cert.KSpec.Mat) : (⟨S1x128, .f32⟩ : BufTy).Contents (Elt Ideal) :=
  asRow (varV (Cert.KSpec.parts H) (Cert.KSpec.parts (Cert.KSpec.sq H)))

/-- One layer's normalisation of a product. -/
def bnK (H : Cert.KSpec.Mat) (g b : (⟨S128, .f32⟩ : BufTy).Contents (Elt Ideal)) : Cert.KSpec.Mat :=
  Cert.KSpec.bn H (meanRow H) (varRow H) (asRow g) (asRow b)

/-- One layer. -/
def layerK (h : (⟨S50000x128, .f32⟩ : BufTy).Contents (Elt Ideal)) (src dst : (⟨S800000, .i32⟩ : BufTy).Contents (Elt Ideal))
    (W : (⟨S128x128, .f32⟩ : BufTy).Contents (Elt Ideal)) (g b : (⟨S128, .f32⟩ : BufTy).Contents (Elt Ideal)) : Cert.KSpec.Mat :=
  bnK (Cert.KSpec.lin (aggK h src dst) W) g b

/-- The last product, normalised and sent through the head on the padded weight and bias, its first 64 columns. -/
def headK (H : Cert.KSpec.Mat) (g b : (⟨S128, .f32⟩ : BufTy).Contents (Elt Ideal))
    (cW : (⟨S128x64, .f32⟩ : BufTy).Contents (Elt Ideal)) (cb : (⟨S64, .f32⟩ : BufTy).Contents (Elt Ideal)) :
    (⟨S50000x64, .f32⟩ : BufTy).Contents (Elt Ideal) :=
  cut64 (Cert.KSpec.cls H (meanRow H) (varRow H) (asRow g) (asRow b) (padW cW) (asRow (padB cb)))

end Cert.KNet

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.MatmulPay.lean ====
/-
  The body shared by the three product regions, read at an index on the extended reals.

  A tile is a [5000, 128] block x of the row matrix and the [128, 128] weight w.
  • The stored product: entry (p, e) is Σ_k x(p, k) · w(k, e) — both operands pass through a narrowing format change,
    the identity on extended reals, and the accumulator is the zero matrix.
  • The first statistic: the column sums of the product over the tile's 5000 rows, a [128] vector viewed as [1, 128] and
    then as [1, 1, 128]: entry (0, 0, e) is Σ_r product(r, e).
  • The second statistic: the same of the entrywise square of the product: entry (0, 0, e) is Σ_r product(r, e)².
  The three regions' bodies are the same term, so the second and third are the first by unfolding.
-/
import proofs.«155757_j37056977830250_2_alg».proof.Proof.Gen.KernelIdeal.Skeleton
import proofs.«155757_j37056977830250_2_alg».proof.Proof.LibPlainMatmul
import proofs.«155757_j37056977830250_2_alg».proof.Proof.LibAxisSums
import Idealize.ShloMosaic.Lib.ValueLayout
import Idealize.ShloMosaic.Lib.Pipeline.Value

noncomputable section

open scoped BigOperators

namespace Cert.MatmulPay

open Cert.KernelIdeal Cert.KernelIdeal.Gen Idealize.ShloMosaic Idealize.ShloMosaic.ValueIdx

/-- The tile product at (p, e): Σ_k x(p, k) · w(k, e). -/
theorem pay1_apply (x : Vec Ideal S5000x128 .f32) (w : Vec Ideal S128x128 .f32) (p : Fin 5000) (e : Fin 128) :
    k0_pay1 (F := Ideal) x w (ix2 p e) = ∑ k : Fin 128, x (ix2 p k) * w (ix2 k e) := by
  unfold k0_pay1
  refine (matmul_plain_zero_apply 5000 128 128 none _ _ p e).trans ?_
  refine Finset.sum_congr rfl fun k _ => ?_
  rw [shapeCast_self]
  rfl

/-- The tile's column sums of the product, stored as [1, 1, 128]: entry (u, u', e) is Σ_r product(r, e). -/
theorem pay2_apply (x : Vec Ideal S5000x128 .f32) (w : Vec Ideal S128x128 .f32) (u u' : Fin 1) (e : Fin 128) :
    k0_pay2 (F := Ideal) x w (ix3 u u' e) = ∑ r : Fin 5000, k0_pay1 (F := Ideal) x w (ix2 r e) := by
  unfold k0_pay2
  refine (shapeCast_ab_1ab_apply _ _ u u' e).trans ?_
  refine (shapeCast_a_1a_apply _ _ u' e).trans ?_
  exact Cert.LibAxisSums.multiReduction_add_firstAxis_apply _ _ _ _ _ e

/-- The tile's column sums of the squared product, stored as [1, 1, 128]: entry (u, u', e) is Σ_r product(r, e)². -/
theorem pay3_apply (x : Vec Ideal S5000x128 .f32) (w : Vec Ideal S128x128 .f32) (u u' : Fin 1) (e : Fin 128) :
    k0_pay3 (F := Ideal) x w (ix3 u u' e)
      = ∑ r : Fin 5000, k0_pay1 (F := Ideal) x w (ix2 r e) * k0_pay1 (F := Ideal) x w (ix2 r e) := by
  unfold k0_pay3
  refine (shapeCast_ab_1ab_apply _ _ u u' e).trans ?_
  refine (shapeCast_a_1a_apply _ _ u' e).trans ?_
  exact Cert.LibAxisSums.multiReduction_add_firstAxis_apply _ _ _ _ _ e

/-! ## The same readings under each region's own name of the body

The three regions' bodies are one term under three names; each name's readings are the first's by unfolding. -/

/-- The first product region's body at (p, e). -/
theorem k0_pay1_apply (x : Vec Ideal S5000x128 .f32) (w : Vec Ideal S128x128 .f32) (p : Fin 5000) (e : Fin 128) :
    k0_pay1 (F := Ideal) x w (ix2 p e) = ∑ k : Fin 128, x (ix2 p k) * w (ix2 k e) := pay1_apply x w p e
/-- Its first statistic at (u, u', e). -/
theorem k0_pay2_apply (x : Vec Ideal S5000x128 .f32) (w : Vec Ideal S128x128 .f32) (u u' : Fin 1) (e : Fin 128) :
    k0_pay2 (F := Ideal) x w (ix3 u u' e) = ∑ r : Fin 5000, k0_pay1 (F := Ideal) x w (ix2 r e) := pay2_apply x w u u' e
/-- Its second statistic at (u, u', e). -/
theorem k0_pay3_apply (x : Vec Ideal S5000x128 .f32) (w : Vec Ideal S128x128 .f32) (u u' : Fin 1) (e : Fin 128) :
    k0_pay3 (F := Ideal) x w (ix3 u u' e)
      = ∑ r : Fin 5000, k0_pay1 (F := Ideal) x w (ix2 r e) * k0_pay1 (F := Ideal) x w (ix2 r e) := pay3_apply x w u u' e

/-- The second product region's body at (p, e). -/
theorem k2_pay1_apply (x : Vec Ideal S5000x128 .f32) (w : Vec Ideal S128x128 .f32) (p : Fin 5000) (e : Fin 128) :
    k2_pay1 (F := Ideal) x w (ix2 p e) = ∑ k : Fin 128, x (ix2 p k) * w (ix2 k e) := pay1_apply x w p e
/-- Its first statistic at (u, u', e). -/
theorem k2_pay2_apply (x : Vec Ideal S5000x128 .f32) (w : Vec Ideal S128x128 .f32) (u u' : Fin 1) (e : Fin 128) :
    k2_pay2 (F := Ideal) x w (ix3 u u' e) = ∑ r : Fin 5000, k2_pay1 (F := Ideal) x w (ix2 r e) := pay2_apply x w u u' e
/-- Its second statistic at (u, u', e). -/
theorem k2_pay3_apply (x : Vec Ideal S5000x128 .f32) (w : Vec Ideal S128x128 .f32) (u u' : Fin 1) (e : Fin 128) :
    k2_pay3 (F := Ideal) x w (ix3 u u' e)
      = ∑ r : Fin 5000, k2_pay1 (F := Ideal) x w (ix2 r e) * k2_pay1 (F := Ideal) x w (ix2 r e) := pay3_apply x w u u' e

/-- The third product region's body at (p, e). -/
theorem k4_pay1_apply (x : Vec Ideal S5000x128 .f32) (w : Vec Ideal S128x128 .f32) (p : Fin 5000) (e : Fin 128) :
    k4_pay1 (F := Ideal) x w (ix2 p e) = ∑ k : Fin 128, x (ix2 p k) * w (ix2 k e) := pay1_apply x w p e
/-- Its first statistic at (u, u', e). -/
theorem k4_pay2_apply (x : Vec Ideal S5000x128 .f32) (w : Vec Ideal S128x128 .f32) (u u' : Fin 1) (e : Fin 128) :
    k4_pay2 (F := Ideal) x w (ix3 u u' e) = ∑ r : Fin 5000, k4_pay1 (F := Ideal) x w (ix2 r e) := pay2_apply x w u u' e
/-- Its second statistic at (u, u', e). -/
theorem k4_pay3_apply (x : Vec Ideal S5000x128 .f32) (w : Vec Ideal S128x128 .f32) (u u' : Fin 1) (e : Fin 128) :
    k4_pay3 (F := Ideal) x w (ix3 u u' e)
      = ∑ r : Fin 5000, k4_pay1 (F := Ideal) x w (ix2 r e) * k4_pay1 (F := Ideal) x w (ix2 r e) := pay3_apply x w u u' e

end Cert.MatmulPay

end
-- ==== Proof.Reg4.lean ====
/-
  The third product region, from blocks to whole arrays, on the extended reals.

  The region runs over ten grid points; point t handles tile t: rows 5000·t … 5000·t + 4999 of the [50000, 128] row
  matrix m, with the whole [128, 128] weight W. Its three outputs, as functions of the arrays the region finds:
  • the product h = m · W, written in 5000-row blocks: block t holds rows of tile t, which depend on tile t's rows of m
    and on all of W;
  • the tile sums of h and of its entrywise square, [10, 1, 128] arrays written in [1, 1, 128] blocks: block t holds
    entry (t, 0, ·), the column sums over tile t's rows of h (of h²).
  Every output's blocks cover its array: row r of the product lies in block r / 5000, entry (t, 0, e) of a statistic in
  block t. So each array ends holding the whole-array function.
-/
import proofs.«155757_j37056977830250_2_alg».proof.Proof.Gen.KernelIdeal.Frame
import proofs.«155757_j37056977830250_2_alg».proof.Proof.KSpec
import proofs.«155757_j37056977830250_2_alg».proof.Proof.MatmulPay
import Idealize.ShloMosaic.Lib.Pipeline.Value

noncomputable section

open scoped BigOperators

namespace Cert.Reg4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point as a tile number. -/
def tile (t : Fin cfg4.N) : Fin 10 := Fin.cast N_4 t

theorem tile_val (t : Fin cfg4.N) : (tile t).val = t.val := rfl

/-- The index maps over the grid: the row matrix, the product and the statistics move one block per point along the
    first axis; the weight stays. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 3) = t.val ∧ win4_3.index t (1 : Fin 3) = 0 ∧ win4_3.index t (2 : Fin 3) = 0
    ∧ win4_4.index t (0 : Fin 3) = t.val ∧ win4_4.index t (1 : Fin 3) = 0 ∧ win4_4.index t (2 : Fin 3) = 0 :=
  (by decide +kernel : ∀ t : Fin grid4.N, _)

/-! ## The input blocks -/

/-- The row matrix's block at point t: row p of the block is row p of tile t. -/
theorem rows_apply (c : Dev nD) (t : Fin cfg4.N) (p : Fin 5000) (k : Fin 128) :
    (iblk4 V c 0 t : Vec Ideal S5000x128 .f32) (ix2 p k)
      = (V c (Pipeline.arrRef spec4 0) : Cert.KSpec.Mat) (ix2 (Cert.KSpec.tileRow (tile t) p) k) := by
  obtain ⟨e0, e1, -⟩ := idx_facts t
  show V c (Pipeline.arrRef spec4 0) (((cfg4.win 0).blk t).view.emb (ix2 p k)) = _
  refine congrArg _ (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- The weight's block at every point is the whole weight. -/
theorem weight_apply (c : Dev nD) (t : Fin cfg4.N) (k e : Fin 128) :
    (iblk4 V c 1 t : Vec Ideal S128x128 .f32) (ix2 k e) = (V c (Pipeline.arrRef spec4 1) : Cert.KSpec.Wt) (ix2 k e) := by
  obtain ⟨-, -, e2, e3, -⟩ := idx_facts t
  show V c (Pipeline.arrRef spec4 1) (((cfg4.win 1).blk t).view.emb (ix2 k e)) = _
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 128 + 1 * e.val = e.val; rw [e3]; omega

/-- The product of point t's blocks is the whole product on tile t's rows. -/
theorem tile_lin (c : Dev nD) (t : Fin cfg4.N) (p : Fin 5000) (e : Fin 128) :
    k4_pay1 (F := Ideal) (iblk4 V c 0 t) (iblk4 V c 1 t) (ix2 p e)
      = Cert.KSpec.lin (V c (Pipeline.arrRef spec4 0)) (V c (Pipeline.arrRef spec4 1)) (ix2 (Cert.KSpec.tileRow (tile t) p) e) := by
  refine (Cert.MatmulPay.k4_pay1_apply _ _ p e).trans ?_
  unfold Cert.KSpec.lin
  refine Finset.sum_congr rfl fun k _ => ?_
  rw [rows_apply, weight_apply]

/-! ## The product, written in 5000-row blocks -/

/-- What point t writes back to the product's array is block t of the whole product. -/
theorem flushed_lin (c : Dev nD) (t : Fin cfg4.N) :
    (dat4 (F := Ideal) V c).flushed 2 t
      = ((cfg4.win 2).blk t).view.read (Elt Ideal)
          (Cert.KSpec.lin (V c (Pipeline.arrRef spec4 0)) (V c (Pipeline.arrRef spec4 1))) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x128) zeros2]
  obtain ⟨-, -, -, -, e4, e5, -⟩ := idx_facts t
  funext j
  obtain ⟨p, e, rfl⟩ : ∃ (p : Fin 5000) (e : Fin 128), j = ix2 p e := ⟨j 0, j 1, eq_ix2 j⟩
  show k4_pay1 (F := Ideal) (iblk4 V c 0 t) (iblk4 V c 1 t) (ix2 p e)
      = Cert.KSpec.lin _ _ (((cfg4.win 2).blk t).view.emb (ix2 p e))
  rw [tile_lin]
  refine congrArg _ (funext fun a => Fin.ext ?_)
  match a with
  | ⟨0, _⟩ => show t.val * 5000 + p.val = win4_2.index t (0 : Fin 2) * 5000 + 1 * p.val; rw [e4]; omega
  | ⟨1, _⟩ => show e.val = win4_2.index t (1 : Fin 2) * 128 + 1 * e.val; rw [e5]; omega

/-- A row index of the product's array is in point t's block iff each coordinate is in the block's range. -/
theorem mem_rows (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v106_0).slice (win4_2.rect t)).set ↔ _
  rw [View.set_slice_whole, Rect.mem_set_unit]
  exact Iff.rfl

/-- Row r of the product lies in the block of point r / 5000. -/
theorem cover_rows (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e4, e5, -⟩ := idx_facts t
  refine ⟨t, flush4_2 t, ?_⟩
  rw [mem_rows]
  intro a
  match a with
  | ⟨0, _⟩ =>
    show win4_2.index t (0 : Fin 2) * 5000 ≤ (i 0).val ∧ (i 0).val < win4_2.index t (0 : Fin 2) * 5000 + 5000
    rw [e4]; omega
  | ⟨1, _⟩ =>
    show win4_2.index t (1 : Fin 2) * 128 ≤ (i 1).val ∧ (i 1).val < win4_2.index t (1 : Fin 2) * 128 + 128
    rw [e5]; omega

/-- The product's array after the region: the whole product of the row matrix and the weight the region finds. -/
theorem final_lin (c : Dev nD) :
    (dat4 (F := Ideal) V c).arrAt 2 cfg4.N
      = Cert.KSpec.lin (V c (Pipeline.arrRef spec4 0)) (V c (Pipeline.arrRef spec4 1)) :=
  (dat4 V c).arrAt_eq_of_cover 2 _ (fun t _ => flushed_lin V c t) cover_rows

/-! ## The tile sums, written in [1, 1, 128] blocks -/

/-- A block entry (u, u', e) of a statistic at point t is entry (t, 0, e) of its array. -/
theorem stat_emb3 (t : Fin cfg4.N) (u u' : Fin 1) (e : Fin 128) :
    ((cfg4.win 3).blk t).view.emb (ix3 u u' e) = ix3 (tile t) (0 : Fin 1) e := by
  obtain ⟨-, -, -, -, -, -, e6, e7, e8, -⟩ := idx_facts t
  have hu : u.val = 0 := by have := u.isLt; omega
  have hu' : u'.val = 0 := by have := u'.isLt; omega
  funext a; apply Fin.ext
  match a with
  | ⟨0, _⟩ => show win4_3.index t (0 : Fin 3) * 1 + 1 * u.val = t.val; rw [e6]; omega
  | ⟨1, _⟩ => show win4_3.index t (1 : Fin 3) * 1 + 1 * u'.val = 0; rw [e7]; omega
  | ⟨2, _⟩ => show win4_3.index t (2 : Fin 3) * 128 + 1 * e.val = e.val; rw [e8]; omega

theorem stat_emb4 (t : Fin cfg4.N) (u u' : Fin 1) (e : Fin 128) :
    ((cfg4.win 4).blk t).view.emb (ix3 u u' e) = ix3 (tile t) (0 : Fin 1) e := by
  obtain ⟨-, -, -, -, -, -, -, -, -, e9, e10, e11⟩ := idx_facts t
  have hu : u.val = 0 := by have := u.isLt; omega
  have hu' : u'.val = 0 := by have := u'.isLt; omega
  funext a; apply Fin.ext
  match a with
  | ⟨0, _⟩ => show win4_4.index t (0 : Fin 3) * 1 + 1 * u.val = t.val; rw [e9]; omega
  | ⟨1, _⟩ => show win4_4.index t (1 : Fin 3) * 1 + 1 * u'.val = 0; rw [e10]; omega
  | ⟨2, _⟩ => show win4_4.index t (2 : Fin 3) * 128 + 1 * e.val = e.val; rw [e11]; omega

/-- What point t writes back to the first statistic's array is block t of the tile sums of the whole product. -/
theorem flushed_sum (c : Dev nD) (t : Fin cfg4.N) :
    (dat4 (F := Ideal) V c).flushed 3 t
      = ((cfg4.win 3).blk t).view.read (Elt Ideal)
          (Cert.KSpec.parts (Cert.KSpec.lin (V c (Pipeline.arrRef spec4 0)) (V c (Pipeline.arrRef spec4 1)))) := by
  show (cfg4.win 3).cut (grid4.coords t) ((dat4 V c).after 3 t) = _
  rw [after4_3]
  unfold out4_3
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k4_pay2 (F := Ideal) (iblk4 V c 0 t) (iblk4 V c 1 t) (ix3 u u' e)
      = Cert.KSpec.parts _ (((cfg4.win 3).blk t).view.emb (ix3 u u' e))
  rw [stat_emb3]
  refine (Cert.MatmulPay.k4_pay2_apply _ _ u u' e).trans ?_
  unfold Cert.KSpec.parts
  exact Finset.sum_congr rfl fun r _ => tile_lin V c t r e

/-- What point t writes back to the second statistic's array is block t of the tile sums of the squared product. -/
theorem flushed_sumsq (c : Dev nD) (t : Fin cfg4.N) :
    (dat4 (F := Ideal) V c).flushed 4 t
      = ((cfg4.win 4).blk t).view.read (Elt Ideal)
          (Cert.KSpec.parts (Cert.KSpec.sq (Cert.KSpec.lin (V c (Pipeline.arrRef spec4 0)) (V c (Pipeline.arrRef spec4 1))))) := by
  show (cfg4.win 4).cut (grid4.coords t) ((dat4 V c).after 4 t) = _
  rw [after4_4]
  unfold out4_4
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k4_pay3 (F := Ideal) (iblk4 V c 0 t) (iblk4 V c 1 t) (ix3 u u' e)
      = Cert.KSpec.parts _ (((cfg4.win 4).blk t).view.emb (ix3 u u' e))
  rw [stat_emb4]
  refine (Cert.MatmulPay.k4_pay3_apply _ _ u u' e).trans ?_
  unfold Cert.KSpec.parts Cert.KSpec.sq
  refine Finset.sum_congr rfl fun r _ => ?_
  rw [tile_lin]

/-- An index of a statistic's array is in point t's block iff each coordinate is in the block's range. -/
theorem mem_stat3 (t : Fin cfg4.N) (i : S10x1x128.Idx) :
    i ∈ ((cfg4.win 3).blk t).view.set ↔ ∀ a : Fin 3, win4_3.index t a * S1x1x128.size a ≤ (i a).val
      ∧ (i a).val < win4_3.index t a * S1x1x128.size a + S1x1x128.size a := by
  show i ∈ ((View.whole main_v106_1).slice (win4_3.rect t)).set ↔ _
  rw [View.set_slice_whole, Rect.mem_set_unit]
  exact Iff.rfl

theorem mem_stat4 (t : Fin cfg4.N) (i : S10x1x128.Idx) :
    i ∈ ((cfg4.win 4).blk t).view.set ↔ ∀ a : Fin 3, win4_4.index t a * S1x1x128.size a ≤ (i a).val
      ∧ (i a).val < win4_4.index t a * S1x1x128.size a + S1x1x128.size a := by
  show i ∈ ((View.whole main_v106_2).slice (win4_4.rect t)).set ↔ _
  rw [View.set_slice_whole, Rect.mem_set_unit]
  exact Iff.rfl

/-- Entry (t, 0, e) of the first statistic lies in the block of point t. -/
theorem cover_stat3 (i : S10x1x128.Idx) :
    ∃ t : Fin cfg4.N, (cfg4.win 3).flush t = true ∧ i ∈ ((cfg4.win 3).blk t).view.set := by
  have hi0 : (i 0).val < 10 := (i 0).isLt
  have hi1 : (i 1).val < 1 := (i 1).isLt
  have hi2 : (i 2).val < 128 := (i 2).isLt
  have hN : cfg4.N = 10 := N_4
  obtain ⟨t, ht⟩ : ∃ t : Fin cfg4.N, t.val = (i 0).val := ⟨⟨(i 0).val, by rw [hN]; omega⟩, rfl⟩
  obtain ⟨-, -, -, -, -, -, e6, e7, e8, -⟩ := idx_facts t
  refine ⟨t, flush4_3 t, ?_⟩
  rw [mem_stat3]
  intro a
  match a with
  | ⟨0, _⟩ =>
    show win4_3.index t (0 : Fin 3) * 1 ≤ (i 0).val ∧ (i 0).val < win4_3.index t (0 : Fin 3) * 1 + 1
    rw [e6]; omega
  | ⟨1, _⟩ =>
    show win4_3.index t (1 : Fin 3) * 1 ≤ (i 1).val ∧ (i 1).val < win4_3.index t (1 : Fin 3) * 1 + 1
    rw [e7]; omega
  | ⟨2, _⟩ =>
    show win4_3.index t (2 : Fin 3) * 128 ≤ (i 2).val ∧ (i 2).val < win4_3.index t (2 : Fin 3) * 128 + 128
    rw [e8]; omega

/-- Entry (t, 0, e) of the second statistic lies in the block of point t. -/
theorem cover_stat4 (i : S10x1x128.Idx) :
    ∃ t : Fin cfg4.N, (cfg4.win 4).flush t = true ∧ i ∈ ((cfg4.win 4).blk t).view.set := by
  have hi0 : (i 0).val < 10 := (i 0).isLt
  have hi1 : (i 1).val < 1 := (i 1).isLt
  have hi2 : (i 2).val < 128 := (i 2).isLt
  have hN : cfg4.N = 10 := N_4
  obtain ⟨t, ht⟩ : ∃ t : Fin cfg4.N, t.val = (i 0).val := ⟨⟨(i 0).val, by rw [hN]; omega⟩, rfl⟩
  obtain ⟨-, -, -, -, -, -, -, -, -, e9, e10, e11⟩ := idx_facts t
  refine ⟨t, flush4_4 t, ?_⟩
  rw [mem_stat4]
  intro a
  match a with
  | ⟨0, _⟩ =>
    show win4_4.index t (0 : Fin 3) * 1 ≤ (i 0).val ∧ (i 0).val < win4_4.index t (0 : Fin 3) * 1 + 1
    rw [e9]; omega
  | ⟨1, _⟩ =>
    show win4_4.index t (1 : Fin 3) * 1 ≤ (i 1).val ∧ (i 1).val < win4_4.index t (1 : Fin 3) * 1 + 1
    rw [e10]; omega
  | ⟨2, _⟩ =>
    show win4_4.index t (2 : Fin 3) * 128 ≤ (i 2).val ∧ (i 2).val < win4_4.index t (2 : Fin 3) * 128 + 128
    rw [e11]; omega

/-- The first statistic's array after the region: the tile sums of the whole product. -/
theorem final_sum (c : Dev nD) :
    (dat4 (F := Ideal) V c).arrAt 3 cfg4.N
      = Cert.KSpec.parts (Cert.KSpec.lin (V c (Pipeline.arrRef spec4 0)) (V c (Pipeline.arrRef spec4 1))) :=
  (dat4 V c).arrAt_eq_of_cover 3 _ (fun t _ => flushed_sum V c t) cover_stat3

/-- The second statistic's array after the region: the tile sums of the squared whole product. -/
theorem final_sumsq (c : Dev nD) :
    (dat4 (F := Ideal) V c).arrAt 4 cfg4.N
      = Cert.KSpec.parts (Cert.KSpec.sq (Cert.KSpec.lin (V c (Pipeline.arrRef spec4 0)) (V c (Pipeline.arrRef spec4 1)))) :=
  (dat4 V c).arrAt_eq_of_cover 4 _ (fun t _ => flushed_sumsq V c t) cover_stat4

end Cert.Reg4

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.BnPay.lean ====
/-
  The two normalisation payloads read at an index, at the ideal values.

  The normalise-and-rectify payload takes a [5000,128] block h and four [1,128] rows (variance, mean, scale, shift;
  the variance row comes first in the payload's argument list). Entry (p, e) depends on h(p, e) and on column e of each
  row only: max(((h(p,e) − mean(e)) · rsqrt(var(e) + ε)) · γ(e) + β(e), 0), the constants kept as their binary32 words.

  The classifier payload multiplies that block by a [128,128] weight and adds a bias row: entry (p, e) is
  Σ_k bn(p, k) · W(k, e) + bias(e); it depends on row p of the block, column e of the weight and of the bias.
-/
import proofs.«155757_j37056977830250_2_alg».proof.Proof.Gen.KernelIdeal.Skeleton
import proofs.«155757_j37056977830250_2_alg».proof.Proof.LibRowBroadcast
import proofs.«155757_j37056977830250_2_alg».proof.Proof.LibPlainMatmul
import Idealize.ShloMosaic.Lib.Pipeline.Value

noncomputable section

open scoped BigOperators

namespace Cert.BnPay

open Cert.KernelIdeal Cert.KernelIdeal.Gen Idealize.ShloMosaic Idealize.ShloMosaic.ValueIdx

/-- The normalised and rectified entry from the five numbers it depends on. -/
def entry (h mean var g b : EReal) : EReal :=
  max (((h - mean) * Ideal.rsqrt (var + Ideal.ofBits .f32 0x3727C5AC#32)) * g + b) (Ideal.ofBits .f32 0x00000000#32)

/-- The normalisation payload at (p, e): the entry of h(p, e) and column e of the four rows. -/
theorem pay1_apply (v0 : Vec Ideal S1x128 .f32) (v5 : Vec Ideal S5000x128 .f32) (v7 v13 v17 : Vec Ideal S1x128 .f32)
    (p : Fin 5000) (e : Fin 128) :
    k1_pay1 (F := Ideal) v0 v5 v7 v13 v17 (ix2 p e)
      = entry (v5 (ix2 p e)) (v7 (ix2 (0 : Fin 1) e)) (v0 (ix2 (0 : Fin 1) e)) (v13 (ix2 (0 : Fin 1) e)) (v17 (ix2 (0 : Fin 1) e)) := by
  unfold k1_pay1
  simp only [shapeCast_self]
  rw [maximumf_apply, addf_apply, mulf_apply, mulf_apply, subf_apply]
  rw [Cert.LibRowBroadcast.broadcastTo_1b_ab_apply _ _ p e (0 : Fin 1),
    Cert.LibRowBroadcast.broadcastTo_1b_ab_apply _ _ p e (0 : Fin 1),
    Cert.LibRowBroadcast.broadcastTo_1b_ab_apply _ _ p e (0 : Fin 1),
    Cert.LibRowBroadcast.broadcastTo_1b_ab_apply _ _ p e (0 : Fin 1)]
  rfl

/-- The two normalisation regions have the same payload. -/
theorem pay3_eq : @k3_pay1 Ideal _ = @k1_pay1 Ideal _ := rfl

/-- The classifier payload is the product of the normalisation payload with the weight, plus the bias row spread over
    the rows. -/
theorem pay5_eq (v0 : Vec Ideal S1x128 .f32) (v5 : Vec Ideal S5000x128 .f32) (v7 v13 v17 : Vec Ideal S1x128 .f32)
    (v24 : Vec Ideal S128x128 .f32) (v28 : Vec Ideal S1x128 .f32) :
    k5_pay1 (F := Ideal) v0 v5 v7 v13 v17 v24 v28
      = addf (matmul dot_S5000x128_S128x128_S5000x128_1_0_0_1_n_n none
                (truncf .bf16 (k1_pay1 (F := Ideal) v0 v5 v7 v13 v17) bitsLt_bf16_f32)
                (truncf .bf16 (shapeCast S128x128 v24 shapeCasts_S128x128_S128x128) bitsLt_bf16_f32)
                (constant S5000x128 .f32 0x00000000#32))
             (broadcastTo S5000x128 (shapeCast S1x128 v28 shapeCasts_S1x128_S1x128) broadcasts_S1x128_S5000x128) := rfl

/-- The classifier payload at (p, e): Σ_k bn(p, k) · W(k, e) + bias(e). -/
theorem pay5_apply (v0 : Vec Ideal S1x128 .f32) (v5 : Vec Ideal S5000x128 .f32) (v7 v13 v17 : Vec Ideal S1x128 .f32)
    (v24 : Vec Ideal S128x128 .f32) (v28 : Vec Ideal S1x128 .f32) (p : Fin 5000) (e : Fin 128) :
    k5_pay1 (F := Ideal) v0 v5 v7 v13 v17 v24 v28 (ix2 p e)
      = (∑ k : Fin 128, k1_pay1 (F := Ideal) v0 v5 v7 v13 v17 (ix2 p k) * v24 (ix2 k e)) + v28 (ix2 (0 : Fin 1) e) := by
  rw [pay5_eq, addf_apply, Cert.LibRowBroadcast.broadcastTo_1b_ab_apply _ _ p e (0 : Fin 1)]
  simp only [shapeCast_self]
  congr 1
  exact matmul_plain_zero_apply 5000 128 128 none _ _ p e

end Cert.BnPay

end
-- ==== Proof.Reg5.lean ====
/-
  Region 5: the normalise-rectify-classify region over ten row tiles.

  Point t of the grid reads rows 5000·t … 5000·t + 4999 of the [50000,128] matrix h, the whole of four [1,128] rows
  (mean, variance, scale, shift), a whole [128,128] weight and a [1,128] bias row, and writes the same rows of the
  output. Entry (p, e) of the block a point writes depends on row 5000·t + p of h, the four rows, column e of the weight
  and of the bias. Hence every point writes its own rows of one function of the whole arrays, the ten blocks fill the
  output, and the output array ends holding that function.
-/
import proofs.«155757_j37056977830250_2_alg».proof.Proof.Gen.KernelIdeal.Frame
import proofs.«155757_j37056977830250_2_alg».proof.Proof.KSpec
import proofs.«155757_j37056977830250_2_alg».proof.Proof.BnPay
import Idealize.ShloMosaic.Lib.Pipeline.Value

noncomputable section

open scoped BigOperators

namespace Cert.Reg5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the matrix windows (h and the output) take row block t; the four rows, the weight and
    the bias row are whole. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The normalised entry from the whole arrays at (r, k): the target's inner function, entry by entry. -/
theorem bn_apply (H : Cert.KSpec.Mat) (M Vr G B : Cert.KSpec.Row) (r : Fin 50000) (k : Fin 128) :
    Cert.KSpec.bn H M Vr G B (ix2 r k)
      = Cert.BnPay.entry (H (ix2 r k)) (M (ix2 (0 : Fin 1) k)) (Vr (ix2 (0 : Fin 1) k)) (G (ix2 (0 : Fin 1) k)) (B (ix2 (0 : Fin 1) k)) := rfl

/-- The payload at entry (p, e) of the block against the target at (r, e), when row p of the block of h holds row r of
    the matrix and the other blocks hold their whole arrays. -/
theorem pay_at (x0 : Vec Ideal S5000x128 .f32) (x1 x2 x3 x4 : Vec Ideal S1x128 .f32) (x5 : Vec Ideal S128x128 .f32)
    (x6 : Vec Ideal S1x128 .f32)
    (H : Cert.KSpec.Mat) (M Vr G B : Cert.KSpec.Row) (W : Cert.KSpec.Wt) (Bi : Cert.KSpec.Row)
    (p : Fin 5000) (e : Fin 128) (r : Fin 50000)
    (h0 : ∀ k : Fin 128, x0 (ix2 p k) = H (ix2 r k))
    (h1 : ∀ e : Fin 128, x1 (ix2 (0 : Fin 1) e) = M (ix2 (0 : Fin 1) e))
    (h2 : ∀ e : Fin 128, x2 (ix2 (0 : Fin 1) e) = Vr (ix2 (0 : Fin 1) e))
    (h3 : ∀ e : Fin 128, x3 (ix2 (0 : Fin 1) e) = G (ix2 (0 : Fin 1) e))
    (h4 : ∀ e : Fin 128, x4 (ix2 (0 : Fin 1) e) = B (ix2 (0 : Fin 1) e))
    (h5 : ∀ k e : Fin 128, x5 (ix2 k e) = W (ix2 k e))
    (h6 : ∀ e : Fin 128, x6 (ix2 (0 : Fin 1) e) = Bi (ix2 (0 : Fin 1) e)) :
    k5_pay1 (F := Ideal) x2 x0 x1 x3 x4 x5 x6 (ix2 p e) = Cert.KSpec.cls H M Vr G B W Bi (ix2 r e) := by
  rw [Cert.BnPay.pay5_apply, h6]
  show _ = (∑ k : Fin 128, Cert.KSpec.bn H M Vr G B (ix2 r k) * W (ix2 k e)) + Bi (ix2 (0 : Fin 1) e)
  congr 1
  refine Finset.sum_congr rfl fun k _ => ?_
  rw [bn_apply, Cert.BnPay.pay1_apply, h0, h1, h2, h3, h4, h5]

/-- Entry (p, e) of the output block at point t sits at row 5000·t + p, column e of the output. -/
theorem out_emb (t : Fin cfg5.N) (p : Fin 5000) (e : Fin 128) (r : Fin 50000) (hr : r.val = t.val * 5000 + p.val) :
    (((cfg5.win 7).blk t).view.emb (ix2 p e) : S50000x128.Idx) = ix2 r e := by
  obtain ⟨-, -, -, -, -, -, -, -, -, -, -, -, -, -, o0, o1⟩ := index_maps t
  refine funext fun a => Fin.ext ?_
  match a with
  | ⟨0, _⟩ => show win5_7.index t (0 : Fin 2) * 5000 + 1 * p.val = r.val; omega
  | ⟨1, _⟩ => show win5_7.index t (1 : Fin 2) * 128 + 1 * e.val = e.val; omega

/-- Row p of the block of h at point t is row 5000·t + p of the matrix. -/
theorem read_h (c : Dev nD) (t : Fin cfg5.N) (p : Fin 5000) (r : Fin 50000) (hr : r.val = t.val * 5000 + p.val) (k : Fin 128) :
    (iblk5 V c 0 t : Vec Ideal S5000x128 .f32) (ix2 p k) = (V c (Pipeline.arrRef spec5 0) : S50000x128.Idx → EReal) (ix2 r k) := by
  obtain ⟨a0, a1, -, -, -, -, -, -, -, -, -, -, -, -, -, -⟩ := index_maps t
  show V c (Pipeline.arrRef spec5 0) (((cfg5.win 0).blk t).view.emb (ix2 p k)) = _
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The mean row's block is the mean row. -/
theorem read_1 (c : Dev nD) (t : Fin cfg5.N) (e : Fin 128) :
    (iblk5 V c 1 t : Vec Ideal S1x128 .f32) (ix2 (0 : Fin 1) e) = (V c (Pipeline.arrRef spec5 1) : S1x128.Idx → EReal) (ix2 (0 : Fin 1) e) := by
  obtain ⟨-, -, b0, b1, -, -, -, -, -, -, -, -, -, -, -, -⟩ := index_maps t
  show V c (Pipeline.arrRef spec5 1) (((cfg5.win 1).blk t).view.emb (ix2 (0 : Fin 1) e)) = _
  refine congrArg _ (funext fun a => Fin.ext ?_)
  match a with
  | ⟨0, _⟩ => show win5_1.index t (0 : Fin 2) * 1 + 1 * (0 : Fin 1).val = (0 : Fin 1).val; omega
  | ⟨1, _⟩ => show win5_1.index t (1 : Fin 2) * 128 + 1 * e.val = e.val; omega

/-- The variance row's block is the variance row. -/
theorem read_2 (c : Dev nD) (t : Fin cfg5.N) (e : Fin 128) :
    (iblk5 V c 2 t : Vec Ideal S1x128 .f32) (ix2 (0 : Fin 1) e) = (V c (Pipeline.arrRef spec5 2) : S1x128.Idx → EReal) (ix2 (0 : Fin 1) e) := by
  obtain ⟨-, -, -, -, b0, b1, -, -, -, -, -, -, -, -, -, -⟩ := index_maps t
  show V c (Pipeline.arrRef spec5 2) (((cfg5.win 2).blk t).view.emb (ix2 (0 : Fin 1) e)) = _
  refine congrArg _ (funext fun a => Fin.ext ?_)
  match a with
  | ⟨0, _⟩ => show win5_2.index t (0 : Fin 2) * 1 + 1 * (0 : Fin 1).val = (0 : Fin 1).val; omega
  | ⟨1, _⟩ => show win5_2.index t (1 : Fin 2) * 128 + 1 * e.val = e.val; omega

/-- The scale row's block is the scale row. -/
theorem read_3 (c : Dev nD) (t : Fin cfg5.N) (e : Fin 128) :
    (iblk5 V c 3 t : Vec Ideal S1x128 .f32) (ix2 (0 : Fin 1) e) = (V c (Pipeline.arrRef spec5 3) : S1x128.Idx → EReal) (ix2 (0 : Fin 1) e) := by
  obtain ⟨-, -, -, -, -, -, b0, b1, -, -, -, -, -, -, -, -⟩ := index_maps t
  show V c (Pipeline.arrRef spec5 3) (((cfg5.win 3).blk t).view.emb (ix2 (0 : Fin 1) e)) = _
  refine congrArg _ (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 128 + 1 * e.val = e.val; omega

/-- The shift row's block is the shift row. -/
theorem read_4 (c : Dev nD) (t : Fin cfg5.N) (e : Fin 128) :
    (iblk5 V c 4 t : Vec Ideal S1x128 .f32) (ix2 (0 : Fin 1) e) = (V c (Pipeline.arrRef spec5 4) : S1x128.Idx → EReal) (ix2 (0 : Fin 1) e) := by
  obtain ⟨-, -, -, -, -, -, -, -, b0, b1, -, -, -, -, -, -⟩ := index_maps t
  show V c (Pipeline.arrRef spec5 4) (((cfg5.win 4).blk t).view.emb (ix2 (0 : Fin 1) e)) = _
  refine congrArg _ (funext fun a => Fin.ext ?_)
  match a with
  | ⟨0, _⟩ => show win5_4.index t (0 : Fin 2) * 1 + 1 * (0 : Fin 1).val = (0 : Fin 1).val; omega
  | ⟨1, _⟩ => show win5_4.index t (1 : Fin 2) * 128 + 1 * e.val = e.val; omega

/-- The weight's block is the weight. -/
theorem read_5 (c : Dev nD) (t : Fin cfg5.N) (k e : Fin 128) :
    (iblk5 V c 5 t : Vec Ideal S128x128 .f32) (ix2 k e) = (V c (Pipeline.arrRef spec5 5) : S128x128.Idx → EReal) (ix2 k e) := by
  obtain ⟨-, -, -, -, -, -, -, -, -, -, b0, b1, -, -, -, -⟩ := index_maps t
  show V c (Pipeline.arrRef spec5 5) (((cfg5.win 5).blk t).view.emb (ix2 k e)) = _
  refine congrArg _ (funext fun a => Fin.ext ?_)
  match a with
  | ⟨0, _⟩ => show win5_5.index t (0 : Fin 2) * 128 + 1 * k.val = k.val; omega
  | ⟨1, _⟩ => show win5_5.index t (1 : Fin 2) * 128 + 1 * e.val = e.val; omega

/-- The bias row's block is the bias row. -/
theorem read_6 (c : Dev nD) (t : Fin cfg5.N) (e : Fin 128) :
    (iblk5 V c 6 t : Vec Ideal S1x128 .f32) (ix2 (0 : Fin 1) e) = (V c (Pipeline.arrRef spec5 6) : S1x128.Idx → EReal) (ix2 (0 : Fin 1) e) := by
  obtain ⟨-, -, -, -, -, -, -, -, -, -, -, -, b0, b1, -, -⟩ := index_maps t
  show V c (Pipeline.arrRef spec5 6) (((cfg5.win 6).blk t).view.emb (ix2 (0 : Fin 1) e)) = _
  refine congrArg _ (funext fun a => Fin.ext ?_)
  match a with
  | ⟨0, _⟩ => show win5_6.index t (0 : Fin 2) * 1 + 1 * (0 : Fin 1).val = (0 : Fin 1).val; omega
  | ⟨1, _⟩ => show win5_6.index t (1 : Fin 2) * 128 + 1 * e.val = e.val; omega

/-- The whole-array function the output ends holding. -/
abbrev target (c : Dev nD) : Cert.KSpec.Mat :=
  Cert.KSpec.cls (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (V c (Pipeline.arrRef spec5 6))

/-- What point t writes back is block t of the target. -/
theorem flushed_eq (c : Dev nD) (t : Fin cfg5.N) :
    (dat5 (F := Ideal) V c).flushed 7 t = ((cfg5.win 7).blk t).view.read (Elt Ideal) (target V c) := by
  show (cfg5.win 7).cut (grid5.coords t) ((dat5 (F := Ideal) V c).after 7 t) = _
  rw [after5_7]
  unfold out5_7
  rw [View.canon_unit_zero zero_off]
  simp only [View.ld_unit_zero (S := S5000x128) zero_off, View.ld_unit_zero (S := S1x128) zero_off, View.ld_unit_zero (S := S128x128) zero_off]
  funext j
  obtain ⟨p, e, rfl⟩ : ∃ (p : Fin 5000) (e : Fin 128), j = ix2 p e := ⟨j 0, j 1, eq_ix2 j⟩
  have hN : grid5.N = 10 := N_5
  have ht : t.val < grid5.N := t.isLt
  obtain ⟨r, hr⟩ : ∃ r : Fin 50000, r.val = t.val * 5000 + p.val := ⟨⟨t.val * 5000 + p.val, by have := p.isLt; omega⟩, rfl⟩
  show k5_pay1 (F := Ideal) (iblk5 V c 2 t) (iblk5 V c 0 t) (iblk5 V c 1 t) (iblk5 V c 3 t) (iblk5 V c 4 t) (iblk5 V c 5 t) (iblk5 V c 6 t) (ix2 p e)
    = target V c (((cfg5.win 7).blk t).view.emb (ix2 p e))
  rw [out_emb t p e r hr]
  exact pay_at _ _ _ _ _ _ _ _ _ _ _ _ _ _ p e r (read_h V c t p r hr) (read_1 V c t) (read_2 V c t) (read_3 V c t) (read_4 V c t) (read_5 V c t) (read_6 V c t)

/-- An index of the output is in point t's block iff each coordinate is in the block's range on its axis. -/
theorem mem_blk (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v124).slice (win5_7.rect t)).set ↔ _
  rw [View.set_slice_whole, Rect.mem_set_unit]
  exact Iff.rfl

/-- Every index of the output is in the block of the point its row falls in: row r is in tile r / 5000. -/
theorem covered (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 := ⟨⟨(i 0).val / 5000, by show _ < grid5.N; omega⟩, rfl⟩
  obtain ⟨-, -, -, -, -, -, -, -, -, -, -, -, -, -, o0, o1⟩ := index_maps t
  refine ⟨t, flush5_7 t, ?_⟩
  rw [mem_blk]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The output array after the region: the classifier on the normalised rows of the whole arrays as the region found
    them. -/
theorem final (c : Dev nD) :
    (dat5 (F := Ideal) V c).arrAt 7 cfg5.N
      = Cert.KSpec.cls (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) (V c (Pipeline.arrRef spec5 6)) :=
  (dat5 (F := Ideal) V c).arrAt_eq_of_cover 7 (target V c) (fun t _ => flushed_eq V c t) (covered)

end Cert.Reg5

end
-- ==== Proof.Reg2.lean ====
/-
  The second product region, from blocks to whole arrays, on the extended reals.

  The region runs over ten grid points; point t handles tile t: rows 5000·t … 5000·t + 4999 of the [50000, 128] row
  matrix m, with the whole [128, 128] weight W. Its three outputs, as functions of the arrays the region finds:
  • the product h = m · W, written in 5000-row blocks: block t holds rows of tile t, which depend on tile t's rows of m
    and on all of W;
  • the tile sums of h and of its entrywise square, [10, 1, 128] arrays written in [1, 1, 128] blocks: block t holds
    entry (t, 0, ·), the column sums over tile t's rows of h (of h²).
  Every output's blocks cover its array: row r of the product lies in block r / 5000, entry (t, 0, e) of a statistic in
  block t. So each array ends holding the whole-array function.
-/
import proofs.«155757_j37056977830250_2_alg».proof.Proof.Gen.KernelIdeal.Frame
import proofs.«155757_j37056977830250_2_alg».proof.Proof.KSpec
import proofs.«155757_j37056977830250_2_alg».proof.Proof.MatmulPay
import Idealize.ShloMosaic.Lib.Pipeline.Value

noncomputable section

open scoped BigOperators

namespace Cert.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point as a tile number. -/
def tile (t : Fin cfg2.N) : Fin 10 := Fin.cast N_2 t

theorem tile_val (t : Fin cfg2.N) : (tile t).val = t.val := rfl

/-- The index maps over the grid: the row matrix, the product and the statistics move one block per point along the
    first axis; the weight stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-! ## The input blocks -/

/-- The row matrix's block at point t: row p of the block is row p of tile t. -/
theorem rows_apply (c : Dev nD) (t : Fin cfg2.N) (p : Fin 5000) (k : Fin 128) :
    (iblk2 V c 0 t : Vec Ideal S5000x128 .f32) (ix2 p k)
      = (V c (Pipeline.arrRef spec2 0) : Cert.KSpec.Mat) (ix2 (Cert.KSpec.tileRow (tile t) p) k) := by
  obtain ⟨e0, e1, -⟩ := idx_facts t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight's block at every point is the whole weight. -/
theorem weight_apply (c : Dev nD) (t : Fin cfg2.N) (k e : Fin 128) :
    (iblk2 V c 1 t : Vec Ideal S128x128 .f32) (ix2 k e) = (V c (Pipeline.arrRef spec2 1) : Cert.KSpec.Wt) (ix2 k e) := by
  obtain ⟨-, -, e2, e3, -⟩ := idx_facts t
  show V c (Pipeline.arrRef spec2 1) (((cfg2.win 1).blk t).view.emb (ix2 k e)) = _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * e.val = e.val; rw [e3]; omega

/-- The product of point t's blocks is the whole product on tile t's rows. -/
theorem tile_lin (c : Dev nD) (t : Fin cfg2.N) (p : Fin 5000) (e : Fin 128) :
    k2_pay1 (F := Ideal) (iblk2 V c 0 t) (iblk2 V c 1 t) (ix2 p e)
      = Cert.KSpec.lin (V c (Pipeline.arrRef spec2 0)) (V c (Pipeline.arrRef spec2 1)) (ix2 (Cert.KSpec.tileRow (tile t) p) e) := by
  refine (Cert.MatmulPay.k2_pay1_apply _ _ p e).trans ?_
  unfold Cert.KSpec.lin
  refine Finset.sum_congr rfl fun k _ => ?_
  rw [rows_apply, weight_apply]

/-! ## The product, written in 5000-row blocks -/

/-- What point t writes back to the product's array is block t of the whole product. -/
theorem flushed_lin (c : Dev nD) (t : Fin cfg2.N) :
    (dat2 (F := Ideal) V c).flushed 2 t
      = ((cfg2.win 2).blk t).view.read (Elt Ideal)
          (Cert.KSpec.lin (V c (Pipeline.arrRef spec2 0)) (V c (Pipeline.arrRef spec2 1))) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  obtain ⟨-, -, -, -, e4, e5, -⟩ := idx_facts t
  funext j
  obtain ⟨p, e, rfl⟩ : ∃ (p : Fin 5000) (e : Fin 128), j = ix2 p e := ⟨j 0, j 1, eq_ix2 j⟩
  show k2_pay1 (F := Ideal) (iblk2 V c 0 t) (iblk2 V c 1 t) (ix2 p e)
      = Cert.KSpec.lin _ _ (((cfg2.win 2).blk t).view.emb (ix2 p e))
  rw [tile_lin]
  refine congrArg _ (funext fun a => Fin.ext ?_)
  match a with
  | ⟨0, _⟩ => show t.val * 5000 + p.val = win2_2.index t (0 : Fin 2) * 5000 + 1 * p.val; rw [e4]; omega
  | ⟨1, _⟩ => show e.val = win2_2.index t (1 : Fin 2) * 128 + 1 * e.val; rw [e5]; omega

/-- A row index of the product's array is in point t's block iff each coordinate is in the block's range. -/
theorem mem_rows (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v72_0).slice (win2_2.rect t)).set ↔ _
  rw [View.set_slice_whole, Rect.mem_set_unit]
  exact Iff.rfl

/-- Row r of the product lies in the block of point r / 5000. -/
theorem cover_rows (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5, -⟩ := idx_facts t
  refine ⟨t, flush2_2 t, ?_⟩
  rw [mem_rows]
  intro a
  match a with
  | ⟨0, _⟩ =>
    show win2_2.index t (0 : Fin 2) * 5000 ≤ (i 0).val ∧ (i 0).val < win2_2.index t (0 : Fin 2) * 5000 + 5000
    rw [e4]; omega
  | ⟨1, _⟩ =>
    show win2_2.index t (1 : Fin 2) * 128 ≤ (i 1).val ∧ (i 1).val < win2_2.index t (1 : Fin 2) * 128 + 128
    rw [e5]; omega

/-- The product's array after the region: the whole product of the row matrix and the weight the region finds. -/
theorem final_lin (c : Dev nD) :
    (dat2 (F := Ideal) V c).arrAt 2 cfg2.N
      = Cert.KSpec.lin (V c (Pipeline.arrRef spec2 0)) (V c (Pipeline.arrRef spec2 1)) :=
  (dat2 V c).arrAt_eq_of_cover 2 _ (fun t _ => flushed_lin V c t) cover_rows

/-! ## The tile sums, written in [1, 1, 128] blocks -/

/-- A block entry (u, u', e) of a statistic at point t is entry (t, 0, e) of its array. -/
theorem stat_emb3 (t : Fin cfg2.N) (u u' : Fin 1) (e : Fin 128) :
    ((cfg2.win 3).blk t).view.emb (ix3 u u' e) = ix3 (tile t) (0 : Fin 1) e := by
  obtain ⟨-, -, -, -, -, -, e6, e7, e8, -⟩ := idx_facts t
  have hu : u.val = 0 := by have := u.isLt; omega
  have hu' : u'.val = 0 := by have := u'.isLt; omega
  funext a; apply Fin.ext
  match a with
  | ⟨0, _⟩ => show win2_3.index t (0 : Fin 3) * 1 + 1 * u.val = t.val; rw [e6]; omega
  | ⟨1, _⟩ => show win2_3.index t (1 : Fin 3) * 1 + 1 * u'.val = 0; rw [e7]; omega
  | ⟨2, _⟩ => show win2_3.index t (2 : Fin 3) * 128 + 1 * e.val = e.val; rw [e8]; omega

theorem stat_emb4 (t : Fin cfg2.N) (u u' : Fin 1) (e : Fin 128) :
    ((cfg2.win 4).blk t).view.emb (ix3 u u' e) = ix3 (tile t) (0 : Fin 1) e := by
  obtain ⟨-, -, -, -, -, -, -, -, -, e9, e10, e11⟩ := idx_facts t
  have hu : u.val = 0 := by have := u.isLt; omega
  have hu' : u'.val = 0 := by have := u'.isLt; omega
  funext a; apply Fin.ext
  match a with
  | ⟨0, _⟩ => show win2_4.index t (0 : Fin 3) * 1 + 1 * u.val = t.val; rw [e9]; omega
  | ⟨1, _⟩ => show win2_4.index t (1 : Fin 3) * 1 + 1 * u'.val = 0; rw [e10]; omega
  | ⟨2, _⟩ => show win2_4.index t (2 : Fin 3) * 128 + 1 * e.val = e.val; rw [e11]; omega

/-- What point t writes back to the first statistic's array is block t of the tile sums of the whole product. -/
theorem flushed_sum (c : Dev nD) (t : Fin cfg2.N) :
    (dat2 (F := Ideal) V c).flushed 3 t
      = ((cfg2.win 3).blk t).view.read (Elt Ideal)
          (Cert.KSpec.parts (Cert.KSpec.lin (V c (Pipeline.arrRef spec2 0)) (V c (Pipeline.arrRef spec2 1)))) := by
  show (cfg2.win 3).cut (grid2.coords t) ((dat2 V c).after 3 t) = _
  rw [after2_3]
  unfold out2_3
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k2_pay2 (F := Ideal) (iblk2 V c 0 t) (iblk2 V c 1 t) (ix3 u u' e)
      = Cert.KSpec.parts _ (((cfg2.win 3).blk t).view.emb (ix3 u u' e))
  rw [stat_emb3]
  refine (Cert.MatmulPay.k2_pay2_apply _ _ u u' e).trans ?_
  unfold Cert.KSpec.parts
  exact Finset.sum_congr rfl fun r _ => tile_lin V c t r e

/-- What point t writes back to the second statistic's array is block t of the tile sums of the squared product. -/
theorem flushed_sumsq (c : Dev nD) (t : Fin cfg2.N) :
    (dat2 (F := Ideal) V c).flushed 4 t
      = ((cfg2.win 4).blk t).view.read (Elt Ideal)
          (Cert.KSpec.parts (Cert.KSpec.sq (Cert.KSpec.lin (V c (Pipeline.arrRef spec2 0)) (V c (Pipeline.arrRef spec2 1))))) := by
  show (cfg2.win 4).cut (grid2.coords t) ((dat2 V c).after 4 t) = _
  rw [after2_4]
  unfold out2_4
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k2_pay3 (F := Ideal) (iblk2 V c 0 t) (iblk2 V c 1 t) (ix3 u u' e)
      = Cert.KSpec.parts _ (((cfg2.win 4).blk t).view.emb (ix3 u u' e))
  rw [stat_emb4]
  refine (Cert.MatmulPay.k2_pay3_apply _ _ u u' e).trans ?_
  unfold Cert.KSpec.parts Cert.KSpec.sq
  refine Finset.sum_congr rfl fun r _ => ?_
  rw [tile_lin]

/-- An index of a statistic's array is in point t's block iff each coordinate is in the block's range. -/
theorem mem_stat3 (t : Fin cfg2.N) (i : S10x1x128.Idx) :
    i ∈ ((cfg2.win 3).blk t).view.set ↔ ∀ a : Fin 3, win2_3.index t a * S1x1x128.size a ≤ (i a).val
      ∧ (i a).val < win2_3.index t a * S1x1x128.size a + S1x1x128.size a := by
  show i ∈ ((View.whole main_v72_1).slice (win2_3.rect t)).set ↔ _
  rw [View.set_slice_whole, Rect.mem_set_unit]
  exact Iff.rfl

theorem mem_stat4 (t : Fin cfg2.N) (i : S10x1x128.Idx) :
    i ∈ ((cfg2.win 4).blk t).view.set ↔ ∀ a : Fin 3, win2_4.index t a * S1x1x128.size a ≤ (i a).val
      ∧ (i a).val < win2_4.index t a * S1x1x128.size a + S1x1x128.size a := by
  show i ∈ ((View.whole main_v72_2).slice (win2_4.rect t)).set ↔ _
  rw [View.set_slice_whole, Rect.mem_set_unit]
  exact Iff.rfl

/-- Entry (t, 0, e) of the first statistic lies in the block of point t. -/
theorem cover_stat3 (i : S10x1x128.Idx) :
    ∃ t : Fin cfg2.N, (cfg2.win 3).flush t = true ∧ i ∈ ((cfg2.win 3).blk t).view.set := by
  have hi0 : (i 0).val < 10 := (i 0).isLt
  have hi1 : (i 1).val < 1 := (i 1).isLt
  have hi2 : (i 2).val < 128 := (i 2).isLt
  have hN : cfg2.N = 10 := N_2
  obtain ⟨t, ht⟩ : ∃ t : Fin cfg2.N, t.val = (i 0).val := ⟨⟨(i 0).val, by rw [hN]; omega⟩, rfl⟩
  obtain ⟨-, -, -, -, -, -, e6, e7, e8, -⟩ := idx_facts t
  refine ⟨t, flush2_3 t, ?_⟩
  rw [mem_stat3]
  intro a
  match a with
  | ⟨0, _⟩ =>
    show win2_3.index t (0 : Fin 3) * 1 ≤ (i 0).val ∧ (i 0).val < win2_3.index t (0 : Fin 3) * 1 + 1
    rw [e6]; omega
  | ⟨1, _⟩ =>
    show win2_3.index t (1 : Fin 3) * 1 ≤ (i 1).val ∧ (i 1).val < win2_3.index t (1 : Fin 3) * 1 + 1
    rw [e7]; omega
  | ⟨2, _⟩ =>
    show win2_3.index t (2 : Fin 3) * 128 ≤ (i 2).val ∧ (i 2).val < win2_3.index t (2 : Fin 3) * 128 + 128
    rw [e8]; omega

/-- Entry (t, 0, e) of the second statistic lies in the block of point t. -/
theorem cover_stat4 (i : S10x1x128.Idx) :
    ∃ t : Fin cfg2.N, (cfg2.win 4).flush t = true ∧ i ∈ ((cfg2.win 4).blk t).view.set := by
  have hi0 : (i 0).val < 10 := (i 0).isLt
  have hi1 : (i 1).val < 1 := (i 1).isLt
  have hi2 : (i 2).val < 128 := (i 2).isLt
  have hN : cfg2.N = 10 := N_2
  obtain ⟨t, ht⟩ : ∃ t : Fin cfg2.N, t.val = (i 0).val := ⟨⟨(i 0).val, by rw [hN]; omega⟩, rfl⟩
  obtain ⟨-, -, -, -, -, -, -, -, -, e9, e10, e11⟩ := idx_facts t
  refine ⟨t, flush2_4 t, ?_⟩
  rw [mem_stat4]
  intro a
  match a with
  | ⟨0, _⟩ =>
    show win2_4.index t (0 : Fin 3) * 1 ≤ (i 0).val ∧ (i 0).val < win2_4.index t (0 : Fin 3) * 1 + 1
    rw [e9]; omega
  | ⟨1, _⟩ =>
    show win2_4.index t (1 : Fin 3) * 1 ≤ (i 1).val ∧ (i 1).val < win2_4.index t (1 : Fin 3) * 1 + 1
    rw [e10]; omega
  | ⟨2, _⟩ =>
    show win2_4.index t (2 : Fin 3) * 128 ≤ (i 2).val ∧ (i 2).val < win2_4.index t (2 : Fin 3) * 128 + 128
    rw [e11]; omega

/-- The first statistic's array after the region: the tile sums of the whole product. -/
theorem final_sum (c : Dev nD) :
    (dat2 (F := Ideal) V c).arrAt 3 cfg2.N
      = Cert.KSpec.parts (Cert.KSpec.lin (V c (Pipeline.arrRef spec2 0)) (V c (Pipeline.arrRef spec2 1))) :=
  (dat2 V c).arrAt_eq_of_cover 3 _ (fun t _ => flushed_sum V c t) cover_stat3

/-- The second statistic's array after the region: the tile sums of the squared whole product. -/
theorem final_sumsq (c : Dev nD) :
    (dat2 (F := Ideal) V c).arrAt 4 cfg2.N
      = Cert.KSpec.parts (Cert.KSpec.sq (Cert.KSpec.lin (V c (Pipeline.arrRef spec2 0)) (V c (Pipeline.arrRef spec2 1)))) :=
  (dat2 V c).arrAt_eq_of_cover 4 _ (fun t _ => flushed_sumsq V c t) cover_stat4

end Cert.Reg2

end
-- ==== Proof.Reg3.lean ====
/-
  Region 3: the normalise-and-rectify region over ten row tiles.

  Point t of the grid reads rows 5000·t … 5000·t + 4999 of the [50000,128] matrix h and the whole of four [1,128]
  rows (mean, variance, scale, shift), and writes the same rows of the output. Entry (p, e) of the block a point
  writes depends on h(5000·t + p, e) and column e of the four rows. Hence every point writes its own rows of one
  function of the whole arrays, the ten blocks fill the output, and the output array ends holding that function.
-/
import proofs.«155757_j37056977830250_2_alg».proof.Proof.Gen.KernelIdeal.Frame
import proofs.«155757_j37056977830250_2_alg».proof.Proof.KSpec
import proofs.«155757_j37056977830250_2_alg».proof.Proof.BnPay
import Idealize.ShloMosaic.Lib.Pipeline.Value

noncomputable section

namespace Cert.Reg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the matrix windows (h and the output) take row block t, the four rows are whole. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The normalised entry from the whole arrays, at an index of the matrix: the target function, entry by entry. -/
theorem bn_apply (H : Cert.KSpec.Mat) (M Vr G B : Cert.KSpec.Row) (i : S50000x128.Idx) (e : Fin 128) (he : (i 1).val = e.val) :
    Cert.KSpec.bn H M Vr G B i
      = Cert.BnPay.entry (H i) (M (ix2 (0 : Fin 1) e)) (Vr (ix2 (0 : Fin 1) e)) (G (ix2 (0 : Fin 1) e)) (B (ix2 (0 : Fin 1) e)) := by
  have h1 : (i 1 : Fin 128) = e := Fin.ext he
  unfold Cert.KSpec.bn Cert.BnPay.entry
  rw [h1]

/-- The payload at an entry of the block against the target at an index of the matrix with the same column, when the
    block of h holds the matrix's entry there and the four row blocks hold the rows. -/
theorem pay_at (x0 : Vec Ideal S5000x128 .f32) (x1 x2 x3 x4 : Vec Ideal S1x128 .f32)
    (H : Cert.KSpec.Mat) (M Vr G B : Cert.KSpec.Row) (j : S5000x128.Idx) (i : S50000x128.Idx)
    (hcol : (i 1).val = (j 1).val) (h0 : x0 j = H i)
    (h1 : ∀ e : Fin 128, x1 (ix2 (0 : Fin 1) e) = M (ix2 (0 : Fin 1) e))
    (h2 : ∀ e : Fin 128, x2 (ix2 (0 : Fin 1) e) = Vr (ix2 (0 : Fin 1) e))
    (h3 : ∀ e : Fin 128, x3 (ix2 (0 : Fin 1) e) = G (ix2 (0 : Fin 1) e))
    (h4 : ∀ e : Fin 128, x4 (ix2 (0 : Fin 1) e) = B (ix2 (0 : Fin 1) e)) :
    k3_pay1 (F := Ideal) x2 x0 x1 x3 x4 j = Cert.KSpec.bn H M Vr G B i := by
  obtain ⟨p, e, rfl⟩ : ∃ (p : Fin 5000) (e : Fin 128), j = ix2 p e := ⟨j 0, j 1, eq_ix2 j⟩
  rw [bn_apply H M Vr G B i e hcol]
  rw [Cert.BnPay.pay3_eq]
  rw [Cert.BnPay.pay1_apply, h0, h1, h2, h3, h4]

/-- The block of h at point t holds the matrix's entries at the output block's indices. -/
theorem read_h (c : Dev nD) (t : Fin cfg3.N) (j : S5000x128.Idx) :
    (iblk3 V c 0 t : Vec Ideal S5000x128 .f32) j = V c (Pipeline.arrRef spec3 0) (((cfg3.win 5).blk t).view.emb j) := by
  obtain ⟨a0, a1, -, -, -, -, -, -, -, -, o0, o1⟩ := index_maps t
  show V c (Pipeline.arrRef spec3 0) (((cfg3.win 0).blk t).view.emb j) = _
  refine congrArg _ (funext fun a => Fin.ext ?_)
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 128 + 1 * (j 1).val = win3_5.index t (1 : Fin 2) * 128 + 1 * (j 1).val; omega

/-- An index of the output block has the column of its place in the matrix. -/
theorem out_col (t : Fin cfg3.N) (j : S5000x128.Idx) :
    ((((cfg3.win 5).blk t).view.emb j : S50000x128.Idx) 1).val = (j 1).val := by
  obtain ⟨-, -, -, -, -, -, -, -, -, -, o0, o1⟩ := index_maps t
  show win3_5.index t (1 : Fin 2) * 128 + 1 * (j 1).val = (j 1).val
  omega

/-- The mean row's block is the mean row. -/
theorem read_1 (c : Dev nD) (t : Fin cfg3.N) (e : Fin 128) :
    (iblk3 V c 1 t : Vec Ideal S1x128 .f32) (ix2 (0 : Fin 1) e) = (V c (Pipeline.arrRef spec3 1) : S1x128.Idx → EReal) (ix2 (0 : Fin 1) e) := by
  obtain ⟨-, -, b0, b1, -, -, -, -, -, -, -, -⟩ := index_maps t
  show V c (Pipeline.arrRef spec3 1) (((cfg3.win 1).blk t).view.emb (ix2 (0 : Fin 1) e)) = _
  refine congrArg _ (funext fun a => Fin.ext ?_)
  match a with
  | ⟨0, _⟩ => show win3_1.index t (0 : Fin 2) * 1 + 1 * (0 : Fin 1).val = (0 : Fin 1).val; omega
  | ⟨1, _⟩ => show win3_1.index t (1 : Fin 2) * 128 + 1 * e.val = e.val; omega

/-- The variance row's block is the variance row. -/
theorem read_2 (c : Dev nD) (t : Fin cfg3.N) (e : Fin 128) :
    (iblk3 V c 2 t : Vec Ideal S1x128 .f32) (ix2 (0 : Fin 1) e) = (V c (Pipeline.arrRef spec3 2) : S1x128.Idx → EReal) (ix2 (0 : Fin 1) e) := by
  obtain ⟨-, -, -, -, b0, b1, -, -, -, -, -, -⟩ := index_maps t
  show V c (Pipeline.arrRef spec3 2) (((cfg3.win 2).blk t).view.emb (ix2 (0 : Fin 1) e)) = _
  refine congrArg _ (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 128 + 1 * e.val = e.val; omega

/-- The scale row's block is the scale row. -/
theorem read_3 (c : Dev nD) (t : Fin cfg3.N) (e : Fin 128) :
    (iblk3 V c 3 t : Vec Ideal S1x128 .f32) (ix2 (0 : Fin 1) e) = (V c (Pipeline.arrRef spec3 3) : S1x128.Idx → EReal) (ix2 (0 : Fin 1) e) := by
  obtain ⟨-, -, -, -, -, -, b0, b1, -, -, -, -⟩ := index_maps t
  show V c (Pipeline.arrRef spec3 3) (((cfg3.win 3).blk t).view.emb (ix2 (0 : Fin 1) e)) = _
  refine congrArg _ (funext fun a => Fin.ext ?_)
  match a with
  | ⟨0, _⟩ => show win3_3.index t (0 : Fin 2) * 1 + 1 * (0 : Fin 1).val = (0 : Fin 1).val; omega
  | ⟨1, _⟩ => show win3_3.index t (1 : Fin 2) * 128 + 1 * e.val = e.val; omega

/-- The shift row's block is the shift row. -/
theorem read_4 (c : Dev nD) (t : Fin cfg3.N) (e : Fin 128) :
    (iblk3 V c 4 t : Vec Ideal S1x128 .f32) (ix2 (0 : Fin 1) e) = (V c (Pipeline.arrRef spec3 4) : S1x128.Idx → EReal) (ix2 (0 : Fin 1) e) := by
  obtain ⟨-, -, -, -, -, -, -, -, b0, b1, -, -⟩ := index_maps t
  show V c (Pipeline.arrRef spec3 4) (((cfg3.win 4).blk t).view.emb (ix2 (0 : Fin 1) e)) = _
  refine congrArg _ (funext fun a => Fin.ext ?_)
  match a with
  | ⟨0, _⟩ => show win3_4.index t (0 : Fin 2) * 1 + 1 * (0 : Fin 1).val = (0 : Fin 1).val; omega
  | ⟨1, _⟩ => show win3_4.index t (1 : Fin 2) * 128 + 1 * e.val = e.val; omega

/-- The whole-array function the output ends holding. -/
abbrev target (c : Dev nD) : Cert.KSpec.Mat :=
  Cert.KSpec.bn (V c (Pipeline.arrRef spec3 0)) (V c (Pipeline.arrRef spec3 1)) (V c (Pipeline.arrRef spec3 2))
    (V c (Pipeline.arrRef spec3 3)) (V c (Pipeline.arrRef spec3 4))

/-- What point t writes back is block t of the target. -/
theorem flushed_eq (c : Dev nD) (t : Fin cfg3.N) :
    (dat3 (F := Ideal) V c).flushed 5 t = ((cfg3.win 5).blk t).view.read (Elt Ideal) (target V c) := by
  show (cfg3.win 5).cut (grid3.coords t) ((dat3 (F := Ideal) V c).after 5 t) = _
  rw [after3_5]
  unfold out3_5
  rw [View.canon_unit_zero zero_off]
  simp only [View.ld_unit_zero (S := S5000x128) zero_off, View.ld_unit_zero (S := S1x128) zero_off]
  funext j
  show k3_pay1 (F := Ideal) (iblk3 V c 2 t) (iblk3 V c 0 t) (iblk3 V c 1 t) (iblk3 V c 3 t) (iblk3 V c 4 t) j
    = target V c (((cfg3.win 5).blk t).view.emb j)
  exact pay_at _ _ _ _ _ _ _ _ _ _ j _ (out_col t j) (read_h V c t j) (read_1 V c t) (read_2 V c t) (read_3 V c t) (read_4 V c t)

/-- An index of the output is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v87).slice (win3_5.rect t)).set ↔ _
  rw [View.set_slice_whole, Rect.mem_set_unit]
  exact Iff.rfl

/-- Every index of the output is in the block of the point its row falls in: row r is in tile r / 5000. -/
theorem covered (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 := ⟨⟨(i 0).val / 5000, by show _ < grid3.N; omega⟩, rfl⟩
  obtain ⟨-, -, -, -, -, -, -, -, -, -, o0, o1⟩ := index_maps t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the normalisation of the whole arrays as the region found them. -/
theorem final (c : Dev nD) :
    (dat3 (F := Ideal) V c).arrAt 5 cfg3.N
      = Cert.KSpec.bn (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 (target V c) (fun t _ => flushed_eq V c t) (covered)

end Cert.Reg3

end
-- ==== Proof.Reg0.lean ====
/-
  The first product region, from blocks to whole arrays, on the extended reals.

  The region runs over ten grid points; point t handles tile t: rows 5000·t … 5000·t + 4999 of the [50000, 128] row
  matrix m, with the whole [128, 128] weight W. Its three outputs, as functions of the arrays the region finds:
  • the product h = m · W, written in 5000-row blocks: block t holds rows of tile t, which depend on tile t's rows of m
    and on all of W;
  • the tile sums of h and of its entrywise square, [10, 1, 128] arrays written in [1, 1, 128] blocks: block t holds
    entry (t, 0, ·), the column sums over tile t's rows of h (of h²).
  Every output's blocks cover its array: row r of the product lies in block r / 5000, entry (t, 0, e) of a statistic in
  block t. So each array ends holding the whole-array function.
-/
import proofs.«155757_j37056977830250_2_alg».proof.Proof.Gen.KernelIdeal.Frame
import proofs.«155757_j37056977830250_2_alg».proof.Proof.KSpec
import proofs.«155757_j37056977830250_2_alg».proof.Proof.MatmulPay
import Idealize.ShloMosaic.Lib.Pipeline.Value

noncomputable section

open scoped BigOperators

namespace Cert.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point as a tile number. -/
def tile (t : Fin cfg0.N) : Fin 10 := Fin.cast N_0 t

theorem tile_val (t : Fin cfg0.N) : (tile t).val = t.val := rfl

/-- The index maps over the grid: the row matrix, the product and the statistics move one block per point along the
    first axis; the weight stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The input blocks -/

/-- The row matrix's block at point t: row p of the block is row p of tile t. -/
theorem rows_apply (c : Dev nD) (t : Fin cfg0.N) (p : Fin 5000) (k : Fin 128) :
    (iblk0 V c 0 t : Vec Ideal S5000x128 .f32) (ix2 p k)
      = (V c (Pipeline.arrRef spec0 0) : Cert.KSpec.Mat) (ix2 (Cert.KSpec.tileRow (tile t) p) k) := by
  obtain ⟨e0, e1, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight's block at every point is the whole weight. -/
theorem weight_apply (c : Dev nD) (t : Fin cfg0.N) (k e : Fin 128) :
    (iblk0 V c 1 t : Vec Ideal S128x128 .f32) (ix2 k e) = (V c (Pipeline.arrRef spec0 1) : Cert.KSpec.Wt) (ix2 k e) := by
  obtain ⟨-, -, e2, e3, -⟩ := idx_facts t
  show V c (Pipeline.arrRef spec0 1) (((cfg0.win 1).blk t).view.emb (ix2 k e)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * e.val = e.val; rw [e3]; omega

/-- The product of point t's blocks is the whole product on tile t's rows. -/
theorem tile_lin (c : Dev nD) (t : Fin cfg0.N) (p : Fin 5000) (e : Fin 128) :
    k0_pay1 (F := Ideal) (iblk0 V c 0 t) (iblk0 V c 1 t) (ix2 p e)
      = Cert.KSpec.lin (V c (Pipeline.arrRef spec0 0)) (V c (Pipeline.arrRef spec0 1)) (ix2 (Cert.KSpec.tileRow (tile t) p) e) := by
  refine (Cert.MatmulPay.k0_pay1_apply _ _ p e).trans ?_
  unfold Cert.KSpec.lin
  refine Finset.sum_congr rfl fun k _ => ?_
  rw [rows_apply, weight_apply]

/-! ## The product, written in 5000-row blocks -/

/-- What point t writes back to the product's array is block t of the whole product. -/
theorem flushed_lin (c : Dev nD) (t : Fin cfg0.N) :
    (dat0 (F := Ideal) V c).flushed 2 t
      = ((cfg0.win 2).blk t).view.read (Elt Ideal)
          (Cert.KSpec.lin (V c (Pipeline.arrRef spec0 0)) (V c (Pipeline.arrRef spec0 1))) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨-, -, -, -, e4, e5, -⟩ := idx_facts t
  funext j
  obtain ⟨p, e, rfl⟩ : ∃ (p : Fin 5000) (e : Fin 128), j = ix2 p e := ⟨j 0, j 1, eq_ix2 j⟩
  show k0_pay1 (F := Ideal) (iblk0 V c 0 t) (iblk0 V c 1 t) (ix2 p e)
      = Cert.KSpec.lin _ _ (((cfg0.win 2).blk t).view.emb (ix2 p e))
  rw [tile_lin]
  refine congrArg _ (funext fun a => Fin.ext ?_)
  match a with
  | ⟨0, _⟩ => show t.val * 5000 + p.val = win0_2.index t (0 : Fin 2) * 5000 + 1 * p.val; rw [e4]; omega
  | ⟨1, _⟩ => show e.val = win0_2.index t (1 : Fin 2) * 128 + 1 * e.val; rw [e5]; omega

/-- A row index of the product's array is in point t's block iff each coordinate is in the block's range. -/
theorem mem_rows (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v38_0).slice (win0_2.rect t)).set ↔ _
  rw [View.set_slice_whole, Rect.mem_set_unit]
  exact Iff.rfl

/-- Row r of the product lies in the block of point r / 5000. -/
theorem cover_rows (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5, -⟩ := idx_facts t
  refine ⟨t, flush0_2 t, ?_⟩
  rw [mem_rows]
  intro a
  match a with
  | ⟨0, _⟩ =>
    show win0_2.index t (0 : Fin 2) * 5000 ≤ (i 0).val ∧ (i 0).val < win0_2.index t (0 : Fin 2) * 5000 + 5000
    rw [e4]; omega
  | ⟨1, _⟩ =>
    show win0_2.index t (1 : Fin 2) * 128 ≤ (i 1).val ∧ (i 1).val < win0_2.index t (1 : Fin 2) * 128 + 128
    rw [e5]; omega

/-- The product's array after the region: the whole product of the row matrix and the weight the region finds. -/
theorem final_lin (c : Dev nD) :
    (dat0 (F := Ideal) V c).arrAt 2 cfg0.N
      = Cert.KSpec.lin (V c (Pipeline.arrRef spec0 0)) (V c (Pipeline.arrRef spec0 1)) :=
  (dat0 V c).arrAt_eq_of_cover 2 _ (fun t _ => flushed_lin V c t) cover_rows

/-! ## The tile sums, written in [1, 1, 128] blocks -/

/-- A block entry (u, u', e) of a statistic at point t is entry (t, 0, e) of its array. -/
theorem stat_emb3 (t : Fin cfg0.N) (u u' : Fin 1) (e : Fin 128) :
    ((cfg0.win 3).blk t).view.emb (ix3 u u' e) = ix3 (tile t) (0 : Fin 1) e := by
  obtain ⟨-, -, -, -, -, -, e6, e7, e8, -⟩ := idx_facts t
  have hu : u.val = 0 := by have := u.isLt; omega
  have hu' : u'.val = 0 := by have := u'.isLt; omega
  funext a; apply Fin.ext
  match a with
  | ⟨0, _⟩ => show win0_3.index t (0 : Fin 3) * 1 + 1 * u.val = t.val; rw [e6]; omega
  | ⟨1, _⟩ => show win0_3.index t (1 : Fin 3) * 1 + 1 * u'.val = 0; rw [e7]; omega
  | ⟨2, _⟩ => show win0_3.index t (2 : Fin 3) * 128 + 1 * e.val = e.val; rw [e8]; omega

theorem stat_emb4 (t : Fin cfg0.N) (u u' : Fin 1) (e : Fin 128) :
    ((cfg0.win 4).blk t).view.emb (ix3 u u' e) = ix3 (tile t) (0 : Fin 1) e := by
  obtain ⟨-, -, -, -, -, -, -, -, -, e9, e10, e11⟩ := idx_facts t
  have hu : u.val = 0 := by have := u.isLt; omega
  have hu' : u'.val = 0 := by have := u'.isLt; omega
  funext a; apply Fin.ext
  match a with
  | ⟨0, _⟩ => show win0_4.index t (0 : Fin 3) * 1 + 1 * u.val = t.val; rw [e9]; omega
  | ⟨1, _⟩ => show win0_4.index t (1 : Fin 3) * 1 + 1 * u'.val = 0; rw [e10]; omega
  | ⟨2, _⟩ => show win0_4.index t (2 : Fin 3) * 128 + 1 * e.val = e.val; rw [e11]; omega

/-- What point t writes back to the first statistic's array is block t of the tile sums of the whole product. -/
theorem flushed_sum (c : Dev nD) (t : Fin cfg0.N) :
    (dat0 (F := Ideal) V c).flushed 3 t
      = ((cfg0.win 3).blk t).view.read (Elt Ideal)
          (Cert.KSpec.parts (Cert.KSpec.lin (V c (Pipeline.arrRef spec0 0)) (V c (Pipeline.arrRef spec0 1)))) := by
  show (cfg0.win 3).cut (grid0.coords t) ((dat0 V c).after 3 t) = _
  rw [after0_3]
  unfold out0_3
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k0_pay2 (F := Ideal) (iblk0 V c 0 t) (iblk0 V c 1 t) (ix3 u u' e)
      = Cert.KSpec.parts _ (((cfg0.win 3).blk t).view.emb (ix3 u u' e))
  rw [stat_emb3]
  refine (Cert.MatmulPay.k0_pay2_apply _ _ u u' e).trans ?_
  unfold Cert.KSpec.parts
  exact Finset.sum_congr rfl fun r _ => tile_lin V c t r e

/-- What point t writes back to the second statistic's array is block t of the tile sums of the squared product. -/
theorem flushed_sumsq (c : Dev nD) (t : Fin cfg0.N) :
    (dat0 (F := Ideal) V c).flushed 4 t
      = ((cfg0.win 4).blk t).view.read (Elt Ideal)
          (Cert.KSpec.parts (Cert.KSpec.sq (Cert.KSpec.lin (V c (Pipeline.arrRef spec0 0)) (V c (Pipeline.arrRef spec0 1))))) := by
  show (cfg0.win 4).cut (grid0.coords t) ((dat0 V c).after 4 t) = _
  rw [after0_4]
  unfold out0_4
  rw [View.canon_unit_zero zeros3]
  simp only [View.ld_unit_zero (S := S5000x128) zeros2, View.ld_unit_zero (S := S128x128) zeros2]
  funext j
  obtain ⟨u, u', e, rfl⟩ : ∃ (u u' : Fin 1) (e : Fin 128), j = ix3 u u' e := ⟨j 0, j 1, j 2, eq_ix3 j⟩
  show k0_pay3 (F := Ideal) (iblk0 V c 0 t) (iblk0 V c 1 t) (ix3 u u' e)
      = Cert.KSpec.parts _ (((cfg0.win 4).blk t).view.emb (ix3 u u' e))
  rw [stat_emb4]
  refine (Cert.MatmulPay.k0_pay3_apply _ _ u u' e).trans ?_
  unfold Cert.KSpec.parts Cert.KSpec.sq
  refine Finset.sum_congr rfl fun r _ => ?_
  rw [tile_lin]

/-- An index of a statistic's array is in point t's block iff each coordinate is in the block's range. -/
theorem mem_stat3 (t : Fin cfg0.N) (i : S10x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v38_1).slice (win0_3.rect t)).set ↔ _
  rw [View.set_slice_whole, Rect.mem_set_unit]
  exact Iff.rfl

theorem mem_stat4 (t : Fin cfg0.N) (i : S10x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v38_2).slice (win0_4.rect t)).set ↔ _
  rw [View.set_slice_whole, Rect.mem_set_unit]
  exact Iff.rfl

/-- Entry (t, 0, e) of the first statistic lies in the block of point t. -/
theorem cover_stat3 (i : S10x1x128.Idx) :
    ∃ t : Fin cfg0.N, (cfg0.win 3).flush t = true ∧ i ∈ ((cfg0.win 3).blk t).view.set := by
  have hi0 : (i 0).val < 10 := (i 0).isLt
  have hi1 : (i 1).val < 1 := (i 1).isLt
  have hi2 : (i 2).val < 128 := (i 2).isLt
  have hN : cfg0.N = 10 := N_0
  obtain ⟨t, ht⟩ : ∃ t : Fin cfg0.N, t.val = (i 0).val := ⟨⟨(i 0).val, by rw [hN]; omega⟩, rfl⟩
  obtain ⟨-, -, -, -, -, -, e6, e7, e8, -⟩ := idx_facts t
  refine ⟨t, flush0_3 t, ?_⟩
  rw [mem_stat3]
  intro a
  match a with
  | ⟨0, _⟩ =>
    show win0_3.index t (0 : Fin 3) * 1 ≤ (i 0).val ∧ (i 0).val < win0_3.index t (0 : Fin 3) * 1 + 1
    rw [e6]; omega
  | ⟨1, _⟩ =>
    show win0_3.index t (1 : Fin 3) * 1 ≤ (i 1).val ∧ (i 1).val < win0_3.index t (1 : Fin 3) * 1 + 1
    rw [e7]; omega
  | ⟨2, _⟩ =>
    show win0_3.index t (2 : Fin 3) * 128 ≤ (i 2).val ∧ (i 2).val < win0_3.index t (2 : Fin 3) * 128 + 128
    rw [e8]; omega

/-- Entry (t, 0, e) of the second statistic lies in the block of point t. -/
theorem cover_stat4 (i : S10x1x128.Idx) :
    ∃ t : Fin cfg0.N, (cfg0.win 4).flush t = true ∧ i ∈ ((cfg0.win 4).blk t).view.set := by
  have hi0 : (i 0).val < 10 := (i 0).isLt
  have hi1 : (i 1).val < 1 := (i 1).isLt
  have hi2 : (i 2).val < 128 := (i 2).isLt
  have hN : cfg0.N = 10 := N_0
  obtain ⟨t, ht⟩ : ∃ t : Fin cfg0.N, t.val = (i 0).val := ⟨⟨(i 0).val, by rw [hN]; omega⟩, rfl⟩
  obtain ⟨-, -, -, -, -, -, -, -, -, e9, e10, e11⟩ := idx_facts t
  refine ⟨t, flush0_4 t, ?_⟩
  rw [mem_stat4]
  intro a
  match a with
  | ⟨0, _⟩ =>
    show win0_4.index t (0 : Fin 3) * 1 ≤ (i 0).val ∧ (i 0).val < win0_4.index t (0 : Fin 3) * 1 + 1
    rw [e9]; omega
  | ⟨1, _⟩ =>
    show win0_4.index t (1 : Fin 3) * 1 ≤ (i 1).val ∧ (i 1).val < win0_4.index t (1 : Fin 3) * 1 + 1
    rw [e10]; omega
  | ⟨2, _⟩ =>
    show win0_4.index t (2 : Fin 3) * 128 ≤ (i 2).val ∧ (i 2).val < win0_4.index t (2 : Fin 3) * 128 + 128
    rw [e11]; omega

/-- The first statistic's array after the region: the tile sums of the whole product. -/
theorem final_sum (c : Dev nD) :
    (dat0 (F := Ideal) V c).arrAt 3 cfg0.N
      = Cert.KSpec.parts (Cert.KSpec.lin (V c (Pipeline.arrRef spec0 0)) (V c (Pipeline.arrRef spec0 1))) :=
  (dat0 V c).arrAt_eq_of_cover 3 _ (fun t _ => flushed_sum V c t) cover_stat3

/-- The second statistic's array after the region: the tile sums of the squared whole product. -/
theorem final_sumsq (c : Dev nD) :
    (dat0 (F := Ideal) V c).arrAt 4 cfg0.N
      = Cert.KSpec.parts (Cert.KSpec.sq (Cert.KSpec.lin (V c (Pipeline.arrRef spec0 0)) (V c (Pipeline.arrRef spec0 1)))) :=
  (dat0 V c).arrAt_eq_of_cover 4 _ (fun t _ => flushed_sumsq V c t) cover_stat4

end Cert.Reg0

end
-- ==== Proof.Reg1.lean ====
/-
  Region 1: the normalise-and-rectify region over ten row tiles.

  Point t of the grid reads rows 5000·t … 5000·t + 4999 of the [50000,128] matrix h and the whole of four [1,128]
  rows (mean, variance, scale, shift), and writes the same rows of the output. Entry (p, e) of the block a point
  writes depends on h(5000·t + p, e) and column e of the four rows. Hence every point writes its own rows of one
  function of the whole arrays, the ten blocks fill the output, and the output array ends holding that function.
-/
import proofs.«155757_j37056977830250_2_alg».proof.Proof.Gen.KernelIdeal.Frame
import proofs.«155757_j37056977830250_2_alg».proof.Proof.KSpec
import proofs.«155757_j37056977830250_2_alg».proof.Proof.BnPay
import Idealize.ShloMosaic.Lib.Pipeline.Value

noncomputable section

namespace Cert.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the matrix windows (h and the output) take row block t, the four rows are whole. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The normalised entry from the whole arrays, at an index of the matrix: the target function, entry by entry. -/
theorem bn_apply (H : Cert.KSpec.Mat) (M Vr G B : Cert.KSpec.Row) (i : S50000x128.Idx) (e : Fin 128) (he : (i 1).val = e.val) :
    Cert.KSpec.bn H M Vr G B i
      = Cert.BnPay.entry (H i) (M (ix2 (0 : Fin 1) e)) (Vr (ix2 (0 : Fin 1) e)) (G (ix2 (0 : Fin 1) e)) (B (ix2 (0 : Fin 1) e)) := by
  have h1 : (i 1 : Fin 128) = e := Fin.ext he
  unfold Cert.KSpec.bn Cert.BnPay.entry
  rw [h1]

/-- The payload at an entry of the block against the target at an index of the matrix with the same column, when the
    block of h holds the matrix's entry there and the four row blocks hold the rows. -/
theorem pay_at (x0 : Vec Ideal S5000x128 .f32) (x1 x2 x3 x4 : Vec Ideal S1x128 .f32)
    (H : Cert.KSpec.Mat) (M Vr G B : Cert.KSpec.Row) (j : S5000x128.Idx) (i : S50000x128.Idx)
    (hcol : (i 1).val = (j 1).val) (h0 : x0 j = H i)
    (h1 : ∀ e : Fin 128, x1 (ix2 (0 : Fin 1) e) = M (ix2 (0 : Fin 1) e))
    (h2 : ∀ e : Fin 128, x2 (ix2 (0 : Fin 1) e) = Vr (ix2 (0 : Fin 1) e))
    (h3 : ∀ e : Fin 128, x3 (ix2 (0 : Fin 1) e) = G (ix2 (0 : Fin 1) e))
    (h4 : ∀ e : Fin 128, x4 (ix2 (0 : Fin 1) e) = B (ix2 (0 : Fin 1) e)) :
    k1_pay1 (F := Ideal) x2 x0 x1 x3 x4 j = Cert.KSpec.bn H M Vr G B i := by
  obtain ⟨p, e, rfl⟩ : ∃ (p : Fin 5000) (e : Fin 128), j = ix2 p e := ⟨j 0, j 1, eq_ix2 j⟩
  rw [bn_apply H M Vr G B i e hcol]
  rw [Cert.BnPay.pay1_apply, h0, h1, h2, h3, h4]

/-- The block of h at point t holds the matrix's entries at the output block's indices. -/
theorem read_h (c : Dev nD) (t : Fin cfg1.N) (j : S5000x128.Idx) :
    (iblk1 V c 0 t : Vec Ideal S5000x128 .f32) j = V c (Pipeline.arrRef spec1 0) (((cfg1.win 5).blk t).view.emb j) := by
  obtain ⟨a0, a1, -, -, -, -, -, -, -, -, o0, o1⟩ := index_maps t
  show V c (Pipeline.arrRef spec1 0) (((cfg1.win 0).blk t).view.emb j) = _
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

/-- An index of the output block has the column of its place in the matrix. -/
theorem out_col (t : Fin cfg1.N) (j : S5000x128.Idx) :
    ((((cfg1.win 5).blk t).view.emb j : S50000x128.Idx) 1).val = (j 1).val := by
  obtain ⟨-, -, -, -, -, -, -, -, -, -, o0, o1⟩ := index_maps t
  show win1_5.index t (1 : Fin 2) * 128 + 1 * (j 1).val = (j 1).val
  omega

/-- The mean row's block is the mean row. -/
theorem read_1 (c : Dev nD) (t : Fin cfg1.N) (e : Fin 128) :
    (iblk1 V c 1 t : Vec Ideal S1x128 .f32) (ix2 (0 : Fin 1) e) = (V c (Pipeline.arrRef spec1 1) : S1x128.Idx → EReal) (ix2 (0 : Fin 1) e) := by
  obtain ⟨-, -, b0, b1, -, -, -, -, -, -, -, -⟩ := index_maps t
  show V c (Pipeline.arrRef spec1 1) (((cfg1.win 1).blk t).view.emb (ix2 (0 : Fin 1) e)) = _
  refine congrArg _ (funext fun a => Fin.ext ?_)
  match a with
  | ⟨0, _⟩ => show win1_1.index t (0 : Fin 2) * 1 + 1 * (0 : Fin 1).val = (0 : Fin 1).val; omega
  | ⟨1, _⟩ => show win1_1.index t (1 : Fin 2) * 128 + 1 * e.val = e.val; omega

/-- The variance row's block is the variance row. -/
theorem read_2 (c : Dev nD) (t : Fin cfg1.N) (e : Fin 128) :
    (iblk1 V c 2 t : Vec Ideal S1x128 .f32) (ix2 (0 : Fin 1) e) = (V c (Pipeline.arrRef spec1 2) : S1x128.Idx → EReal) (ix2 (0 : Fin 1) e) := by
  obtain ⟨-, -, -, -, b0, b1, -, -, -, -, -, -⟩ := index_maps t
  show V c (Pipeline.arrRef spec1 2) (((cfg1.win 2).blk t).view.emb (ix2 (0 : Fin 1) e)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * e.val = e.val; omega

/-- The scale row's block is the scale row. -/
theorem read_3 (c : Dev nD) (t : Fin cfg1.N) (e : Fin 128) :
    (iblk1 V c 3 t : Vec Ideal S1x128 .f32) (ix2 (0 : Fin 1) e) = (V c (Pipeline.arrRef spec1 3) : S1x128.Idx → EReal) (ix2 (0 : Fin 1) e) := by
  obtain ⟨-, -, -, -, -, -, b0, b1, -, -, -, -⟩ := index_maps t
  show V c (Pipeline.arrRef spec1 3) (((cfg1.win 3).blk t).view.emb (ix2 (0 : Fin 1) e)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * e.val = e.val; omega

/-- The shift row's block is the shift row. -/
theorem read_4 (c : Dev nD) (t : Fin cfg1.N) (e : Fin 128) :
    (iblk1 V c 4 t : Vec Ideal S1x128 .f32) (ix2 (0 : Fin 1) e) = (V c (Pipeline.arrRef spec1 4) : S1x128.Idx → EReal) (ix2 (0 : Fin 1) e) := by
  obtain ⟨-, -, -, -, -, -, -, -, b0, b1, -, -⟩ := index_maps t
  show V c (Pipeline.arrRef spec1 4) (((cfg1.win 4).blk t).view.emb (ix2 (0 : Fin 1) e)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * e.val = e.val; omega

/-- The whole-array function the output ends holding. -/
abbrev target (c : Dev nD) : Cert.KSpec.Mat :=
  Cert.KSpec.bn (V c (Pipeline.arrRef spec1 0)) (V c (Pipeline.arrRef spec1 1)) (V c (Pipeline.arrRef spec1 2))
    (V c (Pipeline.arrRef spec1 3)) (V c (Pipeline.arrRef spec1 4))

/-- What point t writes back is block t of the target. -/
theorem flushed_eq (c : Dev nD) (t : Fin cfg1.N) :
    (dat1 (F := Ideal) V c).flushed 5 t = ((cfg1.win 5).blk t).view.read (Elt Ideal) (target V c) := by
  show (cfg1.win 5).cut (grid1.coords t) ((dat1 (F := Ideal) V c).after 5 t) = _
  rw [after1_5]
  unfold out1_5
  rw [View.canon_unit_zero zero_off]
  simp only [View.ld_unit_zero (S := S5000x128) zero_off, View.ld_unit_zero (S := S1x128) zero_off]
  funext j
  show k1_pay1 (F := Ideal) (iblk1 V c 2 t) (iblk1 V c 0 t) (iblk1 V c 1 t) (iblk1 V c 3 t) (iblk1 V c 4 t) j
    = target V c (((cfg1.win 5).blk t).view.emb j)
  exact pay_at _ _ _ _ _ _ _ _ _ _ j _ (out_col t j) (read_h V c t j) (read_1 V c t) (read_2 V c t) (read_3 V c t) (read_4 V c t)

/-- An index of the output is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v53).slice (win1_5.rect t)).set ↔ _
  rw [View.set_slice_whole, Rect.mem_set_unit]
  exact Iff.rfl

/-- Every index of the output is in the block of the point its row falls in: row r is in tile r / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, o0, o1⟩ := index_maps t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the normalisation of the whole arrays as the region found them. -/
theorem final (c : Dev nD) :
    (dat1 (F := Ideal) V c).arrAt 5 cfg1.N
      = Cert.KSpec.bn (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 (target V c) (fun t _ => flushed_eq V c t) (covered)

end Cert.Reg1

end
-- ==== Proof.Side1.lean ====
/-
  The first layer in the idealized program: what the buffers hold at the boundaries up to the first normalisation
  pipeline's exit, as functions of the argument arrays.
-/
import proofs.«155757_j37056977830250_2_alg».proof.Proof.Gen.KernelIdeal.Frame
import proofs.«155757_j37056977830250_2_alg».proof.Proof.KKeep
import proofs.«155757_j37056977830250_2_alg».proof.Proof.KHost
import proofs.«155757_j37056977830250_2_alg».proof.Proof.KHostAgg
import proofs.«155757_j37056977830250_2_alg».proof.Proof.KNet
import proofs.«155757_j37056977830250_2_alg».proof.Proof.Reg0
import proofs.«155757_j37056977830250_2_alg».proof.Proof.Reg1

set_option maxRecDepth 16384

noncomputable section

namespace Cert.KernelIdeal.Side

open Cert.KernelIdeal Cert.KernelIdeal.Gen Idealize.ShloMosaic Idealize.ShloMosaic.StableHlo Idealize.ShloMosaic.TcCoe
open Cert.KernelIdeal.KHost Cert.KNet

variable (m : (ℓ : Loc nD τ sig) → Buf (Elt Ideal) ℓ) (ρ : Dev nD → PrngReg) (c : Dev nD)

/-- The first layer's input to the product. -/
abbrev M1 : (⟨S50000x128, .f32⟩ : BufTy).Contents (Elt Ideal) := aggK (m ((c : Thread nD τ).loc main_arg0)) (m ((c : Thread nD τ).loc main_arg1)) (m ((c : Thread nD τ).loc main_arg2))
/-- The first layer's product. -/
abbrev H1 : Cert.KSpec.Mat := Cert.KSpec.lin (M1 m c) (m ((c : Thread nD τ).loc main_arg3))
/-- The first layer's output. -/
abbrev X1 : Cert.KSpec.Mat := bnK (H1 m c) (m ((c : Thread nD τ).loc main_arg6)) (m ((c : Thread nD τ).loc main_arg7))

theorem h5_v9 : W5 m ρ c (Proc.devRef .tc main_v9) = dinvK (m ((c : Thread nD τ).loc main_arg1)) := KHostAgg.first_v9 (W0 m ρ c)
theorem h5_v19 : W5 m ρ c (Proc.devRef .tc main_v19) = dinvK (m ((c : Thread nD τ).loc main_arg2)) := KHostAgg.first_v19 (W0 m ρ c)
theorem h5_v37 : W5 m ρ c (Proc.devRef .tc main_v37) = M1 m c := KHostAgg.first_v37 (W0 m ρ c)
theorem w5_arg3 : W5 m ρ c (Proc.devRef .tc main_arg3) = m ((c : Thread nD τ).loc main_arg3) :=
  ((Keep.keep_hostOps0_4 (W4 m ρ c) main_arg3 (by decide)).trans ((Keep.keep_hostOps0_3 (W3 m ρ c) main_arg3 (by decide)).trans ((Keep.keep_hostOps0_2 (W2 m ρ c) main_arg3 (by decide)).trans ((Keep.keep_hostOps0_1 (W1 m ρ c) main_arg3 (by decide)).trans ((Keep.keep_hostOps0 (W0 m ρ c) main_arg3 (by decide)).trans rfl)))))
theorem w6_arg6 : W6 m ρ c (Proc.devRef .tc main_arg6) = m ((c : Thread nD τ).loc main_arg6) :=
  ((W6_of_ne m ρ c main_arg6 (by decide)).trans ((Keep.keep_hostOps0_4 (W4 m ρ c) main_arg6 (by decide)).trans ((Keep.keep_hostOps0_3 (W3 m ρ c) main_arg6 (by decide)).trans ((Keep.keep_hostOps0_2 (W2 m ρ c) main_arg6 (by decide)).trans ((Keep.keep_hostOps0_1 (W1 m ρ c) main_arg6 (by decide)).trans ((Keep.keep_hostOps0 (W0 m ρ c) main_arg6 (by decide)).trans rfl))))))
theorem w6_arg7 : W6 m ρ c (Proc.devRef .tc main_arg7) = m ((c : Thread nD τ).loc main_arg7) :=
  ((W6_of_ne m ρ c main_arg7 (by decide)).trans ((Keep.keep_hostOps0_4 (W4 m ρ c) main_arg7 (by decide)).trans ((Keep.keep_hostOps0_3 (W3 m ρ c) main_arg7 (by decide)).trans ((Keep.keep_hostOps0_2 (W2 m ρ c) main_arg7 (by decide)).trans ((Keep.keep_hostOps0_1 (W1 m ρ c) main_arg7 (by decide)).trans ((Keep.keep_hostOps0 (W0 m ρ c) main_arg7 (by decide)).trans rfl))))))

theorem h6_h : W6 m ρ c (Proc.devRef .tc main_v38_0) = H1 m c :=
  (W6_arr m ρ c 2).trans ((Cert.Reg0.final_lin (V5 m ρ) c).trans (by
    show Cert.KSpec.lin (W5 m ρ c (Proc.devRef .tc main_v37)) (W5 m ρ c (Proc.devRef .tc main_arg3)) = _
    rw [h5_v37, w5_arg3]))
theorem h6_s : W6 m ρ c (Proc.devRef .tc main_v38_1) = Cert.KSpec.parts (H1 m c) :=
  (W6_arr m ρ c 3).trans ((Cert.Reg0.final_sum (V5 m ρ) c).trans (by
    show Cert.KSpec.parts (Cert.KSpec.lin (W5 m ρ c (Proc.devRef .tc main_v37)) (W5 m ρ c (Proc.devRef .tc main_arg3))) = _
    rw [h5_v37, w5_arg3]))
theorem h6_q : W6 m ρ c (Proc.devRef .tc main_v38_2) = Cert.KSpec.parts (Cert.KSpec.sq (H1 m c)) :=
  (W6_arr m ρ c 4).trans ((Cert.Reg0.final_sumsq (V5 m ρ) c).trans (by
    show Cert.KSpec.parts (Cert.KSpec.sq (Cert.KSpec.lin (W5 m ρ c (Proc.devRef .tc main_v37)) (W5 m ρ c (Proc.devRef .tc main_arg3)))) = _
    rw [h5_v37, w5_arg3]))

theorem h7_h : W7 m ρ c (Proc.devRef .tc main_v38_0) = H1 m c :=
  ((Keep.keep_hostOps1 (W6 m ρ c) main_v38_0 (by decide)).trans (h6_h m ρ c))
theorem h7_mean : W7 m ρ c (Proc.devRef .tc main_v49) = meanRow (H1 m c) :=
  (stats1_mean (W6 m ρ c)).trans (by rw [h6_s]; rfl)
theorem h7_var : W7 m ρ c (Proc.devRef .tc main_v50) = varRow (H1 m c) :=
  (stats1_var (W6 m ρ c)).trans (by rw [h6_s, h6_q]; rfl)
theorem h7_g : W7 m ρ c (Proc.devRef .tc main_v51) = asRow (m ((c : Thread nD τ).loc main_arg6)) :=
  (stats1_g (W6 m ρ c)).trans (by rw [w6_arg6])
theorem h7_b : W7 m ρ c (Proc.devRef .tc main_v52) = asRow (m ((c : Thread nD τ).loc main_arg7)) :=
  (stats1_b (W6 m ρ c)).trans (by rw [w6_arg7])

theorem h8_x : W8 m ρ c (Proc.devRef .tc main_v53) = X1 m c :=
  (W8_arr m ρ c 5).trans ((Cert.Reg1.final (V7 m ρ) c).trans (by
    show Cert.KSpec.bn (W7 m ρ c (Proc.devRef .tc main_v38_0)) (W7 m ρ c (Proc.devRef .tc main_v49))
      (W7 m ρ c (Proc.devRef .tc main_v50)) (W7 m ρ c (Proc.devRef .tc main_v51)) (W7 m ρ c (Proc.devRef .tc main_v52)) = _
    rw [h7_h, h7_mean, h7_var, h7_g, h7_b]; rfl))

theorem h8_v9 : W8 m ρ c (Proc.devRef .tc main_v9) = dinvK (m ((c : Thread nD τ).loc main_arg1)) :=
  ((W8_of_ne m ρ c main_v9 (by decide)).trans ((Keep.keep_hostOps1 (W6 m ρ c) main_v9 (by decide)).trans ((W6_of_ne m ρ c main_v9 (by decide)).trans (h5_v9 m ρ c))))
theorem h8_v19 : W8 m ρ c (Proc.devRef .tc main_v19) = dinvK (m ((c : Thread nD τ).loc main_arg2)) :=
  ((W8_of_ne m ρ c main_v19 (by decide)).trans ((Keep.keep_hostOps1 (W6 m ρ c) main_v19 (by decide)).trans ((W6_of_ne m ρ c main_v19 (by decide)).trans (h5_v19 m ρ c))))
theorem w8_arg1 : W8 m ρ c (Proc.devRef .tc main_arg1) = m ((c : Thread nD τ).loc main_arg1) :=
  ((W8_of_ne m ρ c main_arg1 (by decide)).trans ((Keep.keep_hostOps1 (W6 m ρ c) main_arg1 (by decide)).trans ((W6_of_ne m ρ c main_arg1 (by decide)).trans ((Keep.keep_hostOps0_4 (W4 m ρ c) main_arg1 (by decide)).trans ((Keep.keep_hostOps0_3 (W3 m ρ c) main_arg1 (by decide)).trans ((Keep.keep_hostOps0_2 (W2 m ρ c) main_arg1 (by decide)).trans ((Keep.keep_hostOps0_1 (W1 m ρ c) main_arg1 (by decide)).trans ((Keep.keep_hostOps0 (W0 m ρ c) main_arg1 (by decide)).trans rfl))))))))
theorem w8_arg2 : W8 m ρ c (Proc.devRef .tc main_arg2) = m ((c : Thread nD τ).loc main_arg2) :=
  ((W8_of_ne m ρ c main_arg2 (by decide)).trans ((Keep.keep_hostOps1 (W6 m ρ c) main_arg2 (by decide)).trans ((W6_of_ne m ρ c main_arg2 (by decide)).trans ((Keep.keep_hostOps0_4 (W4 m ρ c) main_arg2 (by decide)).trans ((Keep.keep_hostOps0_3 (W3 m ρ c) main_arg2 (by decide)).trans ((Keep.keep_hostOps0_2 (W2 m ρ c) main_arg2 (by decide)).trans ((Keep.keep_hostOps0_1 (W1 m ρ c) main_arg2 (by decide)).trans ((Keep.keep_hostOps0 (W0 m ρ c) main_arg2 (by decide)).trans rfl))))))))

end Cert.KernelIdeal.Side

end
-- ==== Proof.Side2.lean ====
/-
  The second layer in the idealized program: what the buffers hold at the boundaries from the first normalisation
  pipeline's exit to the second's, as functions of the argument arrays.
-/
import proofs.«155757_j37056977830250_2_alg».proof.Proof.Gen.KernelIdeal.Frame
import proofs.«155757_j37056977830250_2_alg».proof.Proof.KKeep
import proofs.«155757_j37056977830250_2_alg».proof.Proof.KHost
import proofs.«155757_j37056977830250_2_alg».proof.Proof.KHostAgg
import proofs.«155757_j37056977830250_2_alg».proof.Proof.KNet
import proofs.«155757_j37056977830250_2_alg».proof.Proof.Reg2
import proofs.«155757_j37056977830250_2_alg».proof.Proof.Reg3
import proofs.«155757_j37056977830250_2_alg».proof.Proof.Side1

set_option maxRecDepth 16384

noncomputable section

namespace Cert.KernelIdeal.Side

open Cert.KernelIdeal Cert.KernelIdeal.Gen Idealize.ShloMosaic Idealize.ShloMosaic.StableHlo Idealize.ShloMosaic.TcCoe
open Cert.KernelIdeal.KHost Cert.KNet

variable (m : (ℓ : Loc nD τ sig) → Buf (Elt Ideal) ℓ) (ρ : Dev nD → PrngReg) (c : Dev nD)

/-- The second layer's input to the product. -/
abbrev M2 : (⟨S50000x128, .f32⟩ : BufTy).Contents (Elt Ideal) := aggK (X1 m c) (m ((c : Thread nD τ).loc main_arg1)) (m ((c : Thread nD τ).loc main_arg2))
/-- The second layer's product. -/
abbrev H2 : Cert.KSpec.Mat := Cert.KSpec.lin (M2 m c) (m ((c : Thread nD τ).loc main_arg4))
/-- The second layer's output. -/
abbrev X2 : Cert.KSpec.Mat := bnK (H2 m c) (m ((c : Thread nD τ).loc main_arg8)) (m ((c : Thread nD τ).loc main_arg9))

theorem h9_v71 : W9 m ρ c (Proc.devRef .tc main_v71) = M2 m c :=
  (KHostAgg.agg2 (W8 m ρ c)).trans (by rw [h8_x, w8_arg1, w8_arg2, h8_v9, h8_v19]; rfl)
theorem w9_arg4 : W9 m ρ c (Proc.devRef .tc main_arg4) = m ((c : Thread nD τ).loc main_arg4) :=
  ((Keep.keep_hostOps2 (W8 m ρ c) main_arg4 (by decide)).trans ((W8_of_ne m ρ c main_arg4 (by decide)).trans ((Keep.keep_hostOps1 (W6 m ρ c) main_arg4 (by decide)).trans ((W6_of_ne m ρ c main_arg4 (by decide)).trans ((Keep.keep_hostOps0_4 (W4 m ρ c) main_arg4 (by decide)).trans ((Keep.keep_hostOps0_3 (W3 m ρ c) main_arg4 (by decide)).trans ((Keep.keep_hostOps0_2 (W2 m ρ c) main_arg4 (by decide)).trans ((Keep.keep_hostOps0_1 (W1 m ρ c) main_arg4 (by decide)).trans ((Keep.keep_hostOps0 (W0 m ρ c) main_arg4 (by decide)).trans rfl)))))))))
theorem w10_arg8 : W10 m ρ c (Proc.devRef .tc main_arg8) = m ((c : Thread nD τ).loc main_arg8) :=
  ((W10_of_ne m ρ c main_arg8 (by decide)).trans ((Keep.keep_hostOps2 (W8 m ρ c) main_arg8 (by decide)).trans ((W8_of_ne m ρ c main_arg8 (by decide)).trans ((Keep.keep_hostOps1 (W6 m ρ c) main_arg8 (by decide)).trans ((W6_of_ne m ρ c main_arg8 (by decide)).trans ((Keep.keep_hostOps0_4 (W4 m ρ c) main_arg8 (by decide)).trans ((Keep.keep_hostOps0_3 (W3 m ρ c) main_arg8 (by decide)).trans ((Keep.keep_hostOps0_2 (W2 m ρ c) main_arg8 (by decide)).trans ((Keep.keep_hostOps0_1 (W1 m ρ c) main_arg8 (by decide)).trans ((Keep.keep_hostOps0 (W0 m ρ c) main_arg8 (by decide)).trans rfl))))))))))
theorem w10_arg9 : W10 m ρ c (Proc.devRef .tc main_arg9) = m ((c : Thread nD τ).loc main_arg9) :=
  ((W10_of_ne m ρ c main_arg9 (by decide)).trans ((Keep.keep_hostOps2 (W8 m ρ c) main_arg9 (by decide)).trans ((W8_of_ne m ρ c main_arg9 (by decide)).trans ((Keep.keep_hostOps1 (W6 m ρ c) main_arg9 (by decide)).trans ((W6_of_ne m ρ c main_arg9 (by decide)).trans ((Keep.keep_hostOps0_4 (W4 m ρ c) main_arg9 (by decide)).trans ((Keep.keep_hostOps0_3 (W3 m ρ c) main_arg9 (by decide)).trans ((Keep.keep_hostOps0_2 (W2 m ρ c) main_arg9 (by decide)).trans ((Keep.keep_hostOps0_1 (W1 m ρ c) main_arg9 (by decide)).trans ((Keep.keep_hostOps0 (W0 m ρ c) main_arg9 (by decide)).trans rfl))))))))))

theorem h10_h : W10 m ρ c (Proc.devRef .tc main_v72_0) = H2 m c :=
  (W10_arr m ρ c 2).trans ((Cert.Reg2.final_lin (V9 m ρ) c).trans (by
    show Cert.KSpec.lin (W9 m ρ c (Proc.devRef .tc main_v71)) (W9 m ρ c (Proc.devRef .tc main_arg4)) = _
    rw [h9_v71, w9_arg4]))
theorem h10_s : W10 m ρ c (Proc.devRef .tc main_v72_1) = Cert.KSpec.parts (H2 m c) :=
  (W10_arr m ρ c 3).trans ((Cert.Reg2.final_sum (V9 m ρ) c).trans (by
    show Cert.KSpec.parts (Cert.KSpec.lin (W9 m ρ c (Proc.devRef .tc main_v71)) (W9 m ρ c (Proc.devRef .tc main_arg4))) = _
    rw [h9_v71, w9_arg4]))
theorem h10_q : W10 m ρ c (Proc.devRef .tc main_v72_2) = Cert.KSpec.parts (Cert.KSpec.sq (H2 m c)) :=
  (W10_arr m ρ c 4).trans ((Cert.Reg2.final_sumsq (V9 m ρ) c).trans (by
    show Cert.KSpec.parts (Cert.KSpec.sq (Cert.KSpec.lin (W9 m ρ c (Proc.devRef .tc main_v71)) (W9 m ρ c (Proc.devRef .tc main_arg4)))) = _
    rw [h9_v71, w9_arg4]))

theorem h11_h : W11 m ρ c (Proc.devRef .tc main_v72_0) = H2 m c :=
  ((Keep.keep_hostOps3 (W10 m ρ c) main_v72_0 (by decide)).trans (h10_h m ρ c))
theorem h11_mean : W11 m ρ c (Proc.devRef .tc main_v83) = meanRow (H2 m c) :=
  (stats3_mean (W10 m ρ c)).trans (by rw [h10_s]; rfl)
theorem h11_var : W11 m ρ c (Proc.devRef .tc main_v84) = varRow (H2 m c) :=
  (stats3_var (W10 m ρ c)).trans (by rw [h10_s, h10_q]; rfl)
theorem h11_g : W11 m ρ c (Proc.devRef .tc main_v85) = asRow (m ((c : Thread nD τ).loc main_arg8)) :=
  (stats3_g (W10 m ρ c)).trans (by rw [w10_arg8])
theorem h11_b : W11 m ρ c (Proc.devRef .tc main_v86) = asRow (m ((c : Thread nD τ).loc main_arg9)) :=
  (stats3_b (W10 m ρ c)).trans (by rw [w10_arg9])

theorem h12_x : W12 m ρ c (Proc.devRef .tc main_v87) = X2 m c :=
  (W12_arr m ρ c 5).trans ((Cert.Reg3.final (V11 m ρ) c).trans (by
    show Cert.KSpec.bn (W11 m ρ c (Proc.devRef .tc main_v72_0)) (W11 m ρ c (Proc.devRef .tc main_v83))
      (W11 m ρ c (Proc.devRef .tc main_v84)) (W11 m ρ c (Proc.devRef .tc main_v85)) (W11 m ρ c (Proc.devRef .tc main_v86)) = _
    rw [h11_h, h11_mean, h11_var, h11_g, h11_b]; rfl))

theorem h12_v9 : W12 m ρ c (Proc.devRef .tc main_v9) = dinvK (m ((c : Thread nD τ).loc main_arg1)) :=
  ((W12_of_ne m ρ c main_v9 (by decide)).trans ((Keep.keep_hostOps3 (W10 m ρ c) main_v9 (by decide)).trans ((W10_of_ne m ρ c main_v9 (by decide)).trans ((Keep.keep_hostOps2 (W8 m ρ c) main_v9 (by decide)).trans (h8_v9 m ρ c)))))
theorem h12_v19 : W12 m ρ c (Proc.devRef .tc main_v19) = dinvK (m ((c : Thread nD τ).loc main_arg2)) :=
  ((W12_of_ne m ρ c main_v19 (by decide)).trans ((Keep.keep_hostOps3 (W10 m ρ c) main_v19 (by decide)).trans ((W10_of_ne m ρ c main_v19 (by decide)).trans ((Keep.keep_hostOps2 (W8 m ρ c) main_v19 (by decide)).trans (h8_v19 m ρ c)))))
theorem w12_arg1 : W12 m ρ c (Proc.devRef .tc main_arg1) = m ((c : Thread nD τ).loc main_arg1) :=
  ((W12_of_ne m ρ c main_arg1 (by decide)).trans ((Keep.keep_hostOps3 (W10 m ρ c) main_arg1 (by decide)).trans ((W10_of_ne m ρ c main_arg1 (by decide)).trans ((Keep.keep_hostOps2 (W8 m ρ c) main_arg1 (by decide)).trans ((W8_of_ne m ρ c main_arg1 (by decide)).trans ((Keep.keep_hostOps1 (W6 m ρ c) main_arg1 (by decide)).trans ((W6_of_ne m ρ c main_arg1 (by decide)).trans ((Keep.keep_hostOps0_4 (W4 m ρ c) main_arg1 (by decide)).trans ((Keep.keep_hostOps0_3 (W3 m ρ c) main_arg1 (by decide)).trans ((Keep.keep_hostOps0_2 (W2 m ρ c) main_arg1 (by decide)).trans ((Keep.keep_hostOps0_1 (W1 m ρ c) main_arg1 (by decide)).trans ((Keep.keep_hostOps0 (W0 m ρ c) main_arg1 (by decide)).trans rfl))))))))))))
theorem w12_arg2 : W12 m ρ c (Proc.devRef .tc main_arg2) = m ((c : Thread nD τ).loc main_arg2) :=
  ((W12_of_ne m ρ c main_arg2 (by decide)).trans ((Keep.keep_hostOps3 (W10 m ρ c) main_arg2 (by decide)).trans ((W10_of_ne m ρ c main_arg2 (by decide)).trans ((Keep.keep_hostOps2 (W8 m ρ c) main_arg2 (by decide)).trans ((W8_of_ne m ρ c main_arg2 (by decide)).trans ((Keep.keep_hostOps1 (W6 m ρ c) main_arg2 (by decide)).trans ((W6_of_ne m ρ c main_arg2 (by decide)).trans ((Keep.keep_hostOps0_4 (W4 m ρ c) main_arg2 (by decide)).trans ((Keep.keep_hostOps0_3 (W3 m ρ c) main_arg2 (by decide)).trans ((Keep.keep_hostOps0_2 (W2 m ρ c) main_arg2 (by decide)).trans ((Keep.keep_hostOps0_1 (W1 m ρ c) main_arg2 (by decide)).trans ((Keep.keep_hostOps0 (W0 m ρ c) main_arg2 (by decide)).trans rfl))))))))))))

end Cert.KernelIdeal.Side

end
-- ==== Proof.Side3.lean ====
/-
  The third layer and the head in the idealized program: what the buffers hold at the boundaries from the second
  normalisation pipeline's exit to the end, as functions of the argument arrays; the result is the head on the third
  product.
-/
import proofs.«155757_j37056977830250_2_alg».proof.Proof.Gen.KernelIdeal.Frame
import proofs.«155757_j37056977830250_2_alg».proof.Proof.KKeep
import proofs.«155757_j37056977830250_2_alg».proof.Proof.KHost
import proofs.«155757_j37056977830250_2_alg».proof.Proof.KHostAgg
import proofs.«155757_j37056977830250_2_alg».proof.Proof.KNet
import proofs.«155757_j37056977830250_2_alg».proof.Proof.Reg4
import proofs.«155757_j37056977830250_2_alg».proof.Proof.Reg5
import proofs.«155757_j37056977830250_2_alg».proof.Proof.Side2

set_option maxRecDepth 16384

noncomputable section

namespace Cert.KernelIdeal.Side

open Cert.KernelIdeal Cert.KernelIdeal.Gen Idealize.ShloMosaic Idealize.ShloMosaic.StableHlo Idealize.ShloMosaic.TcCoe
open Cert.KernelIdeal.KHost Cert.KNet

variable (m : (ℓ : Loc nD τ sig) → Buf (Elt Ideal) ℓ) (ρ : Dev nD → PrngReg) (c : Dev nD)

/-- The third layer's input to the product. -/
abbrev M3 : (⟨S50000x128, .f32⟩ : BufTy).Contents (Elt Ideal) := aggK (X2 m c) (m ((c : Thread nD τ).loc main_arg1)) (m ((c : Thread nD τ).loc main_arg2))
/-- The third layer's product. -/
abbrev H3 : Cert.KSpec.Mat := Cert.KSpec.lin (M3 m c) (m ((c : Thread nD τ).loc main_arg5))

theorem h13_v105 : W13 m ρ c (Proc.devRef .tc main_v105) = M3 m c :=
  (KHostAgg.agg4 (W12 m ρ c)).trans (by rw [h12_x, w12_arg1, w12_arg2, h12_v9, h12_v19]; rfl)
theorem w13_arg5 : W13 m ρ c (Proc.devRef .tc main_arg5) = m ((c : Thread nD τ).loc main_arg5) :=
  ((Keep.keep_hostOps4 (W12 m ρ c) main_arg5 (by decide)).trans ((W12_of_ne m ρ c main_arg5 (by decide)).trans ((Keep.keep_hostOps3 (W10 m ρ c) main_arg5 (by decide)).trans ((W10_of_ne m ρ c main_arg5 (by decide)).trans ((Keep.keep_hostOps2 (W8 m ρ c) main_arg5 (by decide)).trans ((W8_of_ne m ρ c main_arg5 (by decide)).trans ((Keep.keep_hostOps1 (W6 m ρ c) main_arg5 (by decide)).trans ((W6_of_ne m ρ c main_arg5 (by decide)).trans ((Keep.keep_hostOps0_4 (W4 m ρ c) main_arg5 (by decide)).trans ((Keep.keep_hostOps0_3 (W3 m ρ c) main_arg5 (by decide)).trans ((Keep.keep_hostOps0_2 (W2 m ρ c) main_arg5 (by decide)).trans ((Keep.keep_hostOps0_1 (W1 m ρ c) main_arg5 (by decide)).trans ((Keep.keep_hostOps0 (W0 m ρ c) main_arg5 (by decide)).trans rfl)))))))))))))
theorem w14_arg10 : W14 m ρ c (Proc.devRef .tc main_arg10) = m ((c : Thread nD τ).loc main_arg10) :=
  ((W14_of_ne m ρ c main_arg10 (by decide)).trans ((Keep.keep_hostOps4 (W12 m ρ c) main_arg10 (by decide)).trans ((W12_of_ne m ρ c main_arg10 (by decide)).trans ((Keep.keep_hostOps3 (W10 m ρ c) main_arg10 (by decide)).trans ((W10_of_ne m ρ c main_arg10 (by decide)).trans ((Keep.keep_hostOps2 (W8 m ρ c) main_arg10 (by decide)).trans ((W8_of_ne m ρ c main_arg10 (by decide)).trans ((Keep.keep_hostOps1 (W6 m ρ c) main_arg10 (by decide)).trans ((W6_of_ne m ρ c main_arg10 (by decide)).trans ((Keep.keep_hostOps0_4 (W4 m ρ c) main_arg10 (by decide)).trans ((Keep.keep_hostOps0_3 (W3 m ρ c) main_arg10 (by decide)).trans ((Keep.keep_hostOps0_2 (W2 m ρ c) main_arg10 (by decide)).trans ((Keep.keep_hostOps0_1 (W1 m ρ c) main_arg10 (by decide)).trans ((Keep.keep_hostOps0 (W0 m ρ c) main_arg10 (by decide)).trans rfl))))))))))))))
theorem w14_arg11 : W14 m ρ c (Proc.devRef .tc main_arg11) = m ((c : Thread nD τ).loc main_arg11) :=
  ((W14_of_ne m ρ c main_arg11 (by decide)).trans ((Keep.keep_hostOps4 (W12 m ρ c) main_arg11 (by decide)).trans ((W12_of_ne m ρ c main_arg11 (by decide)).trans ((Keep.keep_hostOps3 (W10 m ρ c) main_arg11 (by decide)).trans ((W10_of_ne m ρ c main_arg11 (by decide)).trans ((Keep.keep_hostOps2 (W8 m ρ c) main_arg11 (by decide)).trans ((W8_of_ne m ρ c main_arg11 (by decide)).trans ((Keep.keep_hostOps1 (W6 m ρ c) main_arg11 (by decide)).trans ((W6_of_ne m ρ c main_arg11 (by decide)).trans ((Keep.keep_hostOps0_4 (W4 m ρ c) main_arg11 (by decide)).trans ((Keep.keep_hostOps0_3 (W3 m ρ c) main_arg11 (by decide)).trans ((Keep.keep_hostOps0_2 (W2 m ρ c) main_arg11 (by decide)).trans ((Keep.keep_hostOps0_1 (W1 m ρ c) main_arg11 (by decide)).trans ((Keep.keep_hostOps0 (W0 m ρ c) main_arg11 (by decide)).trans rfl))))))))))))))
theorem w14_arg12 : W14 m ρ c (Proc.devRef .tc main_arg12) = m ((c : Thread nD τ).loc main_arg12) :=
  ((W14_of_ne m ρ c main_arg12 (by decide)).trans ((Keep.keep_hostOps4 (W12 m ρ c) main_arg12 (by decide)).trans ((W12_of_ne m ρ c main_arg12 (by decide)).trans ((Keep.keep_hostOps3 (W10 m ρ c) main_arg12 (by decide)).trans ((W10_of_ne m ρ c main_arg12 (by decide)).trans ((Keep.keep_hostOps2 (W8 m ρ c) main_arg12 (by decide)).trans ((W8_of_ne m ρ c main_arg12 (by decide)).trans ((Keep.keep_hostOps1 (W6 m ρ c) main_arg12 (by decide)).trans ((W6_of_ne m ρ c main_arg12 (by decide)).trans ((Keep.keep_hostOps0_4 (W4 m ρ c) main_arg12 (by decide)).trans ((Keep.keep_hostOps0_3 (W3 m ρ c) main_arg12 (by decide)).trans ((Keep.keep_hostOps0_2 (W2 m ρ c) main_arg12 (by decide)).trans ((Keep.keep_hostOps0_1 (W1 m ρ c) main_arg12 (by decide)).trans ((Keep.keep_hostOps0 (W0 m ρ c) main_arg12 (by decide)).trans rfl))))))))))))))
theorem w14_arg13 : W14 m ρ c (Proc.devRef .tc main_arg13) = m ((c : Thread nD τ).loc main_arg13) :=
  ((W14_of_ne m ρ c main_arg13 (by decide)).trans ((Keep.keep_hostOps4 (W12 m ρ c) main_arg13 (by decide)).trans ((W12_of_ne m ρ c main_arg13 (by decide)).trans ((Keep.keep_hostOps3 (W10 m ρ c) main_arg13 (by decide)).trans ((W10_of_ne m ρ c main_arg13 (by decide)).trans ((Keep.keep_hostOps2 (W8 m ρ c) main_arg13 (by decide)).trans ((W8_of_ne m ρ c main_arg13 (by decide)).trans ((Keep.keep_hostOps1 (W6 m ρ c) main_arg13 (by decide)).trans ((W6_of_ne m ρ c main_arg13 (by decide)).trans ((Keep.keep_hostOps0_4 (W4 m ρ c) main_arg13 (by decide)).trans ((Keep.keep_hostOps0_3 (W3 m ρ c) main_arg13 (by decide)).trans ((Keep.keep_hostOps0_2 (W2 m ρ c) main_arg13 (by decide)).trans ((Keep.keep_hostOps0_1 (W1 m ρ c) main_arg13 (by decide)).trans ((Keep.keep_hostOps0 (W0 m ρ c) main_arg13 (by decide)).trans rfl))))))))))))))

theorem h14_h : W14 m ρ c (Proc.devRef .tc main_v106_0) = H3 m c :=
  (W14_arr m ρ c 2).trans ((Cert.Reg4.final_lin (V13 m ρ) c).trans (by
    show Cert.KSpec.lin (W13 m ρ c (Proc.devRef .tc main_v105)) (W13 m ρ c (Proc.devRef .tc main_arg5)) = _
    rw [h13_v105, w13_arg5]))
theorem h14_s : W14 m ρ c (Proc.devRef .tc main_v106_1) = Cert.KSpec.parts (H3 m c) :=
  (W14_arr m ρ c 3).trans ((Cert.Reg4.final_sum (V13 m ρ) c).trans (by
    show Cert.KSpec.parts (Cert.KSpec.lin (W13 m ρ c (Proc.devRef .tc main_v105)) (W13 m ρ c (Proc.devRef .tc main_arg5))) = _
    rw [h13_v105, w13_arg5]))
theorem h14_q : W14 m ρ c (Proc.devRef .tc main_v106_2) = Cert.KSpec.parts (Cert.KSpec.sq (H3 m c)) :=
  (W14_arr m ρ c 4).trans ((Cert.Reg4.final_sumsq (V13 m ρ) c).trans (by
    show Cert.KSpec.parts (Cert.KSpec.sq (Cert.KSpec.lin (W13 m ρ c (Proc.devRef .tc main_v105)) (W13 m ρ c (Proc.devRef .tc main_arg5)))) = _
    rw [h13_v105, w13_arg5]))

theorem h19_h : W19 m ρ c (Proc.devRef .tc main_v106_0) = H3 m c :=
  ((Keep.keep_hostOps5_4 (W18 m ρ c) main_v106_0 (by decide)).trans ((Keep.keep_hostOps5_3 (W17 m ρ c) main_v106_0 (by decide)).trans ((Keep.keep_hostOps5_2 (W16 m ρ c) main_v106_0 (by decide)).trans ((Keep.keep_hostOps5_1 (W15 m ρ c) main_v106_0 (by decide)).trans ((Keep.keep_hostOps5 (W14 m ρ c) main_v106_0 (by decide)).trans (h14_h m ρ c))))))
theorem h19_mean : W19 m ρ c (Proc.devRef .tc main_v119) = meanRow (H3 m c) :=
  (stats5_mean (W14 m ρ c)).trans (by rw [h14_s]; rfl)
theorem h19_var : W19 m ρ c (Proc.devRef .tc main_v120) = varRow (H3 m c) :=
  (stats5_var (W14 m ρ c)).trans (by rw [h14_s, h14_q]; rfl)
theorem h19_g : W19 m ρ c (Proc.devRef .tc main_v121) = asRow (m ((c : Thread nD τ).loc main_arg10)) :=
  (stats5_g (W14 m ρ c)).trans (by rw [w14_arg10])
theorem h19_b : W19 m ρ c (Proc.devRef .tc main_v122) = asRow (m ((c : Thread nD τ).loc main_arg11)) :=
  (stats5_b (W14 m ρ c)).trans (by rw [w14_arg11])
theorem h19_W : W19 m ρ c (Proc.devRef .tc main_v117) = padW (m ((c : Thread nD τ).loc main_arg12)) :=
  (stats5_W (W14 m ρ c)).trans (by rw [w14_arg12])
theorem h19_bias : W19 m ρ c (Proc.devRef .tc main_v123) = asRow (padB (m ((c : Thread nD τ).loc main_arg13))) :=
  (stats5_bias (W14 m ρ c)).trans (by rw [w14_arg13])

theorem h20_out : W20 m ρ c (Proc.devRef .tc main_v124)
    = Cert.KSpec.cls (H3 m c) (meanRow (H3 m c)) (varRow (H3 m c)) (asRow (m ((c : Thread nD τ).loc main_arg10))) (asRow (m ((c : Thread nD τ).loc main_arg11))) (padW (m ((c : Thread nD τ).loc main_arg12))) (asRow (padB (m ((c : Thread nD τ).loc main_arg13)))) :=
  (W20_arr m ρ c 7).trans ((Cert.Reg5.final (V19 m ρ) c).trans (by
    show Cert.KSpec.cls (W19 m ρ c (Proc.devRef .tc main_v106_0)) (W19 m ρ c (Proc.devRef .tc main_v119))
      (W19 m ρ c (Proc.devRef .tc main_v120)) (W19 m ρ c (Proc.devRef .tc main_v121)) (W19 m ρ c (Proc.devRef .tc main_v122))
      (W19 m ρ c (Proc.devRef .tc main_v117)) (W19 m ρ c (Proc.devRef .tc main_v123)) = _
    rw [h19_h, h19_mean, h19_var, h19_g, h19_b, h19_W, h19_bias]))

/-- The result buffer at the last boundary: the head on the third product. -/
theorem result : W21 m ρ c (Proc.devRef .tc main_v125) = headK (H3 m c) (m ((c : Thread nD τ).loc main_arg10)) (m ((c : Thread nD τ).loc main_arg11)) (m ((c : Thread nD τ).loc main_arg12)) (m ((c : Thread nD τ).loc main_arg13)) :=
  (last_cut (W20 m ρ c)).trans (by rw [h20_out]; rfl)

end Cert.KernelIdeal.Side

end
-- ==== Proof.Bridge.lean ====
/-
  The idealized program's host functions are the reference's: the two programs print the same operations over the
  same literal shapes, and on the extended reals the passage through half precision is the identity.
-/
import proofs.«155757_j37056977830250_2_alg».proof.Proof.KHost

set_option maxRecDepth 16384

noncomputable section

namespace Cert.Bridge

open Idealize.ShloMosaic Cert.KernelIdeal.KHost

/-- The degree factor. -/
theorem dinv_eq (x : (⟨Cert.KernelIdeal.S800000, .i32⟩ : BufTy).Contents (Elt Ideal)) :
    dinvK (F := Ideal) x = Cert.Spec.dinv (F := Ideal) x := rfl

/-- The aggregation with given degree factors. -/
theorem aggWith_eq (h : (⟨Cert.KernelIdeal.S50000x128, .f32⟩ : BufTy).Contents (Elt Ideal))
    (src dst : (⟨Cert.KernelIdeal.S800000, .i32⟩ : BufTy).Contents (Elt Ideal))
    (ds dd : (⟨Cert.KernelIdeal.S50000, .f32⟩ : BufTy).Contents (Elt Ideal)) :
    aggWithK (F := Ideal) h src dst ds dd = Cert.Spec.aggWith (F := Ideal) h src dst ds dd := rfl

end Cert.Bridge

end
-- ==== Proof.LibVariance.lean ====
import Idealize.ShloMosaic.PureOps.Ideal

/-! The population variance of finitely many real numbers, spelled two ways over the extended reals:
    the mean of the squared deviations from the mean, and the mean of the squares minus the square of the
    mean. On real data (every entry the coercion of a real) the two agree, division by the count `n ≠ 0`
    being `Ideal.div` by the real `n`. Also: the coercion `ℝ → EReal` commutes with finite sums. -/

noncomputable section

namespace Cert.LibVariance

open Idealize.ShloMosaic
open scoped BigOperators

/-- The coercion of a finite sum of reals is the sum of the coercions. -/
theorem coe_finset_sum {ι : Type*} (s : Finset ι) (a : ι → ℝ) :
    ((∑ r ∈ s, a r : ℝ) : EReal) = ∑ r ∈ s, (a r : EReal) := by
  classical
  induction s using Finset.induction_on with
  | empty => simp
  | insert i s hi ih => rw [Finset.sum_insert hi, Finset.sum_insert hi, EReal.coe_add, ih]

/-- In the reals: `(1/n) ∑ (aᵣ - μ)² = (1/n) ∑ aᵣ² - μ²` with `μ = (1/n) ∑ aᵣ`. -/
theorem variance_real {n : ℕ} (hn : n ≠ 0) (a : Fin n → ℝ) :
    (∑ r, (a r - (∑ r, a r) * (1 / (n : ℝ))) * (a r - (∑ r, a r) * (1 / (n : ℝ)))) * (1 / (n : ℝ))
      = (∑ r, a r * a r) * (1 / (n : ℝ)) - (∑ r, a r) * (1 / (n : ℝ)) * ((∑ r, a r) * (1 / (n : ℝ))) := by
  have hn' : (n : ℝ) ≠ 0 := by exact_mod_cast hn
  generalize hm : (∑ r, a r) * (1 / (n : ℝ)) = m
  have hS : (∑ r, a r) = m * n := by rw [← hm]; field_simp
  have h : ∑ r, (a r - m) * (a r - m) = (∑ r, a r * a r) - 2 * m * (∑ r, a r) + n * (m * m) := by
    have : ∀ r, (a r - m) * (a r - m) = a r * a r - 2 * m * a r + m * m := fun r => by ring
    simp only [this, Finset.sum_add_distrib, Finset.sum_sub_distrib, ← Finset.mul_sum, Finset.sum_const,
      Finset.card_univ, Fintype.card_fin, nsmul_eq_mul]
    ring
  rw [h, hS]; field_simp; ring

/-- The two spellings of the population variance agree on real data. -/
theorem variance_eq {n : ℕ} (hn : n ≠ 0) (x : Fin n → EReal) (hx : ∀ r, ∃ a : ℝ, x r = (a : EReal)) :
    Ideal.div (∑ r, (x r - Ideal.div (∑ r, x r) ((n : ℝ) : EReal)) * (x r - Ideal.div (∑ r, x r) ((n : ℝ) : EReal)))
        ((n : ℝ) : EReal)
      = Ideal.div (∑ r, x r * x r) ((n : ℝ) : EReal)
        - Ideal.div (∑ r, x r) ((n : ℝ) : EReal) * Ideal.div (∑ r, x r) ((n : ℝ) : EReal) := by
  choose a ha using hx
  obtain rfl : x = fun r => (a r : EReal) := funext ha
  have hn' : (n : ℝ) ≠ 0 := by exact_mod_cast hn
  simp only [Ideal.div_coe hn']
  simp only [← coe_finset_sum, ← EReal.coe_mul, ← EReal.coe_sub]
  exact congrArg _ (variance_real hn a)

/-- The same with every sum carrying a leading `0 +` (a reduction with initial value `0`). -/
theorem variance_eq_zero_add {n : ℕ} (hn : n ≠ 0) (x : Fin n → EReal) (hx : ∀ r, ∃ a : ℝ, x r = (a : EReal)) :
    Ideal.div (0 + ∑ r, (x r - Ideal.div (0 + ∑ r, x r) ((n : ℝ) : EReal))
          * (x r - Ideal.div (0 + ∑ r, x r) ((n : ℝ) : EReal))) ((n : ℝ) : EReal)
      = Ideal.div (0 + ∑ r, x r * x r) ((n : ℝ) : EReal)
        - Ideal.div (0 + ∑ r, x r) ((n : ℝ) : EReal) * Ideal.div (0 + ∑ r, x r) ((n : ℝ) : EReal) := by
  simp only [zero_add]; exact variance_eq hn x hx

end Cert.LibVariance

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LayerStats.lean ====
/-
  The statistics of one layer, channel by channel, on the extended reals.

  The rows of a 50000 × 128 matrix are cut in ten tiles of 5000. The column sum is the sum of the ten tile sums, so the
  mean taken from the tile sums is the mean; and on real entries the mean of squares minus the squared mean is the mean
  squared deviation, which is not negative, so clamping it at zero changes nothing. Both laws need real entries: with
  an infinite entry the two variances differ.
-/
import proofs.«155757_j37056977830250_2_alg».proof.Proof.KSpec
import proofs.«155757_j37056977830250_2_alg».proof.Proof.LibVariance
import proofs.«155757_j37056977830250_2_alg».proof.Proof.LibRealEntries

noncomputable section

open scoped BigOperators

namespace Cert.LayerStats

open Idealize.ShloMosaic Idealize.ShloMosaic.ValueIdx Cert.KSpec Cert.LibRealEntries

/-- Every entry is a real number. -/
def RealMat {s : Shape} (h : s.Idx → EReal) : Prop := ∀ i, IsReal (h i)

/-- The word of 50000.0 is the real 50000. -/
theorem ofBits_n : Ideal.ofBits .f32 0x47435000#32 = ((50000 : ℝ) : EReal) := by
  simp [Ideal.ofBits, Ideal.ieee]
  rw [← EReal.coe_mul]
  exact congrArg _ (by norm_num)

/-- The ten tile sums of a column add up to the column's sum. -/
theorem sum_parts (h : Mat) (e : Fin 128) :
    ∑ t : Fin 10, parts h (ix3 t (0 : Fin 1) e) = ∑ p : Fin 50000, h (ix2 p e) :=
  (TileSum.sum_axis (by norm_num : 10 * 5000 = 50000) (fun p : Fin 50000 => h (ix2 p e))).symm

/-- The mean of a column from its tile sums. -/
def meanT (h : Mat) (e : Fin 128) : EReal :=
  Ideal.div (0 + ∑ t : Fin 10, parts h (ix3 t (0 : Fin 1) e)) (Ideal.ofBits .f32 0x47435000#32)

/-- The variance of a column as the mean of squares minus the squared mean, clamped at zero, from the tile sums. -/
def varT (h : Mat) (e : Fin 128) : EReal :=
  max (Ideal.div (0 + ∑ t : Fin 10, parts (sq h) (ix3 t (0 : Fin 1) e)) (Ideal.ofBits .f32 0x47435000#32)
        - meanT h e * meanT h e) 0

/-- The mean of a column. -/
def meanC (h : Mat) (e : Fin 128) : EReal :=
  Ideal.div (0 + ∑ p : Fin 50000, h (ix2 p e)) (Ideal.ofBits .f32 0x47435000#32)

/-- The variance of a column as the mean squared deviation. -/
def varC (h : Mat) (e : Fin 128) : EReal :=
  Ideal.div (0 + ∑ p : Fin 50000, (h (ix2 p e) - meanC h e) * (h (ix2 p e) - meanC h e)) (Ideal.ofBits .f32 0x47435000#32)

theorem meanT_eq (h : Mat) (e : Fin 128) : meanT h e = meanC h e := by
  unfold meanT meanC; rw [sum_parts]

theorem meanC_real (h : Mat) (hr : RealMat h) (e : Fin 128) : IsReal (meanC h e) := by
  unfold meanC
  rw [ofBits_n, Ideal.div_coe (by norm_num : (50000 : ℝ) ≠ 0)]
  exact ((isReal_zero.add (IsReal.sum _ _ fun p _ => hr _)).mul (IsReal.coe _))

/-- The mean squared deviation of real entries is a real number that is not negative. -/
theorem varC_nonneg_real (h : Mat) (hr : RealMat h) (e : Fin 128) : 0 ≤ varC h e ∧ IsReal (varC h e) := by
  have hm := meanC_real h hr e
  unfold varC
  rw [ofBits_n, Ideal.div_coe (by norm_num : (50000 : ℝ) ≠ 0)]
  obtain ⟨μ, hμ⟩ := hm
  have hterm : ∀ p : Fin 50000, ∃ a : ℝ, 0 ≤ a ∧ (h (ix2 p e) - meanC h e) * (h (ix2 p e) - meanC h e) = (a : EReal) := by
    intro p
    obtain ⟨x, hx⟩ := hr (ix2 p e)
    refine ⟨(x - μ) * (x - μ), mul_self_nonneg _, ?_⟩
    rw [hx, hμ, ← EReal.coe_sub, ← EReal.coe_mul]
  choose a ha0 ha using hterm
  have hs : (0 : EReal) + ∑ p : Fin 50000, (h (ix2 p e) - meanC h e) * (h (ix2 p e) - meanC h e)
      = ((∑ p : Fin 50000, a p : ℝ) : EReal) := by
    rw [zero_add, Cert.LibVariance.coe_finset_sum]
    exact Finset.sum_congr rfl fun p _ => ha p
  rw [hs, ← EReal.coe_mul]
  refine ⟨EReal.coe_nonneg.mpr (mul_nonneg (Finset.sum_nonneg fun p _ => ha0 p) (by norm_num)), IsReal.coe _⟩

/-- On real entries the clamped mean of squares minus squared mean, taken from the tile sums, is the mean squared
    deviation. -/
theorem varT_eq (h : Mat) (hr : RealMat h) (e : Fin 128) : varT h e = varC h e := by
  have hv := Cert.LibVariance.variance_eq_zero_add (n := 50000) (by norm_num) (fun p : Fin 50000 => h (ix2 p e))
    (fun p => hr (ix2 p e))
  have hn : (((50000 : ℕ) : ℝ) : EReal) = Ideal.ofBits .f32 0x47435000#32 := by rw [ofBits_n]; norm_num
  rw [hn] at hv
  unfold varT
  rw [meanT_eq, sum_parts]
  have hsq : ∀ p : Fin 50000, sq h (ix2 p e) = h (ix2 p e) * h (ix2 p e) := fun _ => rfl
  simp only [hsq]
  have : Ideal.div (0 + ∑ p : Fin 50000, h (ix2 p e) * h (ix2 p e)) (Ideal.ofBits .f32 0x47435000#32) - meanC h e * meanC h e
      = varC h e := hv.symm
  rw [this]
  exact max_eq_left (varC_nonneg_real h hr e).1

end Cert.LayerStats

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«155757_j37056977830250_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.SpecRead.lean ====
/-
  The reference's host operations read at an index, at the ideal values.

  • The product with a weight is the plain matrix product: entry (p, e) is Σ_k M(p, k) · W(k, e).
  • A channel vector repeated on every row reads, at (p, e), the vector's entry e; a constant spread over an array reads
    the constant.
  • The column sum of a [50000,128] matrix at channel e is the initial word's value plus Σ_p h(p, e); so the column mean
    and the mean squared deviation are the ones written by coordinates, and the normalise-scale-shift-rectify stage
    reads, at (p, e), max(((h(p,e) − mean(e)) · rsqrt(var(e) + ε)) · g(e) + b(e), 0).
  • The linear head reads, at (p, e), Σ_k h(p, k) · W(k, e) + b(e).
-/
import proofs.«155757_j37056977830250_2_alg».proof.Proof.Spec
import proofs.«155757_j37056977830250_2_alg».proof.Proof.KSpec
import proofs.«155757_j37056977830250_2_alg».proof.Proof.LayerStats
import proofs.«155757_j37056977830250_2_alg».proof.Proof.Gen.ReferenceIdeal
import proofs.«155757_j37056977830250_2_alg».proof.Proof.LibPlainDot
import Idealize.ShloMosaic.Lib.IdealHost
import Idealize.ShloMosaic.Lib.Pipeline.Value
import Idealize.ShloMosaic.PureOps.Ideal.Laws

noncomputable section

open scoped BigOperators

namespace Cert.SpecRead

open Cert.ReferenceIdeal Cert.ReferenceIdeal.Facts₀ Idealize.ShloMosaic Idealize.ShloMosaic.ValueIdx

/-- The product with a layer's weight is the plain matrix product. -/
theorem lin_eq (M : (⟨S50000x128, .f32⟩ : BufTy).Contents (Elt Ideal)) (W : (⟨S128x128, .f32⟩ : BufTy).Contents (Elt Ideal)) :
    Cert.Spec.lin M W = Cert.KSpec.lin M W := by
  funext i
  obtain ⟨p, e, rfl⟩ : ∃ (p : Fin 50000) (e : Fin 128), i = ix2 p e := ⟨i 0, i 1, eq_ix2 i⟩
  show FloatOps.dotGeneral (F := Ideal) (DotDims.plain 50000 128 128) none HostSchedule.single M W (ix2 p e)
    = ∑ k : Fin 128, M (ix2 p k) * W (ix2 k e)
  exact Cert.LibPlainDot.dotGeneral_plain_apply 50000 128 128 none HostSchedule.single M W p e

/-- A channel vector repeated on every row reads, at (p, e), its entry e. -/
theorem rows_apply (v : (⟨S128, .f32⟩ : BufTy).Contents (Elt Ideal)) (p : Fin 50000) (e : Fin 128) :
    Cert.Spec.rows v (ix2 p e) = v (ix1 e) := by
  unfold Cert.Spec.rows
  rw [broadcastInDim_apply _ _ _ (ix2 p e) (ix2 (0 : Fin 1) e) (fun a => by
    match a with
    | ⟨0, _⟩ => rfl
    | ⟨1, _⟩ => rfl)]
  exact broadcastInDim_apply _ _ _ (ix2 (0 : Fin 1) e) (ix1 e) (fun a => by
    match a with
    | ⟨0, _⟩ => rfl)

/-- The all-zero matrix reads the zero word's value. -/
theorem zerosM_apply (p : Fin 50000) (e : Fin 128) :
    Cert.Spec.zerosM (F := Ideal) (ix2 p e) = Ideal.ofBits .f32 0x00000000#32 := by
  unfold Cert.Spec.zerosM
  rw [broadcastInDim_scalar_apply]; rfl

/-- ε in every channel. -/
theorem epsv_apply (e : Fin 128) : Cert.Spec.epsv (F := Ideal) (ix1 e) = Ideal.ofBits .f32 0x3727C5AC#32 := by
  unfold Cert.Spec.epsv
  rw [broadcastInDim_scalar_apply]; rfl

/-- The row count in every channel. -/
theorem nvec_apply (e : Fin 128) : Cert.Spec.nvec (F := Ideal) (ix1 e) = Ideal.ofBits .f32 0x47435000#32 := by
  unfold Cert.Spec.nvec
  rw [broadcastInDim_scalar_apply]; rfl

/-- The column sum at channel e: the initial word's value plus the sum of column e. -/
theorem colSum_apply (h : (⟨S50000x128, .f32⟩ : BufTy).Contents (Elt Ideal)) (e : Fin 128) :
    Cert.Spec.colSum h (ix1 e) = Ideal.ofBits .f32 0x00000000#32 + ∑ p : Fin 50000, h (ix2 p e) := by
  unfold Cert.Spec.colSum
  simp only [Host.reduceAdd, Ideal.hostReduceAdd_def]
  rw [Ideal.hostReduceAdd_single reducesTo_S50000x128_S128_d0 (by decide)]
  refine congrArg (_ + ·) (Finset.sum_congr rfl fun k _ => ?_)
  exact congrArg h (funext fun a => Fin.ext (by match a with | ⟨0, _⟩ => rfl | ⟨1, _⟩ => rfl))

/-- The column mean is the mean written by coordinates. -/
theorem mean_apply (h : (⟨S50000x128, .f32⟩ : BufTy).Contents (Elt Ideal)) (e : Fin 128) :
    Cert.Spec.mean h (ix1 e) = Cert.LayerStats.meanC h e := by
  show Ideal.div (Cert.Spec.colSum h (ix1 e)) (Cert.Spec.nvec (F := Ideal) (ix1 e)) = _
  rw [colSum_apply, nvec_apply, Ideal.ofBits_zero_f32]
  rfl

/-- The deviation from the column mean. -/
theorem dev_apply (h : (⟨S50000x128, .f32⟩ : BufTy).Contents (Elt Ideal)) (p : Fin 50000) (e : Fin 128) :
    Cert.Spec.dev h (ix2 p e) = h (ix2 p e) - Cert.LayerStats.meanC h e := by
  show h (ix2 p e) - Cert.Spec.rows (Cert.Spec.mean h) (ix2 p e) = _
  rw [rows_apply, mean_apply]

/-- The column variance is the mean squared deviation written by coordinates. -/
theorem var_apply (h : (⟨S50000x128, .f32⟩ : BufTy).Contents (Elt Ideal)) (e : Fin 128) :
    Cert.Spec.var h (ix1 e) = Cert.LayerStats.varC h e := by
  show Ideal.div (Cert.Spec.colSum (mulf (Cert.Spec.dev h) (Cert.Spec.dev h)) (ix1 e)) (Cert.Spec.nvec (F := Ideal) (ix1 e)) = _
  rw [colSum_apply, nvec_apply, Ideal.ofBits_zero_f32]
  simp only [mulf_apply, dev_apply]
  rfl

/-- The host's reciprocal square root, entry by entry. -/
theorem hostRsqrt_apply {s : Shape} {φ : FTy} (x : FVec Ideal s φ) (i : s.Idx) : Host.rsqrt x i = Ideal.rsqrt (x i) := rfl

/-- Normalise, scale, shift, rectify, at (p, e). -/
theorem bnrelu_apply (h : (⟨S50000x128, .f32⟩ : BufTy).Contents (Elt Ideal)) (g b : (⟨S128, .f32⟩ : BufTy).Contents (Elt Ideal))
    (p : Fin 50000) (e : Fin 128) :
    Cert.Spec.bnrelu h g b (ix2 p e)
      = max (((h (ix2 p e) - Cert.LayerStats.meanC h e) * Ideal.rsqrt (Cert.LayerStats.varC h e + Ideal.ofBits .f32 0x3727C5AC#32))
              * g (ix1 e) + b (ix1 e)) (Ideal.ofBits .f32 0x00000000#32) := by
  unfold Cert.Spec.bnrelu
  rw [maximumf_apply, addf_apply, mulf_apply, mulf_apply, dev_apply, rows_apply, rows_apply, rows_apply, zerosM_apply,
    hostRsqrt_apply, addf_apply, var_apply, epsv_apply]

/-- The linear head at (p, e). -/
theorem head_apply (h : (⟨S50000x128, .f32⟩ : BufTy).Contents (Elt Ideal)) (W : (⟨S128x64, .f32⟩ : BufTy).Contents (Elt Ideal))
    (b : (⟨S64, .f32⟩ : BufTy).Contents (Elt Ideal)) (p : Fin 50000) (e : Fin 64) :
    Cert.Spec.head h W b (ix2 p e) = (∑ k : Fin 128, h (ix2 p k) * W (ix2 k e)) + b (ix1 e) := by
  unfold Cert.Spec.head
  rw [addf_apply]
  refine congrArg₂ (· + ·) (Cert.LibPlainDot.dotGeneral_plain_apply 50000 128 64 none HostSchedule.single h W p e) ?_
  rw [broadcastInDim_apply _ _ _ (ix2 p e) (ix2 (0 : Fin 1) e) (fun a => by
    match a with
    | ⟨0, _⟩ => rfl
    | ⟨1, _⟩ => rfl)]
  exact broadcastInDim_apply _ _ _ (ix2 (0 : Fin 1) e) (ix1 e) (fun a => by
    match a with
    | ⟨0, _⟩ => rfl)

end Cert.SpecRead

end
-- ==== Proof.LibSumIdx3.lean ====
/-
  Sums over a rank-3 index set, by coordinates. The index set of a shape `[n0, n1, n2]` is the product of its three
  coordinate ranges, so a sum over it is the triple sum over the coordinates; when one axis has extent one the sum
  over that axis is its single term, and what is left is the double sum over the two other coordinates with the
  unit coordinate at `0`.
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over a shape `[n0, n1, 1]`: the double sum over the first two coordinates, the last at `0`. -/
theorem sum_idx3_unit_last {M : Type*} [AddCommMonoid M] {n0 n1 : Nat} (f : (⟨3, ![n0, n1, 1]⟩ : Shape).Idx → M) :
    ∑ i, f i = ∑ a : Fin n0, ∑ b : Fin n1, f (ix3 a b 0) := by
  rw [sum_idx3]
  refine Finset.sum_congr rfl fun a _ => Finset.sum_congr rfl fun b _ => ?_
  exact Fin.sum_univ_one _

/-- Over a shape `[n0, 1, n2]`: the double sum over the first and last coordinates, the middle one at `0`. -/
theorem sum_idx3_unit_mid {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  exact Fin.sum_univ_one _

end Cert.LibSumIdx3

end
-- ==== Proof.KStatsRead.lean ====
/-
  The kernel program's host statistics read at an index, at the ideal values.

  • The sum of the ten tile rows of a [10,1,128] array at channel e is the initial word's value plus Σ_t P(t, 0, e): the
    two leading axes are summed away, and an index (t, u, c) falls on channel e exactly when c = e.
  • The column mean from the tile sums divides that by the word of the row count; the variance is the mean of squares
    minus the squared mean, clamped at the zero word's value.
  • A channel vector laid out as one row reads, at (u, e), its entry e; a weight or a bias padded with zero columns reads
    the operand inside the first 64 columns; the cut to 64 columns reads the source at the same place.
-/
import proofs.«155757_j37056977830250_2_alg».proof.Proof.KHost
import proofs.«155757_j37056977830250_2_alg».proof.Proof.LibSumIdx3
import Idealize.ShloMosaic.Lib.IdealHost
import Idealize.ShloMosaic.Lib.ValueLayout
import Idealize.ShloMosaic.Lib.KernelVsHost
import Idealize.ShloMosaic.PureOps.Ideal.Laws

noncomputable section

open scoped BigOperators

namespace Cert.KStatsRead

open Cert.KernelIdeal Cert.KernelIdeal.Facts₀ Cert.KernelIdeal.KHost Idealize.ShloMosaic Idealize.ShloMosaic.ValueIdx

/-- Dropping the two leading axes of (t, u, c) leaves c. -/
theorem drop_val (h : S10x1x128.ReducesTo [0, 1] S128) (t : Fin 10) (u : Fin 1) (c : Fin 128) :
    ((h.drop (ix3 t u c)) (0 : Fin 1)).val = c.val := rfl

/-- An index (t, u, c) falls on channel e exactly when c = e. -/
theorem drop_eq_iff (h : S10x1x128.ReducesTo [0, 1] S128) (t : Fin 10) (u : Fin 1) (c e : Fin 128) :
    h.drop (ix3 t u c) = ix1 e ↔ c = e := by
  constructor
  · intro hd
    have h0 := congrArg Fin.val (congrFun hd (0 : Fin 1))
    exact Fin.ext ((drop_val h t u c).symm.trans h0)
  · rintro rfl
    funext b
    match b with
    | ⟨0, _⟩ => exact Fin.ext (drop_val h t u c)

/-- The sum of the ten tile rows at channel e. -/
theorem sumParts_apply (P : (⟨S10x1x128, .f32⟩ : BufTy).Contents (Elt Ideal)) (e : Fin 128) :
    KHost.sumParts P (ix1 e) = Ideal.ofBits .f32 0x00000000#32 + ∑ t : Fin 10, P (ix3 t (0 : Fin 1) e) := by
  show Ideal.hostReduceAdd reducesTo_S10x1x128_S128_d0_1 P (Ideal.ofBits .f32 0x00000000#32) (ix1 e) = _
  unfold Ideal.hostReduceAdd
  congr 1
  rw [Finset.sum_filter]
  rw [Cert.LibSumIdx3.sum_idx3_unit_mid (n0 := 10) (n2 := 128)
    (fun i => if reducesTo_S10x1x128_S128_d0_1.drop i = ix1 e then P i else 0)]
  refine Finset.sum_congr rfl fun t _ => ?_
  rw [Finset.sum_eq_single e]
  · rw [if_pos ((drop_eq_iff _ t 0 e e).mpr rfl)]
  · intro c _ hc
    rw [if_neg (fun hd => hc ((drop_eq_iff _ t 0 c e).mp hd))]
  · intro hne
    exact absurd (Finset.mem_univ e) hne

/-- The row count in every channel. -/
theorem nvec_apply (e : Fin 128) : KHost.nvec (F := Ideal) (ix1 e) = Ideal.ofBits .f32 0x47435000#32 := by
  unfold KHost.nvec
  rw [broadcastInDim_scalar_apply]; rfl

/-- The column mean from the tile sums, at channel e. -/
theorem meanV_apply (P : (⟨S10x1x128, .f32⟩ : BufTy).Contents (Elt Ideal)) (e : Fin 128) :
    KHost.meanV P (ix1 e)
      = Ideal.div (Ideal.ofBits .f32 0x00000000#32 + ∑ t : Fin 10, P (ix3 t (0 : Fin 1) e)) (Ideal.ofBits .f32 0x47435000#32) := by
  show Ideal.div (KHost.sumParts P (ix1 e)) (KHost.nvec (F := Ideal) (ix1 e)) = _
  rw [sumParts_apply, nvec_apply]

/-- The column variance from the tile sums of the entries and of their squares, at channel e. -/
theorem varV_apply (P Q : (⟨S10x1x128, .f32⟩ : BufTy).Contents (Elt Ideal)) (e : Fin 128) :
    KHost.varV P Q (ix1 e)
      = max (Ideal.div (Ideal.ofBits .f32 0x00000000#32 + ∑ t : Fin 10, Q (ix3 t (0 : Fin 1) e)) (Ideal.ofBits .f32 0x47435000#32)
              - KHost.meanV P (ix1 e) * KHost.meanV P (ix1 e)) (Ideal.ofBits .f32 0x00000000#32) := by
  show max (Ideal.div (KHost.sumParts Q (ix1 e)) (KHost.nvec (F := Ideal) (ix1 e)) - KHost.meanV P (ix1 e) * KHost.meanV P (ix1 e))
      (broadcastInDim S128 ![] bcast_S_S128 (constant (F := Ideal) S_ .f32 0x00000000#32) (ix1 e)) = _
  rw [sumParts_apply, nvec_apply, broadcastInDim_scalar_apply]
  rfl

/-- A channel vector as one row reads, at (u, e), its entry e. -/
theorem asRow_apply (v : (⟨S128, .f32⟩ : BufTy).Contents (Elt Ideal)) (u : Fin 1) (e : Fin 128) :
    KHost.asRow v (ix2 u e) = v (ix1 e) := by
  unfold KHost.asRow
  exact shapeCast_a_1a_apply v _ u e

/-- The padded weight inside the first 64 columns is the weight. -/
theorem padW_apply (W : (⟨S128x64, .f32⟩ : BufTy).Contents (Elt Ideal)) (k : Fin 128) (e : Fin 64) :
    KHost.padW W (ix2 k (⟨e.val, by omega⟩ : Fin 128)) = W (ix2 k e) := by
  unfold KHost.padW
  refine pad_apply_of_inside _ _ _ W _ _ _ _ (ix2 k e) fun a => ?_
  match a with
  | ⟨0, _⟩ => show k.val = 0 + k.val * (0 + 1); omega
  | ⟨1, _⟩ => show e.val = 0 + e.val * (0 + 1); omega

/-- The padded bias inside the first 64 entries is the bias. -/
theorem padB_apply (b : (⟨S64, .f32⟩ : BufTy).Contents (Elt Ideal)) (e : Fin 64) :
    KHost.padB b (ix1 (⟨e.val, by omega⟩ : Fin 128)) = b (ix1 e) := by
  unfold KHost.padB
  refine pad_apply_of_inside _ _ _ b _ _ _ _ (ix1 e) fun a => ?_
  match a with
  | ⟨0, _⟩ => show e.val = 0 + e.val * (0 + 1); omega

/-- The cut to the first 64 columns reads the source at the same place. -/
theorem cut64_apply (x : (⟨S50000x128, .f32⟩ : BufTy).Contents (Elt Ideal)) (p : Fin 50000) (e : Fin 64) :
    KHost.cut64 x (ix2 p e) = x (ix2 p (⟨e.val, by omega⟩ : Fin 128)) := by
  unfold KHost.cut64
  exact slice2_axis1_apply 0 x _ p e ⟨e.val, by omega⟩ (by show e.val = 0 + e.val; omega)

end Cert.KStatsRead

end
-- ==== Proof.LayerEq.lean ====
/-
  One layer's normalisation, and the head, in the two vocabularies.

  • With the column mean and variance taken from the ten tile sums (of the entries and of their squares), laid out as
    rows, the normalise-and-rectify function of the tiles is the reference's normalise-scale-shift-rectify stage. On real
    entries the tile sums add up to the column sums, and the clamped mean of squares minus squared mean is the mean
    squared deviation; the constants stay as their words on both sides.
  • The classifier with the head's weight and bias padded by zero columns, cut back to the first 64 columns, is the
    reference's linear head on the normalised rows: inside the first 64 columns the padded weight and bias are the
    weight and bias.
-/
import proofs.«155757_j37056977830250_2_alg».proof.Proof.SpecRead
import proofs.«155757_j37056977830250_2_alg».proof.Proof.KStatsRead
import proofs.«155757_j37056977830250_2_alg».proof.Proof.KSpec
import proofs.«155757_j37056977830250_2_alg».proof.Proof.LayerStats

noncomputable section

open scoped BigOperators

namespace Cert.LayerEq

open Cert.KernelIdeal.KHost Idealize.ShloMosaic Idealize.ShloMosaic.ValueIdx

/-- The normalisation from the tile statistics is the reference's stage. -/
theorem layer_eq (H : Cert.KSpec.Mat) (hH : Cert.LayerStats.RealMat H)
    (g b : (⟨Cert.ReferenceIdeal.S128, .f32⟩ : BufTy).Contents (Elt Ideal)) :
    Cert.KSpec.bn H (asRow (F := Ideal) (meanV (F := Ideal) (Cert.KSpec.parts H)))
        (asRow (F := Ideal) (varV (F := Ideal) (Cert.KSpec.parts H) (Cert.KSpec.parts (Cert.KSpec.sq H))))
        (asRow (F := Ideal) g) (asRow (F := Ideal) b)
      = Cert.Spec.bnrelu (F := Ideal) H g b := by
  funext i
  obtain ⟨p, e, rfl⟩ : ∃ (p : Fin 50000) (e : Fin 128), i = ix2 p e := ⟨i 0, i 1, eq_ix2 i⟩
  rw [Cert.SpecRead.bnrelu_apply]
  show max (((H (ix2 p e) - asRow (F := Ideal) (meanV (F := Ideal) (Cert.KSpec.parts H)) (ix2 (0 : Fin 1) e))
              * Ideal.rsqrt (asRow (F := Ideal) (varV (F := Ideal) (Cert.KSpec.parts H) (Cert.KSpec.parts (Cert.KSpec.sq H))) (ix2 (0 : Fin 1) e)
                  + Ideal.ofBits .f32 0x3727C5AC#32))
            * asRow (F := Ideal) g (ix2 (0 : Fin 1) e) + asRow (F := Ideal) b (ix2 (0 : Fin 1) e)) (Ideal.ofBits .f32 0x00000000#32) = _
  rw [Cert.KStatsRead.asRow_apply, Cert.KStatsRead.asRow_apply, Cert.KStatsRead.asRow_apply, Cert.KStatsRead.asRow_apply,
    Cert.KStatsRead.varV_apply, Cert.KStatsRead.meanV_apply]
  have hm : Ideal.div (Ideal.ofBits .f32 0x00000000#32 + ∑ t : Fin 10, Cert.KSpec.parts H (ix3 t (0 : Fin 1) e))
      (Ideal.ofBits .f32 0x47435000#32) = Cert.LayerStats.meanC H e := by
    rw [Ideal.ofBits_zero_f32]; exact Cert.LayerStats.meanT_eq H e
  have hv : max (Ideal.div (Ideal.ofBits .f32 0x00000000#32 + ∑ t : Fin 10, Cert.KSpec.parts (Cert.KSpec.sq H) (ix3 t (0 : Fin 1) e))
        (Ideal.ofBits .f32 0x47435000#32) - Cert.LayerStats.meanC H e * Cert.LayerStats.meanC H e) (Ideal.ofBits .f32 0x00000000#32)
      = Cert.LayerStats.varC H e := by
    rw [← Cert.LayerStats.meanT_eq H e, Ideal.ofBits_zero_f32]; exact Cert.LayerStats.varT_eq H hH e
  rw [hm, hv]

/-- The padded classifier cut to 64 columns is the reference's head on the normalised rows. -/
theorem head_eq (H : Cert.KSpec.Mat) (mean var g b : Cert.KSpec.Row)
    (W : (⟨Cert.ReferenceIdeal.S128x64, .f32⟩ : BufTy).Contents (Elt Ideal))
    (bias : (⟨Cert.ReferenceIdeal.S64, .f32⟩ : BufTy).Contents (Elt Ideal)) :
    cut64 (F := Ideal) (Cert.KSpec.cls H mean var g b (padW (F := Ideal) W) (asRow (F := Ideal) (padB (F := Ideal) bias)))
      = Cert.Spec.head (F := Ideal) (Cert.KSpec.bn H mean var g b) W bias := by
  funext i
  obtain ⟨p, e, rfl⟩ : ∃ (p : Fin 50000) (e : Fin 64), i = ix2 p e := ⟨i 0, i 1, eq_ix2 i⟩
  rw [Cert.KStatsRead.cut64_apply, Cert.SpecRead.head_apply]
  show (∑ k : Fin 128, Cert.KSpec.bn H mean var g b (ix2 p k) * padW (F := Ideal) W (ix2 k (⟨e.val, by omega⟩ : Fin 128)))
      + asRow (F := Ideal) (padB (F := Ideal) bias) (ix2 (0 : Fin 1) (⟨e.val, by omega⟩ : Fin 128)) = _
  rw [Cert.KStatsRead.asRow_apply, Cert.KStatsRead.padB_apply]
  congr 1
  refine Finset.sum_congr rfl fun k _ => ?_
  rw [Cert.KStatsRead.padW_apply]

end Cert.LayerEq

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.RealNet.lean ====
/-
  Real entries along the network: each stage of a layer turns matrices with real entries into a matrix with real
  entries.

  An extended real is real when it is neither infinity. Sums, products, differences and maxima of reals are real, so
  • the product with a weight, entry (p, e) ↦ Σ_k m(p, k) · W(k, e), of real matrices is real;
  • the degree factor of a node, rsqrt(max(deg, 1)) where a flag is set and 0 elsewhere, is a nonnegative number below
    +∞ whatever the degree is, hence real;
  • a broadcast and a gather read, at each index, one entry of their operand, so they keep real entries; a scatter that
    adds reads the operand's entry plus a finite sum of update entries, so it keeps real entries too; the aggregation
    is built of these and of entrywise products;
  • for a real entry x, real mean μ, scale γ, shift β and a real variance v ≥ 0, the normalised and rectified value
    max(((x − μ) · rsqrt(v + ε)) · γ + β, 0) is real: ε is a positive real, so v + ε is positive and its reciprocal
    square root is a nonnegative number below +∞.
-/
import proofs.«155757_j37056977830250_2_alg».proof.Proof.Spec
import proofs.«155757_j37056977830250_2_alg».proof.Proof.KSpec
import proofs.«155757_j37056977830250_2_alg».proof.Proof.LayerStats
import proofs.«155757_j37056977830250_2_alg».proof.Proof.Gen.ReferenceIdeal
import proofs.«155757_j37056977830250_2_alg».proof.Proof.LibRealEntries
import proofs.«155757_j37056977830250_2_alg».proof.Proof.LibERealScale
import Idealize.ShloMosaic.Lib.Pipeline.Value
import Idealize.ShloMosaic.Lib.ValueIdx
import Idealize.ShloMosaic.PureOps.Ideal.Laws

noncomputable section

open scoped BigOperators

namespace Cert.RealNet

open Cert.ReferenceIdeal Idealize.ShloMosaic Idealize.ShloMosaic.ValueIdx Cert.LibRealEntries Cert.LayerStats

/-! ## Scalars -/

/-- A nonnegative extended real below the top is a real. -/
theorem isReal_of_nonneg_ne_top {x : EReal} (h0 : 0 ≤ x) (ht : x ≠ ⊤) : IsReal x := by
  induction x using EReal.rec with
  | bot => exact absurd h0 (by simp)
  | coe r => exact ⟨r, rfl⟩
  | top => exact absurd rfl ht

/-- The word of ε is a positive real. -/
theorem eps_pos_real : ∃ r : ℝ, 0 < r ∧ Ideal.ofBits .f32 0x3727C5AC#32 = (r : EReal) := by
  simp [Ideal.ofBits, Ideal.ieee]
  refine ⟨_, ?_, (EReal.coe_mul _ _).symm⟩
  positivity

/-- The normalised, scaled, shifted and rectified value of a real entry, with a real mean and a real variance that is
    not negative, is real. -/
theorem real_bn_scalar {x μ v γ β : EReal} (hx : IsReal x) (hμ : IsReal μ) (hv : IsReal v) (hv0 : 0 ≤ v)
    (hγ : IsReal γ) (hβ : IsReal β) :
    IsReal (max (((x - μ) * Ideal.rsqrt (v + Ideal.ofBits .f32 0x3727C5AC#32)) * γ + β) (Ideal.ofBits .f32 0x00000000#32)) := by
  obtain ⟨ε, hε0, hε⟩ := eps_pos_real
  have hpos : 0 < v + Ideal.ofBits .f32 0x3727C5AC#32 := by
    rw [hε]
    obtain ⟨r, rfl⟩ := hv
    have hr : 0 ≤ r := by exact_mod_cast hv0
    rw [← EReal.coe_add]
    exact_mod_cast add_pos_of_nonneg_of_pos hr hε0
  obtain ⟨h0, ht⟩ := Cert.LibERealScale.rsqrt_nonneg_ne_top hpos
  rw [Ideal.ofBits_zero_f32]
  exact ((((hx.sub hμ).mul (isReal_of_nonneg_ne_top h0 ht)).mul hγ).add hβ).max isReal_zero

/-! ## Entrywise and layout operations keep real entries -/

variable {s t : Shape}

theorem real_mulf {a b : FVec Ideal s .f32} (ha : RealMat a) (hb : RealMat b) : RealMat (mulf a b) :=
  fun i => (ha i).mul (hb i)

/-- A broadcast reads, at each index, one entry of its operand. -/
theorem real_broadcastInDim (dims : Fin s.rank → Fin t.rank) (h : s.BroadcastsInDim t dims) {x : s.Idx → EReal}
    (hx : RealMat x) : RealMat (broadcastInDim t dims h x) := fun j => by
  unfold broadcastInDim; exact hx _

/-- A constant whose word is zero, spread over a shape, is real. -/
theorem real_zero_splat (h : (⟨0, ![]⟩ : Shape).BroadcastsInDim t ![]) :
    RealMat (broadcastInDim t ![] h (constant (F := Ideal) ⟨0, ![]⟩ .f32 0x00000000#32)) :=
  real_broadcastInDim _ h fun _ => by
    show IsReal (Ideal.ofBits .f32 0x00000000#32)
    rw [Ideal.ofBits_zero_f32]; exact isReal_zero

/-- A gather reads, at each index, one entry of its operand. -/
theorem real_gather {si : Shape} {w : Nat} (d : GatherDims s si t) {x : s.Idx → EReal} (idx : IVec si w)
    (hx : RealMat x) : RealMat (Host.gather d x idx) := fun j => by
  unfold Host.gather; exact hx _

/-- A scatter that adds reads, at each index, the operand's entry plus a finite sum of update entries. -/
theorem real_scatterAdd {si u : Shape} {w : Nat} (d : ScatterDims s si u) {x : FVec Ideal s .f32} (idx : IVec si w)
    {upd : FVec Ideal u .f32} (hx : RealMat x) (hu : RealMat upd) : RealMat (Host.scatterAdd d x idx upd) := fun i => by
  show IsReal (x i + ∑ j ∈ Finset.univ.filter (fun j => d.resultIdx? j idx = some i), upd j)
  exact (hx i).add (IsReal.sum _ _ fun j _ => hu j)

/-! ## The stages -/

/-- The product of a real matrix with a real weight is real. -/
theorem real_lin (M : Cert.KSpec.Mat) (W : Cert.KSpec.Wt) (hM : RealMat M) (hW : RealMat W) :
    RealMat (Cert.KSpec.lin M W) := fun i => by
  unfold Cert.KSpec.lin
  exact IsReal.sum _ _ fun k _ => (hM _).mul (hW _)

/-- A scalar constant spread over a shape reads the constant's value. -/
theorem splat_apply (h : (⟨0, ![]⟩ : Shape).BroadcastsInDim t ![]) (w : BitVec 32) (i : t.Idx) :
    broadcastInDim t ![] h (constant (F := Ideal) ⟨0, ![]⟩ .f32 w) i = Ideal.ofBits .f32 w :=
  broadcastInDim_apply ![] h _ i ix0 (fun a => a.elim0)

/-- rsqrt(max(d, 1)) where a flag is set and 0 elsewhere is real, whatever d and the flag are. -/
theorem real_select_rsqrt (c : IVec s 1) (d one zero : FVec Ideal s .f32)
    (h1 : ∀ i, one i = Ideal.ofBits .f32 0x3F800000#32) (h0 : ∀ i, zero i = Ideal.ofBits .f32 0x00000000#32) :
    RealMat (select c (Host.rsqrt (maximumf d one)) zero) := fun i => by
  show IsReal (Scalar.select (c i) (Ideal.rsqrt (max (d i) (one i))) (zero i))
  rw [h1, h0]
  obtain ⟨a, b⟩ := Cert.LibERealScale.select_rsqrt_nonneg_ne_top (c i) (d i)
  exact isReal_of_nonneg_ne_top a b

/-- The degree factor is real. -/
theorem real_dinv (x : (⟨S800000, .i32⟩ : BufTy).Contents (Elt Ideal)) : RealMat (Cert.Spec.dinv (F := Ideal) x) := by
  unfold Cert.Spec.dinv
  exact real_select_rsqrt _ _ _ _ (splat_apply _ _) (splat_apply _ _)

/-- A per-node factor spread over the channels keeps real entries. -/
theorem real_spread {v : (⟨S50000, .f32⟩ : BufTy).Contents (Elt Ideal)} (hv : RealMat v) :
    RealMat (Cert.Spec.spread (F := Ideal) v) := by
  unfold Cert.Spec.spread
  exact real_broadcastInDim _ _ (real_broadcastInDim _ _ hv)

/-- The aggregation of a real matrix is real. -/
theorem real_agg (h : (⟨S50000x128, .f32⟩ : BufTy).Contents (Elt Ideal))
    (src dst : (⟨S800000, .i32⟩ : BufTy).Contents (Elt Ideal)) (hh : RealMat h) :
    RealMat (Cert.Spec.agg (F := Ideal) h src dst) := by
  unfold Cert.Spec.agg Cert.Spec.aggWith
  refine real_mulf (real_scatterAdd _ _ ?_ (real_gather _ _ (real_mulf hh (real_spread (real_dinv src)))))
    (real_spread (real_dinv dst))
  unfold Cert.Spec.zerosM
  exact real_zero_splat _

end Cert.RealNet

end
-- ==== Proof.RealBn.lean ====
/-
  The normalisation of a matrix with real entries, with real scales and shifts, has real entries.

  At (p, e) the normalised, scaled, shifted and rectified matrix is
  max(((h(p, e) − mean_e) · rsqrt(var_e + ε)) · g(e) + b(e), 0), where mean_e is the mean of column e and var_e its mean
  squared deviation. For real entries the column mean is real and the mean squared deviation is a real number that is
  not negative, so the value is real.
-/
import proofs.«155757_j37056977830250_2_alg».proof.Proof.SpecRead
import proofs.«155757_j37056977830250_2_alg».proof.Proof.RealNet

noncomputable section

namespace Cert.RealBn

open Cert.ReferenceIdeal Idealize.ShloMosaic Idealize.ShloMosaic.ValueIdx Cert.LibRealEntries Cert.LayerStats

/-- Normalising, scaling, shifting and rectifying a real matrix with real scale and shift gives a real matrix. -/
theorem real_bnrelu (H : (⟨S50000x128, .f32⟩ : BufTy).Contents (Elt Ideal)) (g b : (⟨S128, .f32⟩ : BufTy).Contents (Elt Ideal))
    (hH : RealMat H) (hg : RealMat g) (hb : RealMat b) : RealMat (Cert.Spec.bnrelu (F := Ideal) H g b) := by
  intro i
  obtain ⟨p, e, rfl⟩ : ∃ (p : Fin 50000) (e : Fin 128), i = ix2 p e := ⟨i 0, i 1, eq_ix2 i⟩
  rw [Cert.SpecRead.bnrelu_apply]
  obtain ⟨hv0, hv⟩ := varC_nonneg_real H hH e
  exact Cert.RealNet.real_bn_scalar (hH _) (meanC_real H hH e) hv hv0 (hg _) (hb _)

end Cert.RealBn

end
-- ==== Proof.RealBnK.lean ====
/-
  The normalisation from the tile statistics, of a matrix with real entries, has real entries.

  With the column mean and variance taken from the ten tile sums and laid out as rows, the normalise-and-rectify
  function of a real matrix is the normalise-scale-shift-rectify stage of that matrix, whose entries are real.
-/
import proofs.«155757_j37056977830250_2_alg».proof.Proof.KNet
import proofs.«155757_j37056977830250_2_alg».proof.Proof.LayerEq
import proofs.«155757_j37056977830250_2_alg».proof.Proof.RealBn

noncomputable section

namespace Cert.RealBnK

open Idealize.ShloMosaic Cert.LayerStats

/-- The normalisation from the tile statistics is the stage on whole columns, for a real matrix. -/
theorem bnK_eq (H : Cert.KSpec.Mat) (hH : RealMat H)
    (g b : (⟨Cert.ReferenceIdeal.S128, .f32⟩ : BufTy).Contents (Elt Ideal)) :
    Cert.KNet.bnK H g b = Cert.Spec.bnrelu (F := Ideal) H g b :=
  Cert.LayerEq.layer_eq H hH g b

/-- So it has real entries when the matrix, the scale and the shift have. -/
theorem real_bnK (H : Cert.KSpec.Mat) (g b : (⟨Cert.ReferenceIdeal.S128, .f32⟩ : BufTy).Contents (Elt Ideal))
    (hH : RealMat H) (hg : RealMat g) (hb : RealMat b) : RealMat (Cert.KNet.bnK H g b) := by
  rw [bnK_eq H hH g b]
  exact Cert.RealBn.real_bnrelu H g b hH hg hb

end Cert.RealBnK

end
-- ==== Proof.NetEq.lean ====
/-
  The whole network in the two vocabularies, on real arguments.

  The idealized program computes each layer as: aggregate on the host, multiply by the weight and take the tile sums in
  a pipeline, form mean and variance rows from the tile sums, normalise in a pipeline; after the third product the
  normalisation and the head run together on the zero-padded weight and bias and the first 64 columns are cut. The
  reference computes aggregate, product, normalise (column mean, mean squared deviation), three times, then the head.
  • The aggregations are the same function: the same host operations on the same literal shapes.
  • The products are the same sum over the 128 channels.
  • The normalisation from the tile statistics is the reference's stage on a matrix with real entries; the product of
    an aggregation of a real matrix with a real weight is real, and a layer of a real matrix with real weight, scale and
    shift is real, so the hypothesis passes from layer to layer.
  • The padded classifier cut to 64 columns is the head on the normalised rows.
-/
import proofs.«155757_j37056977830250_2_alg».proof.Proof.KNet
import proofs.«155757_j37056977830250_2_alg».proof.Proof.Bridge
import proofs.«155757_j37056977830250_2_alg».proof.Proof.LayerEq
import proofs.«155757_j37056977830250_2_alg».proof.Proof.SpecRead
import proofs.«155757_j37056977830250_2_alg».proof.Proof.RealNet
import proofs.«155757_j37056977830250_2_alg».proof.Proof.RealBn
import proofs.«155757_j37056977830250_2_alg».proof.Proof.RealBnK

noncomputable section

namespace Cert.NetEq

open Idealize.ShloMosaic Cert.LayerStats Cert.KernelIdeal

/-- The aggregation is the reference's. -/
theorem aggK_eq (h : (⟨S50000x128, .f32⟩ : BufTy).Contents (Elt Ideal))
    (src dst : (⟨S800000, .i32⟩ : BufTy).Contents (Elt Ideal)) :
    Cert.KNet.aggK h src dst = Cert.Spec.agg (F := Ideal) h src dst := by
  unfold Cert.KNet.aggK Cert.Spec.agg
  rw [Cert.Bridge.dinv_eq, Cert.Bridge.dinv_eq]
  exact Cert.Bridge.aggWith_eq h src dst _ _

/-- The product of the aggregation of a real matrix with a real weight is real. -/
theorem real_lin_agg (h : (⟨S50000x128, .f32⟩ : BufTy).Contents (Elt Ideal))
    (src dst : (⟨S800000, .i32⟩ : BufTy).Contents (Elt Ideal)) (W : (⟨S128x128, .f32⟩ : BufTy).Contents (Elt Ideal))
    (hh : RealMat h) (hW : RealMat W) : RealMat (Cert.KSpec.lin (Cert.Spec.agg (F := Ideal) h src dst) W) :=
  Cert.RealNet.real_lin _ _ (Cert.RealNet.real_agg h src dst hh) hW

/-- One layer is the reference's, on a real matrix and a real weight. -/
theorem layerK_eq (h : (⟨S50000x128, .f32⟩ : BufTy).Contents (Elt Ideal))
    (src dst : (⟨S800000, .i32⟩ : BufTy).Contents (Elt Ideal)) (W : (⟨S128x128, .f32⟩ : BufTy).Contents (Elt Ideal))
    (g b : (⟨S128, .f32⟩ : BufTy).Contents (Elt Ideal)) (hh : RealMat h) (hW : RealMat W) :
    Cert.KNet.layerK h src dst W g b = Cert.Spec.layer (F := Ideal) h src dst W g b := by
  unfold Cert.KNet.layerK Cert.Spec.layer
  rw [aggK_eq, Cert.SpecRead.lin_eq]
  exact Cert.RealBnK.bnK_eq _ (real_lin_agg h src dst W hh hW) g b

/-- One layer of a real matrix, with real weight, scale and shift, is real. -/
theorem real_layer (h : (⟨S50000x128, .f32⟩ : BufTy).Contents (Elt Ideal))
    (src dst : (⟨S800000, .i32⟩ : BufTy).Contents (Elt Ideal)) (W : (⟨S128x128, .f32⟩ : BufTy).Contents (Elt Ideal))
    (g b : (⟨S128, .f32⟩ : BufTy).Contents (Elt Ideal)) (hh : RealMat h) (hW : RealMat W) (hg : RealMat g) (hb : RealMat b) :
    RealMat (Cert.Spec.layer (F := Ideal) h src dst W g b) := by
  unfold Cert.Spec.layer
  rw [Cert.SpecRead.lin_eq]
  exact Cert.RealBn.real_bnrelu _ g b (real_lin_agg h src dst W hh hW) hg hb

/-- The network as the idealized program computes it is the reference's network, on real features, weights, and the
    first two layers' scales and shifts. -/
theorem net_eq (feat : (⟨S50000x128, .f32⟩ : BufTy).Contents (Elt Ideal))
    (src dst : (⟨S800000, .i32⟩ : BufTy).Contents (Elt Ideal))
    (W0 W1 W2 : (⟨S128x128, .f32⟩ : BufTy).Contents (Elt Ideal))
    (g0 b0 g1 b1 g2 b2 : (⟨S128, .f32⟩ : BufTy).Contents (Elt Ideal))
    (cW : (⟨S128x64, .f32⟩ : BufTy).Contents (Elt Ideal)) (cb : (⟨S64, .f32⟩ : BufTy).Contents (Elt Ideal))
    (hfeat : RealMat feat) (hW0 : RealMat W0) (hW1 : RealMat W1) (hW2 : RealMat W2)
    (hg0 : RealMat g0) (hb0 : RealMat b0) (hg1 : RealMat g1) (hb1 : RealMat b1) :
    Cert.KNet.headK (Cert.KSpec.lin (Cert.KNet.aggK (Cert.KNet.layerK (Cert.KNet.layerK feat src dst W0 g0 b0) src dst W1 g1 b1)
        src dst) W2) g2 b2 cW cb
      = Cert.Spec.net (F := Ideal) feat src dst W0 W1 W2 g0 b0 g1 b1 g2 b2 cW cb := by
  have h1 : RealMat (Cert.Spec.layer (F := Ideal) feat src dst W0 g0 b0) :=
    real_layer feat src dst W0 g0 b0 hfeat hW0 hg0 hb0
  have h2 : RealMat (Cert.Spec.layer (F := Ideal) (Cert.Spec.layer (F := Ideal) feat src dst W0 g0 b0) src dst W1 g1 b1) :=
    real_layer _ src dst W1 g1 b1 h1 hW1 hg1 hb1
  rw [layerK_eq feat src dst W0 g0 b0 hfeat hW0, layerK_eq _ src dst W1 g1 b1 h1 hW1, aggK_eq]
  unfold Cert.KNet.headK Cert.Spec.net
  rw [Cert.LayerEq.head_eq]
  refine congrArg (fun Z => Cert.Spec.head (F := Ideal) Z cW cb) ?_
  refine (Cert.RealBnK.bnK_eq _ (real_lin_agg _ src dst W2 h2 hW2) g2 b2).trans ?_
  show _ = Cert.Spec.bnrelu (F := Ideal) (Cert.Spec.lin (F := Ideal) (Cert.Spec.agg (F := Ideal) _ src dst) W2) g2 b2
  rw [Cert.SpecRead.lin_eq]

end Cert.NetEq

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«155757_j37056977830250_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreReal.lean ====
/-
  The precondition "every float input is finite", read: every entry of every float input is a real number.

  The precondition is the conjunction, over the twelve float inputs, of the tests "every |entry| is below +∞". It is
  stated as one word being 1. A conjunction of one-bit words is 1 exactly when each is; a test "every |entry| < +∞" that
  is 1 holds at every entry; and an extended real whose absolute value is below the top is neither infinity.
-/
import proofs.«155757_j37056977830250_2_alg».proof.Pre_finite_inputs
import proofs.«155757_j37056977830250_2_alg».proof.Proof.Gen.Pre_finite_inputs
import proofs.«155757_j37056977830250_2_alg».proof.Proof.LibFinitePre
import proofs.«155757_j37056977830250_2_alg».proof.Proof.LayerStats
import Idealize.ShloMosaic.Lib.Affine

noncomputable section

namespace Cert.PreReal

open Cert.Pre_finite_inputs Idealize.ShloMosaic Idealize.ShloMosaic.ValueIdx Cert.LibRealEntries Cert.LayerStats

/-- A conjunction of word arrays, at an index, is the conjunction of the words there. -/
theorem andi_apply {s : Shape} {w : Nat} (x y : IVec s w) (i : s.Idx) :
    Idealize.ShloMosaic.andi x y i = IntOp.andi (x i) (y i) := rfl

/-- The precondition holds only if every entry of each of the twelve float inputs is real. -/
theorem pre_real_all (a0 : FVec Ideal S50000x128 .f32) (a1 a2 : IVec S800000 32) (a3 a4 a5 : FVec Ideal S128x128 .f32)
    (a6 a7 a8 a9 a10 a11 : FVec Ideal S128 .f32) (a12 : FVec Ideal S128x64 .f32) (a13 : FVec Ideal S64 .f32)
    (h : Cert.Pre_finite_inputs.fn (F := Ideal) a0 a1 a2 a3 a4 a5 a6 a7 a8 a9 a10 a11 a12 a13 = fun _ => 1#1) :
    RealMat a0 ∧ RealMat a3 ∧ RealMat a4 ∧ RealMat a5 ∧ RealMat a6 ∧ RealMat a7 ∧ RealMat a8 ∧ RealMat a9
      ∧ RealMat a10 ∧ RealMat a11 ∧ RealMat a12 ∧ RealMat a13 := by
  have h0 := congrFun h ix0
  dsimp only [Cert.Pre_finite_inputs.fn, Cert.Pre_finite_inputs.fn_part1, Cert.Pre_finite_inputs.fn_part2,
    Cert.Pre_finite_inputs.fn_part3] at h0
  simp only [andi_apply, IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  exact ⟨fun i => Cert.LibFinitePre.all_real a0 _ _ _ e0 i, fun i => Cert.LibFinitePre.all_real a3 _ _ _ e3 i,
    fun i => Cert.LibFinitePre.all_real a4 _ _ _ e4 i, fun i => Cert.LibFinitePre.all_real a5 _ _ _ e5 i,
    fun i => Cert.LibFinitePre.all_real a6 _ _ _ e6 i, fun i => Cert.LibFinitePre.all_real a7 _ _ _ e7 i,
    fun i => Cert.LibFinitePre.all_real a8 _ _ _ e8 i, fun i => Cert.LibFinitePre.all_real a9 _ _ _ e9 i,
    fun i => Cert.LibFinitePre.all_real a10 _ _ _ e10 i, fun i => Cert.LibFinitePre.all_real a11 _ _ _ e11 i,
    fun i => Cert.LibFinitePre.all_real a12 _ _ _ e12 i, fun i => Cert.LibFinitePre.all_real a13 _ _ _ e13 i⟩

/-- The same for the inputs the first layers read: the features, the three weights, and the first four of the scales and
    shifts. -/
theorem pre_real (a0 : FVec Ideal S50000x128 .f32) (a1 a2 : IVec S800000 32) (a3 a4 a5 : FVec Ideal S128x128 .f32)
    (a6 a7 a8 a9 a10 a11 : FVec Ideal S128 .f32) (a12 : FVec Ideal S128x64 .f32) (a13 : FVec Ideal S64 .f32)
    (h : Cert.Pre_finite_inputs.fn (F := Ideal) a0 a1 a2 a3 a4 a5 a6 a7 a8 a9 a10 a11 a12 a13 = fun _ => 1#1) :
    RealMat a0 ∧ RealMat a3 ∧ RealMat a4 ∧ RealMat a5 ∧ RealMat a6 ∧ RealMat a7 ∧ RealMat a8 ∧ RealMat a9 := by
  obtain ⟨h0, h3, h4, h5, h6, h7, h8, h9, -⟩ := pre_real_all a0 a1 a2 a3 a4 a5 a6 a7 a8 a9 a10 a11 a12 a13 h
  exact ⟨h0, h3, h4, h5, h6, h7, h8, h9⟩

end Cert.PreReal

end
-- ==== Proof.lean ====
/-
  A three-layer graph convolution network with batch normalisation and a linear head, computed two ways, ends with
  equal results on the extended reals whenever every float input is finite.

  One layer takes the node rows h, scales row n by the degree factor of n as a source, adds up at every node the rows
  of the sources of its incoming edges, scales by the degree factor of the node as a destination, multiplies by a
  128 × 128 weight, normalises every channel over the 50000 rows, scales, shifts and rectifies. The reference does all
  of this on whole arrays, with the variance of a channel taken as the mean squared deviation from the mean.

  The tiled program does the aggregation on whole arrays too (the same operations; the rows pass through half
  precision on the way to the gather, which is the identity on the extended reals). The product is taken tile by tile,
  ten tiles of 5000 rows, each tile also leaving the column sums of its entries and of their squares; the column
  sums of the whole matrix are the sums of the ten tile sums, whatever the order. From them the mean is the column sum
  over 50000 and the variance is the mean of squares minus the squared mean, clamped at zero. On REAL entries that is
  the mean squared deviation, which is not negative, so the clamp does nothing: this is the one law of the proof that
  needs the precondition — with an infinite entry the two variances differ (∞ − ∞ is −∞ on one side and the squared
  deviation +∞ on the other). Every matrix on the way has real entries: the inputs by the precondition, a degree
  factor because rsqrt(max(d, 1)) lies in [0, 1] for every extended real d, an aggregation and a product as finite
  sums of products of reals, a normalised matrix because the variance is a real that is not negative and ε is positive.
  The normalisation is then the same formula entry by entry. The last layer's normalisation is fused with the head,
  on a weight and bias padded with 64 zero columns, and the first 64 columns of the result are kept: entry (p, e) with
  e < 64 reads only the unpadded part, so it is the head's entry.

  The frames of the two tiled programs are the generated ones. The reference is a host program: its run gives its
  frame and its result as the network of the argument arrays. The ideal pass rewrote nothing, so the fourth claim is
  trivial.
-/
import proofs.«155757_j37056977830250_2_alg».proof.Defs
import proofs.«155757_j37056977830250_2_alg».proof.Proof.Gen.Kernel
import proofs.«155757_j37056977830250_2_alg».proof.Proof.Gen.Kernel.Skeleton
import proofs.«155757_j37056977830250_2_alg».proof.Proof.Gen.Kernel.Launch
import proofs.«155757_j37056977830250_2_alg».proof.Proof.Gen.Kernel.Points
import proofs.«155757_j37056977830250_2_alg».proof.Proof.Gen.Kernel.Frame
import proofs.«155757_j37056977830250_2_alg».proof.Proof.Gen.KernelIdeal
import proofs.«155757_j37056977830250_2_alg».proof.Proof.Gen.KernelIdeal.Skeleton
import proofs.«155757_j37056977830250_2_alg».proof.Proof.Gen.KernelIdeal.Launch
import proofs.«155757_j37056977830250_2_alg».proof.Proof.Gen.KernelIdeal.Points
import proofs.«155757_j37056977830250_2_alg».proof.Proof.Gen.KernelIdeal.Frame
import proofs.«155757_j37056977830250_2_alg».proof.Proof.Gen.ReferenceIdeal
import proofs.«155757_j37056977830250_2_alg».proof.Proof.Gen.Pre_finite_inputs
import proofs.«155757_j37056977830250_2_alg».proof.Proof.KernelRun
import proofs.«155757_j37056977830250_2_alg».proof.Proof.RefRun
import proofs.«155757_j37056977830250_2_alg».proof.Proof.Side3
import proofs.«155757_j37056977830250_2_alg».proof.Proof.NetEq
import proofs.«155757_j37056977830250_2_alg».proof.Proof.PreReal
import Idealize.ShloMosaic.Adequacy
import Idealize.ShloMosaic.Init

noncomputable section

namespace Cert.Proof

open Idealize.ShloMosaic Idealize.SL.Sem

/-- The tiled program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both idealized programs end with the network of the argument arrays in the result buffer. -/
theorem algebraic : Cert.algebraic_KernelIdeal_ReferenceIdeal := by
  intro m ρ m' ρ' hpre hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Run.run_result (F := Ideal) m ρ)
    obtain ⟨r0, r3, r4, r5, r6, r7, r8, r9⟩ := Cert.PreReal.pre_real _ _ _ _ _ _ _ _ _ _ _ _ _ _ (hpre c)
    exact (Cert.KernelIdeal.Side.result m ρ c).trans
      (Cert.NetEq.net_eq _ _ _ _ _ _ _ _ _ _ _ _ _ _ r0 r3 r4 r5 r6 r7 r8 r9)
  · refine (θ_run Cert.ReferenceIdeal.defs _ _).mono (fun r h c => ⟨(h c).1.trans ?_, (h c).2⟩)
      (Cert.ReferenceIdeal.RunP.run (F := Ideal) m' ρ')
    unfold Cert.ReferenceIdeal.RunP.res_main_v152
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
